-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x256 : Shape := ⟨3, ![4096, 16, 256]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S184x5 : Shape := ⟨2, ![184, 5]⟩
abbrev S5 : Shape := ⟨1, ![5]⟩
abbrev S_ : Shape := ⟨0, ![]⟩

class Facts : Prop where
  bcast_S_S4096x16x256 : S_.BroadcastsInDim S4096x16x256 (![] : Fin 0 → Fin S4096x16x256.rank)
  reducesTo_S4096x16x256_S_d0_1_2 : S4096x16x256.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S184x5 : S_.BroadcastsInDim S184x5 (![] : Fin 0 → Fin S184x5.rank)
  reducesTo_S184x5_S_d0_1 : S184x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S184x5 .f32) (main_arg8 : FVec F S5 .f32) (main_v33 : IVec S_ 1) : IVec S_ 1 :=
  let main_v34 : FVec F S184x5 .f32 := Host.absf main_arg7
  let main_cst_12 : FVec F S_ .f32 := constant S_ .f32 0x7F800000#32
  let main_v35 : FVec F S184x5 .f32 := broadcastInDim S184x5 ![] bcast_S_S184x5 main_cst_12
  let main_v36 : IVec S184x5 1 := cmpf .olt main_v34 main_v35
  let main_c_13 : IVec S_ 1 := constantI S_ 1 1#1
  let main_v37 : IVec S_ 1 := (fun x v => Host.reduce IntOp.andi x v reducesTo_S184x5_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S512 .f32) (main_arg5 : FVec F S512x64 .f32) (main_arg6 : FVec F S64 .f32) (main_arg7 : FVec F S184x5 .f32) (main_arg8 : FVec F S5 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x16x256 .f32) (main_arg1 : FVec F S4096x1024 .f32) (main_arg2 : FVec F S1024 .f32) (main_arg3 : FVec F S1024x512 .f32) (main_arg4 : FVec F S512 .f32) (main_arg5 : FVec F S512x64 .f32) (main_arg6 : FVec F S64 .f32) (main_arg7 : FVec F S184x5 .f32) (main_arg8 : FVec F S5 .f32) : IVec S_ 1 :=
  let main_v0 : FVec F S4096x16x256 .f32 := Host.absf main_arg0
  let main_cst : FVec F S_ .f32 := constant S_ .f32 0x7F800000#32
  let main_v1 : FVec F S4096x16x256 .f32 := broadcastInDim S4096x16x256 ![] bcast_S_S4096x16x256 main_cst
  let main_v2 : IVec S4096x16x256 1 := cmpf .olt main_v0 main_v1
  let main_c : IVec S_ 1 := constantI S_ 1 1#1
  let main_v3 : IVec S_ 1 := (fun x v => Host.reduce IntOp.andi x v reducesTo_S4096x16x256_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_v13 main_v16
-- ==== Kernel.lean ====
abbrev S4096x16x256 : Shape := ⟨3, ![4096, 16, 256]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S184x5 : Shape := ⟨2, ![184, 5]⟩
abbrev S5 : Shape := ⟨1, ![5]⟩
abbrev S4096x4096 : Shape := ⟨2, ![4096, 4096]⟩
abbrev S256x4096 : Shape := ⟨2, ![256, 4096]⟩
abbrev S256x1024 : Shape := ⟨2, ![256, 1024]⟩
abbrev S1x1024 : Shape := ⟨2, ![1, 1024]⟩
abbrev S4096x512 : Shape := ⟨2, ![4096, 512]⟩
abbrev S512x1024 : Shape := ⟨2, ![512, 1024]⟩
abbrev S512x512 : Shape := ⟨2, ![512, 512]⟩
abbrev S1x512 : Shape := ⟨2, ![1, 512]⟩
abbrev S4096x64 : Shape := ⟨2, ![4096, 64]⟩
abbrev S1x64 : Shape := ⟨2, ![1, 64]⟩
abbrev S4096x120 : Shape := ⟨2, ![4096, 120]⟩
abbrev S512x16x256 : Shape := ⟨3, ![512, 16, 256]⟩
abbrev S512x120 : Shape := ⟨2, ![512, 120]⟩
abbrev S512x1x256 : Shape := ⟨3, ![512, 1, 256]⟩
abbrev S512x256 : Shape := ⟨2, ![512, 256]⟩
abbrev S512x1 : Shape := ⟨2, ![512, 1]⟩
abbrev S4096x184 : Shape := ⟨2, ![4096, 184]⟩
abbrev S4096x5 : Shape := ⟨2, ![4096, 5]⟩
abbrev S1x5 : Shape := ⟨2, ![1, 5]⟩

abbrev nBuf : Space → Nat
  | .hbm => 19
  | .vmem => 22
  | .smem => 0
  | _ => 0

abbrev bufTy : (tb : Table) → Fin (tcTables nBuf tb) → BufTy
  | .hbm, ⟨0, _⟩ => ⟨S4096x16x256, .f32⟩
  | .hbm, ⟨1, _⟩ => ⟨S4096x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S184x5, .f32⟩
  | .hbm, ⟨8, _⟩ => ⟨S5, .f32⟩
  | .hbm, ⟨9, _⟩ => ⟨S4096x4096, .f32⟩
  | .hbm, ⟨10, _⟩ => ⟨S4096x1024, .f32⟩
  | .hbm, ⟨11, _⟩ => ⟨S4096x512, .f32⟩
  | .hbm, ⟨12, _⟩ => ⟨S4096x64, .f32⟩
  | .hbm, ⟨13, _⟩ => ⟨S4096x120, .f32⟩
  | .hbm, ⟨14, _⟩ => ⟨S4096x184, .f32⟩
  | .hbm, ⟨15, _⟩ => ⟨S4096x5, .f32⟩
  | .hbm, ⟨16, _⟩ => ⟨S1x5, .f32⟩
  | .hbm, ⟨17, _⟩ => ⟨S4096x5, .f32⟩
  | .hbm, ⟨18, _⟩ => ⟨S4096x5, .f32⟩
  | .local _ .vmem, ⟨0, _⟩ => ⟨S256x4096, .f32⟩
  | .local _ .vmem, ⟨1, _⟩ => ⟨S256x4096, .f32⟩
  | .local _ .vmem, ⟨2, _⟩ => ⟨S4096x1024, .f32⟩
  | .local _ .vmem, ⟨3, _⟩ => ⟨S1024, .f32⟩
  | .local _ .vmem, ⟨4, _⟩ => ⟨S256x1024, .f32⟩
  | .local _ .vmem, ⟨5, _⟩ => ⟨S256x1024, .f32⟩
  | .local _ .vmem, ⟨6, _⟩ => ⟨S512x1024, .f32⟩
  | .local _ .vmem, ⟨7, _⟩ => ⟨S512x1024, .f32⟩
  | .local _ .vmem, ⟨8, _⟩ => ⟨S1024x512, .f32⟩
  | .local _ .vmem, ⟨9, _⟩ => ⟨S512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x64, .f32⟩
  | .local _ .vmem, ⟨15, _⟩ => ⟨S64, .f32⟩
  | .local _ .vmem, ⟨16, _⟩ => ⟨S512x64, .f32⟩
  | .local _ .vmem, ⟨17, _⟩ => ⟨S512x64, .f32⟩
  | .local _ .vmem, ⟨18, _⟩ => ⟨S512x16x256, .f32⟩
  | .local _ .vmem, ⟨19, _⟩ => ⟨S512x16x256, .f32⟩
  | .local _ .vmem, ⟨20, _⟩ => ⟨S512x120, .f32⟩
  | .local _ .vmem, ⟨21, _⟩ => ⟨S512x120, .f32⟩
  | _, _ => ⟨S4096x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x16x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x120 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  shapeCasts_S4096x16x256_S4096x4096 : S4096x16x256.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x16x256_S512x16x256_0_0_0 : ∀ a, (![0, 0, 0] : Fin 3 → Nat) a + S512x16x256.size a ≤ S512x16x256.size a
  h_S512x16x256 : 0 < S512x16x256.numel
  slices_S512x16x256_o0_0_0_S512x1x256 : S512x16x256.Slices ![0, 0, 0] S512x1x256
  shapeCasts_S512x1x256_S512x256 : S512x1x256.ShapeCasts S512x256
  slices_S512x16x256_o0_1_0_S512x1x256 : S512x16x256.Slices ![0, 1, 0] S512x1x256
  reduces_S512x256_S512 : S512x256.Reduces [1] S512
  shapeCasts_S512_S512x1 : S512.ShapeCasts S512x1
  inb_S512x120_S512x1_0_0 : ∀ a, (![0, 0] : Fin 2 → Nat) a + S512x1.size a ≤ S512x120.size a
  h_S512x1 : 0 < S512x1.numel
  slices_S512x16x256_o0_2_0_S512x1x256 : S512x16x256.Slices ![0, 2, 0] S512x1x256
  inb_S512x120_S512x1_0_1 : ∀ a, (![0, 1] : Fin 2 → Nat) a + S512x1.size a ≤ S512x120.size a
  slices_S512x16x256_o0_3_0_S512x1x256 : S512x16x256.Slices ![0, 3, 0] S512x1x256
  inb_S512x120_S512x1_0_2 : ∀ a, (![0, 2] : Fin 2 → Nat) a + S512x1.size a ≤ S512x120.size a
  slices_S512x16x256_o0_4_0_S512x1x256 : S512x16x256.Slices ![0, 4, 0] S512x1x256
  inb_S512x120_S512x1_0_3 : ∀ a, (![0, 3] : Fin 2 → Nat) a + S512x1.size a ≤ S512x120.size a
  slices_S512x16x256_o0_5_0_S512x1x256 : S512x16x256.Slices ![0, 5, 0] S512x1x256
  inb_S512x120_S512x1_0_4 : ∀ a, (![0, 4] : Fin 2 → Nat) a + S512x1.size a ≤ S512x120.size a
  slices_S512x16x256_o0_6_0_S512x1x256 : S512x16x256.Slices ![0, 6, 0] S512x1x256
  inb_S512x120_S512x1_0_5 : ∀ a, (![0, 5] : Fin 2 → Nat) a + S512x1.size a ≤ S512x120.size a
  slices_S512x16x256_o0_7_0_S512x1x256 : S512x16x256.Slices ![0, 7, 0] S512x1x256
  inb_S512x120_S512x1_0_6 : ∀ a, (![0, 6] : Fin 2 → Nat) a + S512x1.size a ≤ S512x120.size a
  slices_S512x16x256_o0_8_0_S512x1x256 : S512x16x256.Slices ![0, 8, 0] S512x1x256
  inb_S512x120_S512x1_0_7 : ∀ a, (![0, 7] : Fin 2 → Nat) a + S512x1.size a ≤ S512x120.size a
  slices_S512x16x256_o0_9_0_S512x1x256 : S512x16x256.Slices ![0, 9, 0] S512x1x256
  inb_S512x120_S512x1_0_8 : ∀ a, (![0, 8] : Fin 2 → Nat) a + S512x1.size a ≤ S512x120.size a
  slices_S512x16x256_o0_10_0_S512x1x256 : S512x16x256.Slices ![0, 10, 0] S512x1x256
  inb_S512x120_S512x1_0_9 : ∀ a, (![0, 9] : Fin 2 → Nat) a + S512x1.size a ≤ S512x120.size a
  slices_S512x16x256_o0_11_0_S512x1x256 : S512x16x256.Slices ![0, 11, 0] S512x1x256
  inb_S512x120_S512x1_0_10 : ∀ a, (![0, 10] : Fin 2 → Nat) a + S512x1.size a ≤ S512x120.size a
  slices_S512x16x256_o0_12_0_S512x1x256 : S512x16x256.Slices ![0, 12, 0] S512x1x256
  inb_S512x120_S512x1_0_11 : ∀ a, (![0, 11] : Fin 2 → Nat) a + S512x1.size a ≤ S512x120.size a
  slices_S512x16x256_o0_13_0_S512x1x256 : S512x16x256.Slices ![0, 13, 0] S512x1x256
  inb_S512x120_S512x1_0_12 : ∀ a, (![0, 12] : Fin 2 → Nat) a + S512x1.size a ≤ S512x120.size a
  slices_S512x16x256_o0_14_0_S512x1x256 : S512x16x256.Slices ![0, 14, 0] S512x1x256
  inb_S512x120_S512x1_0_13 : ∀ a, (![0, 13] : Fin 2 → Nat) a + S512x1.size a ≤ S512x120.size a
  slices_S512x16x256_o0_15_0_S512x1x256 : S512x16x256.Slices ![0, 15, 0] S512x1x256
  inb_S512x120_S512x1_0_14 : ∀ a, (![0, 14] : Fin 2 → Nat) a + S512x1.size a ≤ S512x120.size a
  inb_S512x120_S512x1_0_15 : ∀ a, (![0, 15] : Fin 2 → Nat) a + S512x1.size a ≤ S512x120.size a
  inb_S512x120_S512x1_0_16 : ∀ a, (![0, 16] : Fin 2 → Nat) a + S512x1.size a ≤ S512x120.size a
  inb_S512x120_S512x1_0_17 : ∀ a, (![0, 17] : Fin 2 → Nat) a + S512x1.size a ≤ S512x120.size a
  inb_S512x120_S512x1_0_18 : ∀ a, (![0, 18] : Fin 2 → Nat) a + S512x1.size a ≤ S512x120.size a
  inb_S512x120_S512x1_0_19 : ∀ a, (![0, 19] : Fin 2 → Nat) a + S512x1.size a ≤ S512x120.size a
  inb_S512x120_S512x1_0_20 : ∀ a, (![0, 20] : Fin 2 → Nat) a + S512x1.size a ≤ S512x120.size a
  inb_S512x120_S512x1_0_21 : ∀ a, (![0, 21] : Fin 2 → Nat) a + S512x1.size a ≤ S512x120.size a
  inb_S512x120_S512x1_0_22 : ∀ a, (![0, 22] : Fin 2 → Nat) a + S512x1.size a ≤ S512x120.size a
  inb_S512x120_S512x1_0_23 : ∀ a, (![0, 23] : Fin 2 → Nat) a + S512x1.size a ≤ S512x120.size a
  inb_S512x120_S512x1_0_24 : ∀ a, (![0, 24] : Fin 2 → Nat) a + S512x1.size a ≤ S512x120.size a
  inb_S512x120_S512x1_0_25 : ∀ a, (![0, 25] : Fin 2 → Nat) a + S512x1.size a ≤ S512x120.size a
  inb_S512x120_S512x1_0_26 : ∀ a, (![0, 26] : Fin 2 → Nat) a + S512x1.size a ≤ S512x120.size a
  inb_S512x120_S512x1_0_27 : ∀ a, (![0, 27] : Fin 2 → Nat) a + S512x1.size a ≤ S512x120.size a
  inb_S512x120_S512x1_0_28 : ∀ a, (![0, 28] : Fin 2 → Nat) a + S512x1.size a ≤ S512x120.size a
  inb_S512x120_S512x1_0_29 : ∀ a, (![0, 29] : Fin 2 → Nat) a + S512x1.size a ≤ S512x120.size a
  inb_S512x120_S512x1_0_30 : ∀ a, (![0, 30] : Fin 2 → Nat) a + S512x1.size a ≤ S512x120.size a
  inb_S512x120_S512x1_0_31 : ∀ a, (![0, 31] : Fin 2 → Nat) a + S512x1.size a ≤ S512x120.size a
  inb_S512x120_S512x1_0_32 : ∀ a, (![0, 32] : Fin 2 → Nat) a + S512x1.size a ≤ S512x120.size a
  inb_S512x120_S512x1_0_33 : ∀ a, (![0, 33] : Fin 2 → Nat) a + S512x1.size a ≤ S512x120.size a
  inb_S512x120_S512x1_0_34 : ∀ a, (![0, 34] : Fin 2 → Nat) a + S512x1.size a ≤ S512x120.size a
  inb_S512x120_S512x1_0_35 : ∀ a, (![0, 35] : Fin 2 → Nat) a + S512x1.size a ≤ S512x120.size a
  inb_S512x120_S512x1_0_36 : ∀ a, (![0, 36] : Fin 2 → Nat) a + S512x1.size a ≤ S512x120.size a
  inb_S512x120_S512x1_0_37 : ∀ a, (![0, 37] : Fin 2 → Nat) a + S512x1.size a ≤ S512x120.size a
  inb_S512x120_S512x1_0_38 : ∀ a, (![0, 38] : Fin 2 → Nat) a + S512x1.size a ≤ S512x120.size a
  inb_S512x120_S512x1_0_39 : ∀ a, (![0, 39] : Fin 2 → Nat) a + S512x1.size a ≤ S512x120.size a
  inb_S512x120_S512x1_0_40 : ∀ a, (![0, 40] : Fin 2 → Nat) a + S512x1.size a ≤ S512x120.size a
  inb_S512x120_S512x1_0_41 : ∀ a, (![0, 41] : Fin 2 → Nat) a + S512x1.size a ≤ S512x120.size a
  inb_S512x120_S512x1_0_42 : ∀ a, (![0, 42] : Fin 2 → Nat) a + S512x1.size a ≤ S512x120.size a
  inb_S512x120_S512x1_0_43 : ∀ a, (![0, 43] : Fin 2 → Nat) a + S512x1.size a ≤ S512x120.size a
  inb_S512x120_S512x1_0_44 : ∀ a, (![0, 44] : Fin 2 → Nat) a + S512x1.size a ≤ S512x120.size a
  inb_S512x120_S512x1_0_45 : ∀ a, (![0, 45] : Fin 2 → Nat) a + S512x1.size a ≤ S512x120.size a
  inb_S512x120_S512x1_0_46 : ∀ a, (![0, 46] : Fin 2 → Nat) a + S512x1.size a ≤ S512x120.size a
  inb_S512x120_S512x1_0_47 : ∀ a, (![0, 47] : Fin 2 → Nat) a + S512x1.size a ≤ S512x120.size a
  inb_S512x120_S512x1_0_48 : ∀ a, (![0, 48] : Fin 2 → Nat) a + S512x1.size a ≤ S512x120.size a
  inb_S512x120_S512x1_0_49 : ∀ a, (![0, 49] : Fin 2 → Nat) a + S512x1.size a ≤ S512x120.size a
  inb_S512x120_S512x1_0_50 : ∀ a, (![0, 50] : Fin 2 → Nat) a + S512x1.size a ≤ S512x120.size a
  inb_S512x120_S512x1_0_51 : ∀ a, (![0, 51] : Fin 2 → Nat) a + S512x1.size a ≤ S512x120.size a
  inb_S512x120_S512x1_0_52 : ∀ a, (![0, 52] : Fin 2 → Nat) a + S512x1.size a ≤ S512x120.size a
  inb_S512x120_S512x1_0_53 : ∀ a, (![0, 53] : Fin 2 → Nat) a + S512x1.size a ≤ S512x120.size a
  inb_S512x120_S512x1_0_54 : ∀ a, (![0, 54] : Fin 2 → Nat) a + S512x1.size a ≤ S512x120.size a
  inb_S512x120_S512x1_0_55 : ∀ a, (![0, 55] : Fin 2 → Nat) a + S512x1.size a ≤ S512x120.size a
  inb_S512x120_S512x1_0_56 : ∀ a, (![0, 56] : Fin 2 → Nat) a + S512x1.size a ≤ S512x120.size a
  inb_S512x120_S512x1_0_57 : ∀ a, (![0, 57] : Fin 2 → Nat) a + S512x1.size a ≤ S512x120.size a
  inb_S512x120_S512x1_0_58 : ∀ a, (![0, 58] : Fin 2 → Nat) a + S512x1.size a ≤ S512x120.size a
  inb_S512x120_S512x1_0_59 : ∀ a, (![0, 59] : Fin 2 → Nat) a + S512x1.size a ≤ S512x120.size a
  inb_S512x120_S512x1_0_60 : ∀ a, (![0, 60] : Fin 2 → Nat) a + S512x1.size a ≤ S512x120.size a
  inb_S512x120_S512x1_0_61 : ∀ a, (![0, 61] : Fin 2 → Nat) a + S512x1.size a ≤ S512x120.size a
  inb_S512x120_S512x1_0_62 : ∀ a, (![0, 62] : Fin 2 → Nat) a + S512x1.size a ≤ S512x120.size a
  inb_S512x120_S512x1_0_63 : ∀ a, (![0, 63] : Fin 2 → Nat) a + S512x1.size a ≤ S512x120.size a
  inb_S512x120_S512x1_0_64 : ∀ a, (![0, 64] : Fin 2 → Nat) a + S512x1.size a ≤ S512x120.size a
  inb_S512x120_S512x1_0_65 : ∀ a, (![0, 65] : Fin 2 → Nat) a + S512x1.size a ≤ S512x120.size a
  inb_S512x120_S512x1_0_66 : ∀ a, (![0, 66] : Fin 2 → Nat) a + S512x1.size a ≤ S512x120.size a
  inb_S512x120_S512x1_0_67 : ∀ a, (![0, 67] : Fin 2 → Nat) a + S512x1.size a ≤ S512x120.size a
  inb_S512x120_S512x1_0_68 : ∀ a, (![0, 68] : Fin 2 → Nat) a + S512x1.size a ≤ S512x120.size a
  inb_S512x120_S512x1_0_69 : ∀ a, (![0, 69] : Fin 2 → Nat) a + S512x1.size a ≤ S512x120.size a
  inb_S512x120_S512x1_0_70 : ∀ a, (![0, 70] : Fin 2 → Nat) a + S512x1.size a ≤ S512x120.size a
  inb_S512x120_S512x1_0_71 : ∀ a, (![0, 71] : Fin 2 → Nat) a + S512x1.size a ≤ S512x120.size a
  inb_S512x120_S512x1_0_72 : ∀ a, (![0, 72] : Fin 2 → Nat) a + S512x1.size a ≤ S512x120.size a
  inb_S512x120_S512x1_0_73 : ∀ a, (![0, 73] : Fin 2 → Nat) a + S512x1.size a ≤ S512x120.size a
  inb_S512x120_S512x1_0_74 : ∀ a, (![0, 74] : Fin 2 → Nat) a + S512x1.size a ≤ S512x120.size a
  inb_S512x120_S512x1_0_75 : ∀ a, (![0, 75] : Fin 2 → Nat) a + S512x1.size a ≤ S512x120.size a
  inb_S512x120_S512x1_0_76 : ∀ a, (![0, 76] : Fin 2 → Nat) a + S512x1.size a ≤ S512x120.size a
  inb_S512x120_S512x1_0_77 : ∀ a, (![0, 77] : Fin 2 → Nat) a + S512x1.size a ≤ S512x120.size a
  inb_S512x120_S512x1_0_78 : ∀ a, (![0, 78] : Fin 2 → Nat) a + S512x1.size a ≤ S512x120.size a
  inb_S512x120_S512x1_0_79 : ∀ a, (![0, 79] : Fin 2 → Nat) a + S512x1.size a ≤ S512x120.size a
  inb_S512x120_S512x1_0_80 : ∀ a, (![0, 80] : Fin 2 → Nat) a + S512x1.size a ≤ S512x120.size a
  inb_S512x120_S512x1_0_81 : ∀ a, (![0, 81] : Fin 2 → Nat) a + S512x1.size a ≤ S512x120.size a
  inb_S512x120_S512x1_0_82 : ∀ a, (![0, 82] : Fin 2 → Nat) a + S512x1.size a ≤ S512x120.size a
  inb_S512x120_S512x1_0_83 : ∀ a, (![0, 83] : Fin 2 → Nat) a + S512x1.size a ≤ S512x120.size a
  inb_S512x120_S512x1_0_84 : ∀ a, (![0, 84] : Fin 2 → Nat) a + S512x1.size a ≤ S512x120.size a
  inb_S512x120_S512x1_0_85 : ∀ a, (![0, 85] : Fin 2 → Nat) a + S512x1.size a ≤ S512x120.size a
  inb_S512x120_S512x1_0_86 : ∀ a, (![0, 86] : Fin 2 → Nat) a + S512x1.size a ≤ S512x120.size a
  inb_S512x120_S512x1_0_87 : ∀ a, (![0, 87] : Fin 2 → Nat) a + S512x1.size a ≤ S512x120.size a
  inb_S512x120_S512x1_0_88 : ∀ a, (![0, 88] : Fin 2 → Nat) a + S512x1.size a ≤ S512x120.size a
  inb_S512x120_S512x1_0_89 : ∀ a, (![0, 89] : Fin 2 → Nat) a + S512x1.size a ≤ S512x120.size a
  inb_S512x120_S512x1_0_90 : ∀ a, (![0, 90] : Fin 2 → Nat) a + S512x1.size a ≤ S512x120.size a
  inb_S512x120_S512x1_0_91 : ∀ a, (![0, 91] : Fin 2 → Nat) a + S512x1.size a ≤ S512x120.size a
  inb_S512x120_S512x1_0_92 : ∀ a, (![0, 92] : Fin 2 → Nat) a + S512x1.size a ≤ S512x120.size a
  inb_S512x120_S512x1_0_93 : ∀ a, (![0, 93] : Fin 2 → Nat) a + S512x1.size a ≤ S512x120.size a
  inb_S512x120_S512x1_0_94 : ∀ a, (![0, 94] : Fin 2 → Nat) a + S512x1.size a ≤ S512x120.size a
  inb_S512x120_S512x1_0_95 : ∀ a, (![0, 95] : Fin 2 → Nat) a + S512x1.size a ≤ S512x120.size a
  inb_S512x120_S512x1_0_96 : ∀ a, (![0, 96] : Fin 2 → Nat) a + S512x1.size a ≤ S512x120.size a
  inb_S512x120_S512x1_0_97 : ∀ a, (![0, 97] : Fin 2 → Nat) a + S512x1.size a ≤ S512x120.size a
  inb_S512x120_S512x1_0_98 : ∀ a, (![0, 98] : Fin 2 → Nat) a + S512x1.size a ≤ S512x120.size a
  inb_S512x120_S512x1_0_99 : ∀ a, (![0, 99] : Fin 2 → Nat) a + S512x1.size a ≤ S512x120.size a
  inb_S512x120_S512x1_0_100 : ∀ a, (![0, 100] : Fin 2 → Nat) a + S512x1.size a ≤ S512x120.size a
  inb_S512x120_S512x1_0_101 : ∀ a, (![0, 101] : Fin 2 → Nat) a + S512x1.size a ≤ S512x120.size a
  inb_S512x120_S512x1_0_102 : ∀ a, (![0, 102] : Fin 2 → Nat) a + S512x1.size a ≤ S512x120.size a
  inb_S512x120_S512x1_0_103 : ∀ a, (![0, 103] : Fin 2 → Nat) a + S512x1.size a ≤ S512x120.size a
  inb_S512x120_S512x1_0_104 : ∀ a, (![0, 104] : Fin 2 → Nat) a + S512x1.size a ≤ S512x120.size a
  inb_S512x120_S512x1_0_105 : ∀ a, (![0, 105] : Fin 2 → Nat) a + S512x1.size a ≤ S512x120.size a
  inb_S512x120_S512x1_0_106 : ∀ a, (![0, 106] : Fin 2 → Nat) a + S512x1.size a ≤ S512x120.size a
  inb_S512x120_S512x1_0_107 : ∀ a, (![0, 107] : Fin 2 → Nat) a + S512x1.size a ≤ S512x120.size a
  inb_S512x120_S512x1_0_108 : ∀ a, (![0, 108] : Fin 2 → Nat) a + S512x1.size a ≤ S512x120.size a
  inb_S512x120_S512x1_0_109 : ∀ a, (![0, 109] : Fin 2 → Nat) a + S512x1.size a ≤ S512x120.size a
  inb_S512x120_S512x1_0_110 : ∀ a, (![0, 110] : Fin 2 → Nat) a + S512x1.size a ≤ S512x120.size a
  inb_S512x120_S512x1_0_111 : ∀ a, (![0, 111] : Fin 2 → Nat) a + S512x1.size a ≤ S512x120.size a
  inb_S512x120_S512x1_0_112 : ∀ a, (![0, 112] : Fin 2 → Nat) a + S512x1.size a ≤ S512x120.size a
  inb_S512x120_S512x1_0_113 : ∀ a, (![0, 113] : Fin 2 → Nat) a + S512x1.size a ≤ S512x120.size a
  inb_S512x120_S512x1_0_114 : ∀ a, (![0, 114] : Fin 2 → Nat) a + S512x1.size a ≤ S512x120.size a
  inb_S512x120_S512x1_0_115 : ∀ a, (![0, 115] : Fin 2 → Nat) a + S512x1.size a ≤ S512x120.size a
  inb_S512x120_S512x1_0_116 : ∀ a, (![0, 116] : Fin 2 → Nat) a + S512x1.size a ≤ S512x120.size a
  inb_S512x120_S512x1_0_117 : ∀ a, (![0, 117] : Fin 2 → Nat) a + S512x1.size a ≤ S512x120.size a
  inb_S512x120_S512x1_0_118 : ∀ a, (![0, 118] : Fin 2 → Nat) a + S512x1.size a ≤ S512x120.size a
  inb_S512x120_S512x1_0_119 : ∀ a, (![0, 119] : Fin 2 → Nat) a + S512x1.size a ≤ S512x120.size a
  concatenates_S4096x64_S4096x120_S4096x184_d1 : Shape.Concatenates [S4096x64, S4096x120] S4096x184 1
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  dot_S256x4096_S4096x1024_S256x1024_1_0_0_1_n_n_wf : DotDims.WF S256x4096 S4096x1024 S256x1024 [1] [0] [0] [1] [] []
  dot_S512x1024_S1024x512_S512x512_1_0_0_1_n_n_wf : DotDims.WF S512x1024 S1024x512 S512x512 [1] [0] [0] [1] [] []
  dot_S512x512_S512x64_S512x64_1_0_0_1_n_n_wf : DotDims.WF S512x512 S512x64 S512x64 [1] [0] [0] [1] [] []
  dot_S4096x184_S184x5_S4096x5_1_0_0_1_n_n_wf : DotDims.WF S4096x184 S184x5 S4096x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .f32 = 32 ∨ (Rect.block (s := S4096x512) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x16x256.size a ≤ S4096x16x256.size a
  hwx3_0 : ∀ i : grid3.Coords, EltTy.bits .f32 = 32 ∨ (Rect.block (s := S4096x16x256) S512x16x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x120.size a ≤ S4096x120.size a
  hwx3_1 : ∀ i : grid3.Coords, EltTy.bits .f32 = 32 ∨ (Rect.block (s := S4096x120) S512x120.size (cc3_transform_1 i) (hinb3_1 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S4096x184_S184x5_S4096x5_1_0_0_1_n_n : DotDims S4096x184 S184x5 S4096x5 where
  lhsContracting := [1]
  rhsContracting := [0]
  lhsNonContracting := [0]
  rhsNonContracting := [1]
  lhsBatch := []
  rhsBatch := []
  wf := dot_S4096x184_S184x5_S4096x5_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S512x16x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S512x120.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S4096x16x256 : Shape := ⟨3, ![4096, 16, 256]⟩
abbrev S4096x1024 : Shape := ⟨2, ![4096, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S184x5 : Shape := ⟨2, ![184, 5]⟩
abbrev S5 : Shape := ⟨1, ![5]⟩
abbrev S4096x16x16 : Shape := ⟨3, ![4096, 16, 16]⟩
abbrev S_ : Shape := ⟨0, ![]⟩
abbrev S16x16 : Shape := ⟨2, ![16, 16]⟩
abbrev S256 : Shape := ⟨1, ![256]⟩
abbrev S120 : Shape := ⟨1, ![120]⟩
abbrev S256x1 : Shape := ⟨2, ![256, 1]⟩
abbrev S120x1 : Shape := ⟨2, ![120, 1]⟩
abbrev S120x2 : Shape := ⟨2, ![120, 2]⟩
abbrev S4096x120 : Shape := ⟨2, ![4096, 120]⟩
abbrev S4096x4096 : Shape := ⟨2, ![4096, 4096]⟩
abbrev S1x1024 : Shape := ⟨2, ![1, 1024]⟩
abbrev S4096x512 : Shape := ⟨2, ![4096, 512]⟩
abbrev S1x512 : Shape := ⟨2, ![1, 512]⟩
abbrev S4096x64 : Shape := ⟨2, ![4096, 64]⟩
abbrev S1x64 : Shape := ⟨2, ![1, 64]⟩
abbrev S4096x184 : Shape := ⟨2, ![4096, 184]⟩
abbrev S4096x5 : Shape := ⟨2, ![4096, 5]⟩
abbrev S1x5 : Shape := ⟨2, ![1, 5]⟩

abbrev nBuf : Space → Nat
  | .hbm => 169
  | .vmem => 0
  | .smem => 0
  | _ => 0

abbrev hbmTy0_0 (i : Nat) : BufTy := match i % 128 with
  | 0 => ⟨S4096x16x256, .f32⟩
  | 1 => ⟨S4096x1024, .f32⟩
  | 2 => ⟨S1024, .f32⟩
  | 3 => ⟨S1024x512, .f32⟩
  | 4 => ⟨S512, .f32⟩
  | 5 => ⟨S512x64, .f32⟩
  | 6 => ⟨S64, .f32⟩
  | 7 => ⟨S184x5, .f32⟩
  | 8 => ⟨S5, .f32⟩
  | 9 => ⟨S4096x16x16, .f32⟩
  | 10 => ⟨S_, .f32⟩
  | 11 => ⟨S16x16, .f32⟩
  | 12 => ⟨S16x16, .i32⟩
  | 13 => ⟨S_, .i32⟩
  | 14 => ⟨S16x16, .i32⟩
  | 15 => ⟨S16x16, .i32⟩
  | 16 => ⟨S16x16, .i32⟩
  | 17 => ⟨S16x16, .i1⟩
  | 18 => ⟨S_, .f32⟩
  | 19 => ⟨S16x16, .f32⟩
  | 20 => ⟨S16x16, .f32⟩
  | 21 => ⟨S_, .f32⟩
  | 22 => ⟨S16x16, .f32⟩
  | 23 => ⟨S16x16, .i1⟩
  | 24 => ⟨S256, .i1⟩
  | 25 => ⟨S256, .i32⟩
  | 26 => ⟨S_, .i32⟩
  | 27 => ⟨S_, .i32⟩
  | 28 => ⟨S256, .i32⟩
  | 29 => ⟨S_, .i32⟩
  | 30 => ⟨S120, .i32⟩
  | 31 => ⟨S_, .i32⟩
  | 32 => ⟨S_, .i32⟩
  | 33 => ⟨S256, .i32⟩
  | 34 => ⟨S256, .i32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S256x1, .i32⟩
  | 43 => ⟨S_, .i32⟩
  | 44 => ⟨S256, .i32⟩
  | 45 => ⟨S120, .i32⟩
  | 46 => ⟨S_, .i32⟩
  | 47 => ⟨S_, .i32⟩
  | 48 => ⟨S120, .i32⟩
  | 49 => ⟨S_, .i32⟩
  | 50 => ⟨S120, .i32⟩
  | 51 => ⟨S120, .i32⟩
  | 52 => ⟨S120, .i32⟩
  | 53 => ⟨S_, .i32⟩
  | 54 => ⟨S120, .i32⟩
  | 55 => ⟨S120, .i1⟩
  | 56 => ⟨S120, .i32⟩
  | 57 => ⟨S120, .i32⟩
  | 58 => ⟨S_, .i32⟩
  | 59 => ⟨S120, .i32⟩
  | 60 => ⟨S120, .i1⟩
  | 61 => ⟨S120, .i1⟩
  | 62 => ⟨S_, .i32⟩
  | 63 => ⟨S120, .i32⟩
  | 64 => ⟨S120, .i32⟩
  | 65 => ⟨S120, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S120, .i32⟩
  | 73 => ⟨S120, .i32⟩
  | 74 => ⟨S_, .i32⟩
  | 75 => ⟨S120, .i32⟩
  | 76 => ⟨S120, .i1⟩
  | 77 => ⟨S_, .i32⟩
  | 78 => ⟨S120, .i32⟩
  | 79 => ⟨S120, .i1⟩
  | 80 => ⟨S_, .i32⟩
  | 81 => ⟨S_, .i1⟩
  | 82 => ⟨S120, .i1⟩
  | 83 => ⟨S120, .i1⟩
  | 84 => ⟨S120, .i1⟩
  | 85 => ⟨S120, .i32⟩
  | 86 => ⟨S120, .i32⟩
  | 87 => ⟨S120, .i32⟩
  | 88 => ⟨S_, .i32⟩
  | 89 => ⟨S120, .i32⟩
  | 90 => ⟨S120, .i32⟩
  | 91 => ⟨S120, .i32⟩
  | 92 => ⟨S_, .i32⟩
  | 93 => ⟨S120, .i32⟩
  | 94 => ⟨S120, .i1⟩
  | 95 => ⟨S120, .i32⟩
  | 96 => ⟨S120, .i32⟩
  | 97 => ⟨S_, .i32⟩
  | 98 => ⟨S120, .i32⟩
  | 99 => ⟨S120, .i1⟩
  | 100 => ⟨S120, .i1⟩
  | 101 => ⟨S_, .i32⟩
  | 102 => ⟨S120, .i32⟩
  | 103 => ⟨S120, .i32⟩
  | 104 => ⟨S120, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S120, .i32⟩
  | 112 => ⟨S120, .i32⟩
  | 113 => ⟨S_, .i32⟩
  | 114 => ⟨S120, .i32⟩
  | 115 => ⟨S120, .i1⟩
  | 116 => ⟨S_, .i32⟩
  | 117 => ⟨S120, .i32⟩
  | 118 => ⟨S120, .i1⟩
  | 119 => ⟨S_, .i32⟩
  | 120 => ⟨S_, .i1⟩
  | 121 => ⟨S120, .i1⟩
  | 122 => ⟨S120, .i1⟩
  | 123 => ⟨S120, .i1⟩
  | 124 => ⟨S120, .i32⟩
  | 125 => ⟨S120, .i32⟩
  | 126 => ⟨S120, .i32⟩
  | 127 => ⟨S_, .i32⟩
  | _ => ⟨S4096x16x256, .f32⟩

abbrev hbmTy0_1 (i : Nat) : BufTy := match i % 128 with
  | 0 => ⟨S120, .i32⟩
  | 1 => ⟨S120, .i1⟩
  | 2 => ⟨S_, .i32⟩
  | 3 => ⟨S120, .i32⟩
  | 4 => ⟨S120, .i32⟩
  | 5 => ⟨S120, .i32⟩
  | 6 => ⟨S_, .i32⟩
  | 7 => ⟨S120, .i32⟩
  | 8 => ⟨S120, .i1⟩
  | 9 => ⟨S_, .i32⟩
  | 10 => ⟨S120, .i32⟩
  | 11 => ⟨S120, .i32⟩
  | 12 => ⟨S120, .i32⟩
  | 13 => ⟨S120x1, .i32⟩
  | 14 => ⟨S120x1, .i32⟩
  | 15 => ⟨S120x2, .i32⟩
  | 16 => ⟨S4096x120, .f32⟩
  | 17 => ⟨S4096x4096, .f32⟩
  | 18 => ⟨S4096x1024, .f32⟩
  | 19 => ⟨S1x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x512, .f32⟩
  | 26 => ⟨S1x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x64, .f32⟩
  | 33 => ⟨S1x64, .f32⟩
  | 34 => ⟨S4096x64, .f32⟩
  | 35 => ⟨S4096x64, .f32⟩
  | 36 => ⟨S4096x184, .f32⟩
  | 37 => ⟨S4096x5, .f32⟩
  | 38 => ⟨S1x5, .f32⟩
  | 39 => ⟨S4096x5, .f32⟩
  | 40 => ⟨S4096x5, .f32⟩
  | _ => ⟨S4096x16x256, .f32⟩

abbrev hbmTy (i : Nat) : BufTy := match i / 128 with
  | 0 => hbmTy0_0 i
  | 1 => hbmTy0_1 i
  | _ => ⟨S4096x16x256, .f32⟩

abbrev bufTy : (tb : Table) → Fin (tcTables nBuf tb) → BufTy
  | .hbm, ⟨i, _⟩ => hbmTy i
  | _, _ => ⟨S4096x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_v1 : Ref sig .tc := ⟨.hbm, 25, rfl⟩
abbrev main_call1_call0_c : Ref sig .tc := ⟨.hbm, 26, rfl⟩
abbrev main_call1_call0_v0 : Ref sig .tc := ⟨.hbm, 27, rfl⟩
abbrev main_v5 : Ref sig .tc := ⟨.hbm, 28, rfl⟩
abbrev main_c : Ref sig .tc := ⟨.hbm, 29, rfl⟩
abbrev main_v6 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_4 : Ref sig .tc := ⟨.hbm, 43, rfl⟩
abbrev main_v14 : Ref sig .tc := ⟨.hbm, 44, rfl⟩
abbrev main_v15 : Ref sig .tc := ⟨.hbm, 45, rfl⟩
abbrev main_call3_call0_c : Ref sig .tc := ⟨.hbm, 46, rfl⟩
abbrev main_call3_call0_v0 : Ref sig .tc := ⟨.hbm, 47, rfl⟩
abbrev main_v16 : Ref sig .tc := ⟨.hbm, 48, rfl⟩
abbrev main_c_5 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_v5 : Ref sig .tc := ⟨.hbm, 55, rfl⟩
abbrev main_call4_v6 : Ref sig .tc := ⟨.hbm, 56, rfl⟩
abbrev main_call4_v7 : Ref sig .tc := ⟨.hbm, 57, rfl⟩
abbrev main_call4_c : Ref sig .tc := ⟨.hbm, 58, rfl⟩
abbrev main_call4_v8 : Ref sig .tc := ⟨.hbm, 59, rfl⟩
abbrev main_call4_v9 : Ref sig .tc := ⟨.hbm, 60, rfl⟩
abbrev main_call4_v10 : Ref sig .tc := ⟨.hbm, 61, rfl⟩
abbrev main_call4_c_0 : Ref sig .tc := ⟨.hbm, 62, rfl⟩
abbrev main_call4_v11 : Ref sig .tc := ⟨.hbm, 63, rfl⟩
abbrev main_call4_v12 : Ref sig .tc := ⟨.hbm, 64, rfl⟩
abbrev main_v17 : Ref sig .tc := ⟨.hbm, 65, rfl⟩
abbrev main_c_6 : Ref sig .tc := ⟨.hbm, 66, rfl⟩
abbrev main_call5_v0 : Ref sig .tc := ⟨.hbm, 67, rfl⟩
abbrev main_call5_c : Ref sig .tc := ⟨.hbm, 68, rfl⟩
abbrev main_call5_v1 : Ref sig .tc := ⟨.hbm, 69, rfl⟩
abbrev main_call5_c_0 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_call5_c_1 : Ref sig .tc := ⟨.hbm, 74, rfl⟩
abbrev main_call5_v5 : Ref sig .tc := ⟨.hbm, 75, rfl⟩
abbrev main_call5_v6 : Ref sig .tc := ⟨.hbm, 76, rfl⟩
abbrev main_call5_c_2 : Ref sig .tc := ⟨.hbm, 77, rfl⟩
abbrev main_call5_v7 : Ref sig .tc := ⟨.hbm, 78, rfl⟩
abbrev main_call5_v8 : Ref sig .tc := ⟨.hbm, 79, rfl⟩
abbrev main_call5_c_3 : Ref sig .tc := ⟨.hbm, 80, rfl⟩
abbrev main_call5_v9 : Ref sig .tc := ⟨.hbm, 81, rfl⟩
abbrev main_call5_v10 : Ref sig .tc := ⟨.hbm, 82, rfl⟩
abbrev main_call5_v11 : Ref sig .tc := ⟨.hbm, 83, rfl⟩
abbrev main_call5_v12 : Ref sig .tc := ⟨.hbm, 84, rfl⟩
abbrev main_call5_v13 : Ref sig .tc := ⟨.hbm, 85, rfl⟩
abbrev main_call5_v14 : Ref sig .tc := ⟨.hbm, 86, rfl⟩
abbrev main_v18 : Ref sig .tc := ⟨.hbm, 87, rfl⟩
abbrev main_c_7 : Ref sig .tc := ⟨.hbm, 88, rfl⟩
abbrev main_call6_v0 : Ref sig .tc := ⟨.hbm, 89, rfl⟩
abbrev main_call6_v1 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_v6 : Ref sig .tc := ⟨.hbm, 95, rfl⟩
abbrev main_call6_v7 : Ref sig .tc := ⟨.hbm, 96, rfl⟩
abbrev main_call6_c : Ref sig .tc := ⟨.hbm, 97, rfl⟩
abbrev main_call6_v8 : Ref sig .tc := ⟨.hbm, 98, rfl⟩
abbrev main_call6_v9 : Ref sig .tc := ⟨.hbm, 99, rfl⟩
abbrev main_call6_v10 : Ref sig .tc := ⟨.hbm, 100, rfl⟩
abbrev main_call6_c_0 : Ref sig .tc := ⟨.hbm, 101, rfl⟩
abbrev main_call6_v11 : Ref sig .tc := ⟨.hbm, 102, rfl⟩
abbrev main_call6_v12 : Ref sig .tc := ⟨.hbm, 103, rfl⟩
abbrev main_v19 : Ref sig .tc := ⟨.hbm, 104, rfl⟩
abbrev main_c_8 : Ref sig .tc := ⟨.hbm, 105, rfl⟩
abbrev main_call7_v0 : Ref sig .tc := ⟨.hbm, 106, rfl⟩
abbrev main_call7_c : Ref sig .tc := ⟨.hbm, 107, rfl⟩
abbrev main_call7_v1 : Ref sig .tc := ⟨.hbm, 108, rfl⟩
abbrev main_call7_c_0 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_call7_c_1 : Ref sig .tc := ⟨.hbm, 113, rfl⟩
abbrev main_call7_v5 : Ref sig .tc := ⟨.hbm, 114, rfl⟩
abbrev main_call7_v6 : Ref sig .tc := ⟨.hbm, 115, rfl⟩
abbrev main_call7_c_2 : Ref sig .tc := ⟨.hbm, 116, rfl⟩
abbrev main_call7_v7 : Ref sig .tc := ⟨.hbm, 117, rfl⟩
abbrev main_call7_v8 : Ref sig .tc := ⟨.hbm, 118, rfl⟩
abbrev main_call7_c_3 : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_v12 : Ref sig .tc := ⟨.hbm, 123, rfl⟩
abbrev main_call7_v13 : Ref sig .tc := ⟨.hbm, 124, rfl⟩
abbrev main_call7_v14 : Ref sig .tc := ⟨.hbm, 125, rfl⟩
abbrev main_v20 : Ref sig .tc := ⟨.hbm, 126, rfl⟩
abbrev main_c_9 : Ref sig .tc := ⟨.hbm, 127, rfl⟩
abbrev main_v21 : Ref sig .tc := ⟨.hbm, 128, rfl⟩
abbrev main_v22 : Ref sig .tc := ⟨.hbm, 129, rfl⟩
abbrev main_c_10 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_c_11 : Ref sig .tc := ⟨.hbm, 134, rfl⟩
abbrev main_v26 : Ref sig .tc := ⟨.hbm, 135, rfl⟩
abbrev main_v27 : Ref sig .tc := ⟨.hbm, 136, rfl⟩
abbrev main_c_12 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_call8_cst : Ref sig .tc := ⟨.hbm, 150, rfl⟩
abbrev main_call8_v0 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_call9_cst : Ref sig .tc := ⟨.hbm, 157, rfl⟩
abbrev main_call9_v0 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩

abbrev nD : Nat := 1
abbrev τ : Topo := Topo.v7x

variable {F : FTy → Type} [FloatOps F]

class Facts₀ : Prop where
  bcast_S_S16x16 : S_.BroadcastsInDim S16x16 (![] : Fin 0 → Fin S16x16.rank)
  shapeCasts_S16x16_S256 : S16x16.ShapeCasts S256
  natLt_1_32 : 1 < 32
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  bcast_S_S120 : S_.BroadcastsInDim S120 (![] : Fin 0 → Fin S120.rank)
  bcast_S_S256 : S_.BroadcastsInDim S256 (![] : Fin 0 → Fin S256.rank)
  bcast_S256_S256x1_0 : S256.BroadcastsInDim S256x1 (![0] : Fin 1 → Fin S256x1.rank)
  reduceWindows_S120_S120_w120s1p119_0 : S120.ReduceWindows (![120] : Fin 1 → Nat) ![1] ![119] ![0] S120
  bcast_S120_S120x1_0 : S120.BroadcastsInDim S120x1 (![0] : Fin 1 → Fin S120x1.rank)
  concatenates_S120x1_S120x1_S120x2_d1 : Shape.Concatenates [S120x1, S120x1] S120x2 1
  shapeCasts_S4096x16x256_S4096x4096 : S4096x16x256.ShapeCasts S4096x4096
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S4096x64_S4096x120_S4096x184_d1 : Shape.Concatenates [S4096x64, S4096x120] S4096x184 1
  bcast_S5_S1x5_1 : S5.BroadcastsInDim S1x5 (![1] : Fin 1 → Fin S1x5.rank)
  bcast_S1x5_S4096x5_0_1 : S1x5.BroadcastsInDim S4096x5 (![0, 1] : Fin 2 → Fin S4096x5.rank)
  dot_S4096x16x256_S4096x16x256_S4096x16x16_2_2_1_1_0_0_wf : DotDims.WF S4096x16x256 S4096x16x256 S4096x16x16 [2] [2] [1] [1] [0] [0]
  scatter_S120_S256x1_S256_n_0_0_1_wf : ScatterDims.WF S120 S256x1 S256 [] [0] [0] 1
  gather_S4096x16x16_S120x2_S4096x120_0_12_n_n_12_1_409611_wf : GatherDims.WF S4096x16x16 S120x2 S4096x120 [0] [1, 2] [] [1, 2] [] 1 ![4096, 1, 1]
  dot_S4096x4096_S4096x1024_S4096x1024_1_0_0_1_n_n_wf : DotDims.WF S4096x4096 S4096x1024 S4096x1024 [1] [0] [0] [1] [] []
  dot_S4096x1024_S1024x512_S4096x512_1_0_0_1_n_n_wf : DotDims.WF S4096x1024 S1024x512 S4096x512 [1] [0] [0] [1] [] []
  dot_S4096x512_S512x64_S4096x64_1_0_0_1_n_n_wf : DotDims.WF S4096x512 S512x64 S4096x64 [1] [0] [0] [1] [] []
  dot_S4096x184_S184x5_S4096x5_1_0_0_1_n_n_wf : DotDims.WF S4096x184 S184x5 S4096x5 [1] [0] [0] [1] [] []

variable [Facts₀]

def dot_S4096x16x256_S4096x16x256_S4096x16x16_2_2_1_1_0_0 : DotDims S4096x16x256 S4096x16x256 S4096x16x16 where
  lhsContracting := [2]
  rhsContracting := [2]
  lhsNonContracting := [1]
  rhsNonContracting := [1]
  lhsBatch := [0]
  rhsBatch := [0]
  wf := dot_S4096x16x256_S4096x16x256_S4096x16x16_2_2_1_1_0_0_wf
def scatter_S120_S256x1_S256_n_0_0_1 : ScatterDims S120 S256x1 S256 where
  updateWindowDims := []
  insertedWindowDims := [0]
  scatterDimsToOperandDims := [0]
  indexVectorDim := 1
  wf := scatter_S120_S256x1_S256_n_0_0_1_wf
def gather_S4096x16x16_S120x2_S4096x120_0_12_n_n_12_1_409611 : GatherDims S4096x16x16 S120x2 S4096x120 where
  offsetDims := [0]
  collapsedSliceDims := [1, 2]
  operandBatchingDims := []
  startIndicesBatchingDims := []
  startIndexMap := [1, 2]
  indexVectorDim := 1
  sliceSizes := ![4096, 1, 1]
  wf := gather_S4096x16x16_S120x2_S4096x120_0_12_n_n_12_1_409611_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x184_S184x5_S4096x5_1_0_0_1_n_n : DotDims S4096x184 S184x5 S4096x5 where
  lhsContracting := [1]
  rhsContracting := [0]
  lhsNonContracting := [0]
  rhsNonContracting := [1]
  lhsBatch := []
  rhsBatch := []
  wf := dot_S4096x184_S184x5_S4096x5_1_0_0_1_n_n_wf

class Facts : Prop extends Facts₀ where

variable [Facts]
-- ==== Proof.KernelRun.lean ====
/-
  The kernel's program runs to the end with its result buffer NAMED.

  The program is a reshape on the host, four kernel regions, and five host operations.  Its buffer contents at the
  successive boundaries are a fold from the launch memory: a host stretch applies its operations, a region leaves its
  arrays at what its write-backs leave and every other buffer as it was.  Every weakly fair execution terminates in a
  state whose unscoped buffers are the last stage of that fold; read at the result buffer and at the nine arguments
  this is the statement below.  (The nine arguments are read back through the fold to the launch memory.)
-/
import proofs.«157121_j79989470920946_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_out : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Run

end
-- ==== Proof.Spec.lean ====
/-
  What the two programs compute, stated once over literal shapes, index by index, on the extended reals.

  A batch row holds 16 feature vectors of 256 entries.  The "second-order" features of a row are the 120 inner
  products of its pairs of distinct feature vectors, the pairs (i, j), i < j, taken in row-major order.  The
  "higher-order" features are three affine layers (a matrix product plus a bias row), the first two followed by a
  maximum with zero, applied to the row's 4096 entries laid side by side.  Both are sums and maxima only: no law of
  the extended reals beyond the definitions is needed to compare two programs that compute them.
-/
import Idealize.ShloMosaic.PureOps.Ideal
import Idealize.ShloMosaic.Lib.ValueIdx

noncomputable section

namespace Cert.Spec

open Idealize.ShloMosaic Idealize.ShloMosaic.ValueIdx
open scoped BigOperators

/-- The 120 pairs (i, j), 0 ≤ i < j < 16, in row-major order: (0,1), (0,2), …, (0,15), (1,2), …, (14,15). -/
def pairTab : Fin 120 → Fin 16 × Fin 16 := ![
    (0, 1), (0, 2), (0, 3), (0, 4), (0, 5), (0, 6), (0, 7), (0, 8), (0, 9), (0, 10),
    (0, 11), (0, 12), (0, 13), (0, 14), (0, 15), (1, 2), (1, 3), (1, 4), (1, 5), (1, 6),
    (1, 7), (1, 8), (1, 9), (1, 10), (1, 11), (1, 12), (1, 13), (1, 14), (1, 15), (2, 3),
    (2, 4), (2, 5), (2, 6), (2, 7), (2, 8), (2, 9), (2, 10), (2, 11), (2, 12), (2, 13),
    (2, 14), (2, 15), (3, 4), (3, 5), (3, 6), (3, 7), (3, 8), (3, 9), (3, 10), (3, 11),
    (3, 12), (3, 13), (3, 14), (3, 15), (4, 5), (4, 6), (4, 7), (4, 8), (4, 9), (4, 10),
    (4, 11), (4, 12), (4, 13), (4, 14), (4, 15), (5, 6), (5, 7), (5, 8), (5, 9), (5, 10),
    (5, 11), (5, 12), (5, 13), (5, 14), (5, 15), (6, 7), (6, 8), (6, 9), (6, 10), (6, 11),
    (6, 12), (6, 13), (6, 14), (6, 15), (7, 8), (7, 9), (7, 10), (7, 11), (7, 12), (7, 13),
    (7, 14), (7, 15), (8, 9), (8, 10), (8, 11), (8, 12), (8, 13), (8, 14), (8, 15), (9, 10),
    (9, 11), (9, 12), (9, 13), (9, 14), (9, 15), (10, 11), (10, 12), (10, 13), (10, 14), (10, 15),
    (11, 12), (11, 13), (11, 14), (11, 15), (12, 13), (12, 14), (12, 15), (13, 14), (13, 15), (14, 15)]

/-- The smaller index of pair `k`. -/
def pairI (k : Fin 120) : Fin 16 := (pairTab k).1
/-- The larger index of pair `k`. -/
def pairJ (k : Fin 120) : Fin 16 := (pairTab k).2

/-- The inner product of feature vectors `i` and `j` of batch row `r`. -/
def dotAt (x : FVec Ideal ⟨3, ![4096, 16, 256]⟩ .f32) (r : Fin 4096) (i j : Fin 16) : EReal :=
  ∑ d : Fin 256, x (ix3 r i d) * x (ix3 r j d)

/-- The second-order features: entry (r, k) is the inner product of the two feature vectors pair `k` names. -/
def pairDots (x : FVec Ideal ⟨3, ![4096, 16, 256]⟩ .f32) : FVec Ideal ⟨2, ![4096, 120]⟩ .f32 :=
  fun i => dotAt x (i 0) (pairI (i 1)) (pairJ (i 1))

theorem pairDots_apply (x : FVec Ideal ⟨3, ![4096, 16, 256]⟩ .f32) (r : Fin 4096) (k : Fin 120) :
    pairDots x (ix2 r k) = dotAt x r (pairI k) (pairJ k) := rfl

variable {M K N : Nat}

/-- One entry of an affine layer: row `p` of `a` against column `q` of `w`, plus the bias at `q`. -/
def affineAt (a : FVec Ideal ⟨2, ![M, K]⟩ .f32) (w : FVec Ideal ⟨2, ![K, N]⟩ .f32) (b : FVec Ideal ⟨1, ![N]⟩ .f32)
    (p : Fin M) (q : Fin N) : EReal :=
  (∑ k : Fin K, a (ix2 p k) * w (ix2 k q)) + b (ix1 q)

/-- An affine layer: `a · w` plus the bias row `b` added to every row. -/
def affine (a : FVec Ideal ⟨2, ![M, K]⟩ .f32) (w : FVec Ideal ⟨2, ![K, N]⟩ .f32) (b : FVec Ideal ⟨1, ![N]⟩ .f32) :
    FVec Ideal ⟨2, ![M, N]⟩ .f32 :=
  fun i => affineAt a w b (i 0) (i 1)

theorem affine_apply (a : FVec Ideal ⟨2, ![M, K]⟩ .f32) (w : FVec Ideal ⟨2, ![K, N]⟩ .f32) (b : FVec Ideal ⟨1, ![N]⟩ .f32)
    (p : Fin M) (q : Fin N) : affine a w b (ix2 p q) = affineAt a w b p q := rfl

/-- The maximum with zero, entry by entry. -/
def relu (y : FVec Ideal ⟨2, ![M, N]⟩ .f32) : FVec Ideal ⟨2, ![M, N]⟩ .f32 := fun i => max (y i) 0

theorem relu_apply (y : FVec Ideal ⟨2, ![M, N]⟩ .f32) (i : (⟨2, ![M, N]⟩ : Shape).Idx) : relu y i = max (y i) 0 := rfl

/-- The higher-order features of the rows laid side by side (`flat`, 4096 entries a row): three affine layers, the
    first two followed by the maximum with zero. -/
def hidden (flat : FVec Ideal ⟨2, ![4096, 4096]⟩ .f32)
    (W1 : FVec Ideal ⟨2, ![4096, 1024]⟩ .f32) (b1 : FVec Ideal ⟨1, ![1024]⟩ .f32)
    (W2 : FVec Ideal ⟨2, ![1024, 512]⟩ .f32) (b2 : FVec Ideal ⟨1, ![512]⟩ .f32)
    (W3 : FVec Ideal ⟨2, ![512, 64]⟩ .f32) (b3 : FVec Ideal ⟨1, ![64]⟩ .f32) : FVec Ideal ⟨2, ![4096, 64]⟩ .f32 :=
  affine (relu (affine (relu (affine flat W1 b1)) W2 b2)) W3 b3

end Cert.Spec

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Layer.lean ====
/-
  One affine layer, and the maximum with zero, as the two programs spell them.

  The kernel multiplies a block of rows by the whole weight matrix into a zero accumulator, adds the bias vector cast to
  a 1 × b row and broadcast down the rows, and (for the first two layers) takes the maximum with a splat zero.  The
  reference takes the host's product, adds the bias broadcast first to a 1 × b row and then down the rows, and takes the
  maximum with a broadcast zero scalar.  Read at an index (p, q) all four are the same sum over the contracted axis
  plus the bias at q, and the same maximum with the real zero: the specification's `affine` and `relu`.  Over any
  extents.
-/
import proofs.«157121_j79989470920946_2_alg».proof.Proof.Spec
import proofs.«157121_j79989470920946_2_alg».proof.Proof.LibPlainDot
import proofs.«157121_j79989470920946_2_alg».proof.Proof.LibRowBroadcasts

noncomputable section

namespace Cert.Layer

open Idealize.ShloMosaic Idealize.ShloMosaic.ValueIdx Cert.Spec Cert.Lib
open scoped BigOperators

variable {a c b : Nat}

/-- A length-`b` vector cast to a 1 × b row reads, at (0, q), the vector at q. -/
theorem castRow_apply {α : Type} (v : (⟨1, ![b]⟩ : Shape).Idx → α) (hc : (⟨1, ![b]⟩ : Shape).ShapeCasts ⟨2, ![1, b]⟩)
    (q : Fin b) : shapeCast ⟨2, ![1, b]⟩ v hc (ix2 (0 : Fin 1) q) = v (ix1 q) :=
  shapeCast_apply v hc _ _ (by
    rw [Shape.rowMajor_val_two, Shape.rowMajor_val_one]
    show q.val = 0 * b + q.val
    rw [Nat.zero_mul, Nat.zero_add])

/-- A length-`b` vector broadcast along dimension 1 to a 1 × b row reads, at (0, q), the vector at q. -/
theorem dimOne_apply {α : Type} (v : (⟨1, ![b]⟩ : Shape).Idx → α)
    (h1 : (⟨1, ![b]⟩ : Shape).BroadcastsInDim ⟨2, ![1, b]⟩ ![1]) (q : Fin b) :
    broadcastInDim ⟨2, ![1, b]⟩ ![1] h1 v (ix2 (0 : Fin 1) q) = v (ix1 q) :=
  broadcastInDim_apply _ h1 v (ix2 (0 : Fin 1) q) (ix1 q) fun ax => by
    match ax with
    | ⟨0, _⟩ =>
      show q.val = if b = 1 then 0 else q.val
      split
      · have := q.isLt; omega
      · rfl

/-- The kernel's layer: the product of the rows with the weights into a zero accumulator, plus the bias row. -/
theorem kernel_affine (wf : DotDims.WF ⟨2, ![a, c]⟩ ⟨2, ![c, b]⟩ ⟨2, ![a, b]⟩ [1] [0] [0] [1] [] [])
    (hs : (⟨2, ![a, c]⟩ : Shape).ShapeCasts ⟨2, ![a, c]⟩) (hc : (⟨1, ![b]⟩ : Shape).ShapeCasts ⟨2, ![1, b]⟩)
    (hb : (⟨2, ![1, b]⟩ : Shape).Broadcasts ⟨2, ![a, b]⟩)
    (x : FVec Ideal ⟨2, ![a, c]⟩ .f32) (w : FVec Ideal ⟨2, ![c, b]⟩ .f32) (bias : FVec Ideal ⟨1, ![b]⟩ .f32) :
    addf (matmul (PlainDot.dims wf) none (shapeCast ⟨2, ![a, c]⟩ x hs) w (constant ⟨2, ![a, b]⟩ .f32 0x00000000#32))
        (broadcastTo ⟨2, ![a, b]⟩ (shapeCast ⟨2, ![1, b]⟩ bias hc) hb)
      = affine x w bias := by
  funext j
  obtain ⟨p, q, rfl⟩ : ∃ (p : Fin a) (q : Fin b), j = ix2 p q := ⟨j 0, j 1, eq_ix2 j⟩
  rw [shapeCast_self, addf_apply, PlainDot.matmul_zero_apply, Rows.bcastRow_apply, castRow_apply]
  rfl

/-- The reference's layer: the host's product plus the bias broadcast to a row and then down the rows. -/
theorem host_affine (wf : DotDims.WF ⟨2, ![a, c]⟩ ⟨2, ![c, b]⟩ ⟨2, ![a, b]⟩ [1] [0] [0] [1] [] [])
    (h1 : (⟨1, ![b]⟩ : Shape).BroadcastsInDim ⟨2, ![1, b]⟩ ![1])
    (h2 : (⟨2, ![1, b]⟩ : Shape).BroadcastsInDim ⟨2, ![a, b]⟩ ![0, 1])
    (x : FVec Ideal ⟨2, ![a, c]⟩ .f32) (w : FVec Ideal ⟨2, ![c, b]⟩ .f32) (bias : FVec Ideal ⟨1, ![b]⟩ .f32) :
    addf (Host.dotGeneral (F := Ideal) (PlainDot.dims wf) none x w)
        (broadcastInDim ⟨2, ![a, b]⟩ ![0, 1] h2 (broadcastInDim ⟨2, ![1, b]⟩ ![1] h1 bias))
      = affine x w bias := by
  funext j
  obtain ⟨p, q, rfl⟩ : ∃ (p : Fin a) (q : Fin b), j = ix2 p q := ⟨j 0, j 1, eq_ix2 j⟩
  rw [addf_apply, PlainDot.dotGeneral_apply, Rows.dimRow_apply, dimOne_apply]
  rfl

/-- The kernel's maximum with a splat zero. -/
theorem kernel_relu (y : FVec Ideal ⟨2, ![a, b]⟩ .f32) :
    maximumf y (broadcast ⟨2, ![a, b]⟩ (Scalar.ofBits (F := Ideal) .f32 0x00000000#32)) = relu y := by
  funext j
  rw [maximumf_apply, broadcast_apply]
  show max (y j) (Ideal.ofBits .f32 0x00000000#32) = max (y j) 0
  rw [Ideal.ofBits_zero_f32]

/-- The reference's maximum with a zero scalar broadcast to the whole shape. -/
theorem host_relu (h0 : (⟨0, ![]⟩ : Shape).BroadcastsInDim ⟨2, ![a, b]⟩ ![])
    (y : FVec Ideal ⟨2, ![a, b]⟩ .f32) :
    maximumf y (broadcastInDim ⟨2, ![a, b]⟩ ![] h0 (constant (F := Ideal) ⟨0, ![]⟩ .f32 0x00000000#32)) = relu y := by
  funext j
  rw [maximumf_apply, broadcastInDim_apply _ h0 _ j ix0 (fun ax => ax.elim0), constant_apply, Ideal.ofBits_zero_f32]
  rfl

end Cert.Layer

end
-- ==== Proof.Dense0.lean ====
/-
  The first affine layer as the kernel computes it, block of rows by block of rows.

  The grid has 16 points; point t stages rows 256·t … 256·t + 255 of the layer's input (all 4096 columns), the whole
  4096 × 1024 weight matrix and the whole bias vector, and writes back rows 256·t … 256·t + 255 of the output (all 1024 columns).
  What it writes is the layer of the staged rows, followed by the maximum with zero; an entry of a layer depends only on its own row of the
  input, so the block written at point t is block t of the layer of the WHOLE input, and the 16 blocks tile the
  output's rows: the output array ends as that layer of the arrays the region found.
-/
import proofs.«157121_j79989470920946_2_alg».proof.Proof.Gen.KernelIdeal.Frame
import proofs.«157121_j79989470920946_2_alg».proof.Proof.Layer
import Idealize.ShloMosaic.Lib.Pipeline.Value

set_option maxRecDepth 16384

noncomputable section

namespace Cert.KernelIdeal.Dense0

open Idealize.ShloMosaic Idealize.ShloMosaic.TcCoe Idealize.ShloMosaic.ValueIdx Idealize.SL.Sem
open Idealize.ShloMosaic.Pipeline (Dat)
open Cert.KernelIdeal Cert.KernelIdeal.Gen Cert.Spec

theorem zero2 : (![0, 0] : Fin 2 → Nat) = fun _ => 0 := funext fun x => by fin_cases x <;> rfl
theorem zero1 : (![0] : Fin 1 → Nat) = fun _ => 0 := funext fun x => by fin_cases x; rfl

/-- The body's one stored value is the layer of its three loaded blocks. -/
theorem payload_eq (x0 : Vec Ideal S256x4096 .f32) (x1 : Vec Ideal S4096x1024 .f32) (x2 : Vec Ideal S1024 .f32) :
    k0_pay1 (F := Ideal) x0 x1 x2 = relu (affine x0 x1 x2) := by
  show maximumf (addf (matmul (Lib.PlainDot.dims dot_S256x4096_S4096x1024_S256x1024_1_0_0_1_n_n_wf) none (shapeCast S256x4096 x0 shapeCasts_S256x4096_S256x4096) x1 (constant S256x1024 .f32 0x00000000#32)) (broadcastTo S256x1024 (shapeCast S1x1024 x2 shapeCasts_S1024_S1x1024) broadcasts_S1x1024_S256x1024)) (broadcast S256x1024 (Scalar.ofBits (F := Ideal) .f32 0x00000000#32)) = _
  rw [Layer.kernel_affine, Layer.kernel_relu]

/-- An entry of the layer of a block of rows is the entry of the layer of the whole input at the row the block's row
    sits at: the two inputs agree along that row, and the weights and the bias are the same. -/
theorem block_entry {a A c b : Nat} (X : FVec Ideal ⟨2, ![a, c]⟩ .f32) (Xf : FVec Ideal ⟨2, ![A, c]⟩ .f32)
    (W W' : FVec Ideal ⟨2, ![c, b]⟩ .f32) (B B' : FVec Ideal ⟨1, ![b]⟩ .f32)
    (j : (⟨2, ![a, b]⟩ : Shape).Idx) (i : (⟨2, ![A, b]⟩ : Shape).Idx)
    (hW : W = W') (hB : B = B') (hq : (j 1).val = (i 1).val)
    (hX : ∀ k : Fin c, X (ix2 (j 0) k) = Xf (ix2 (i 0) k)) :
    (relu (affine X W B)) j = (relu (affine Xf W' B')) i := by
  subst hW hB
  obtain ⟨p, q, rfl⟩ : ∃ (p : Fin a) (q : Fin b), j = ix2 p q := ⟨j 0, j 1, eq_ix2 j⟩
  obtain ⟨P, q', rfl⟩ : ∃ (P : Fin A) (q' : Fin b), i = ix2 P q' := ⟨i 0, i 1, eq_ix2 i⟩
  obtain rfl : q = q' := Fin.ext hq
  have hX' : ∀ k : Fin c, X (ix2 p k) = Xf (ix2 P k) := hX
  show max (affineAt X W B p q) 0 = max (affineAt Xf W B P q) 0
  unfold affineAt
  simp only [hX']

/-- The printed index maps, decided over the grid: the input rows move with the output rows; the weights, the bias
    and the columns stay at block 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0
    ∧ win0_3.index t (0 : Fin 2) = t.val :=
  (by decide +kernel : ∀ t : Fin grid0.N, _)

variable (V : (c : Dev nD) → (b : Ref sig .tc) → Buf (Elt Ideal) ((c : Thread nD τ).loc b))

/-- What point `t` writes back is block `t` of the layer of the arrays as the region finds them. -/
theorem flushed_eq (c : Dev nD) (t : Fin cfg0.N) :
    (dat0 (F := Ideal) V c).flushed 3 t
      = ((cfg0.win 3).blk t).view.read (Elt Ideal) (relu (affine (V c main_v0) (V c main_arg1) (V c main_arg2))) := by
  show (cfg0.win 3).cut (grid0.coords t) ((dat0 V c).after 3 t) = _
  rw [after0_3]
  unfold out0_3
  rw [View.canon_unit_zero zero2]
  simp only [View.ld_unit_zero (S := S256x4096) zero2, View.ld_unit_zero (S := S4096x1024) zero2, View.ld_unit_zero (S := S1024) zero1]
  rw [payload_eq]
  obtain ⟨e0, e1, e2, e3, e4, e5, e6⟩ := index_facts t
  refine funext fun (j : S256x1024.Idx) => ?_
  refine block_entry (iblk0 V c 0 t) (V c main_v0) (iblk0 V c 1 t) (V c main_arg1) (iblk0 V c 2 t) (V c main_arg2) j
    (((cfg0.win 3).blk t).view.emb j) ?_ ?_ ?_ ?_
  · refine funext fun (y : S4096x1024.Idx) => ?_
    show V c main_arg1 (((cfg0.win 1).blk t).view.emb y) = V c main_arg1 y
    refine congrArg (V c main_arg1) (funext fun x => Fin.ext ?_)
    match x with
    | ⟨0, _⟩ => show win0_1.index t (0 : Fin 2) * 4096 + 1 * (y 0).val = (y 0).val; omega
    | ⟨1, _⟩ => show win0_1.index t (1 : Fin 2) * 1024 + 1 * (y 1).val = (y 1).val; omega
  · refine funext fun (y : S1024.Idx) => ?_
    show V c main_arg2 (((cfg0.win 2).blk t).view.emb y) = V c main_arg2 y
    refine congrArg (V c main_arg2) (funext fun x => Fin.ext ?_)
    match x with
    | ⟨0, _⟩ => show win0_2.index t (0 : Fin 1) * 1024 + 1 * (y 0).val = (y 0).val; omega
  · show (j 1).val = win0_3.index t (1 : Fin 2) * 1024 + 1 * (j 1).val
    omega
  · intro k
    show V c main_v0 (((cfg0.win 0).blk t).view.emb (ix2 (j 0) k)) = V c main_v0 (ix2 ((((cfg0.win 3).blk t).view.emb j) 0) k)
    refine congrArg (V c main_v0) (funext fun x => Fin.ext ?_)
    match x with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * k.val = k.val; omega

/-- An index of the output array is in point `t`'s block iff each coordinate is in the block's range on its axis. -/
theorem mem_block (t : Fin cfg0.N) (i : S4096x1024.Idx) :
    i ∈ ((cfg0.win 3).blk t).view.set ↔ ∀ x : Fin 2, win0_3.index t x * S256x1024.size x ≤ (i x).val ∧ (i x).val < win0_3.index t x * S256x1024.size x + S256x1024.size x := by
  show i ∈ ((View.whole main_v1).slice (win0_3.rect t)).set ↔ _
  rw [View.set_slice_whole, Rect.mem_set_unit]
  exact Iff.rfl

/-- Every row of the output lies in some point's block: row r in the block of point r / 256. -/
theorem covered (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 16 := N_0
  refine ⟨⟨(i 0).val / 256, by rw [hN]; omega⟩, flush0_3 _, ?_⟩
  rw [mem_block]
  obtain ⟨e0, e1, e2, e3, e4, e5, e6⟩ := index_facts ⟨(i 0).val / 256, by rw [hN]; omega⟩
  intro x
  match x with
  | ⟨0, _⟩ =>
    show win0_3.index ⟨(i 0).val / 256, _⟩ (0 : Fin 2) * 256 ≤ (i 0).val ∧ (i 0).val < win0_3.index ⟨(i 0).val / 256, _⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, _⟩ (1 : Fin 2) * 1024 ≤ (i 1).val ∧ (i 1).val < win0_3.index ⟨(i 0).val / 256, _⟩ (1 : Fin 2) * 1024 + 1024
    rw [e5]; omega

/-- The output array after the region: the layer of the arrays the region found. -/
theorem final (c : Dev nD) :
    (dat0 (F := Ideal) V c).arrAt 3 cfg0.N = relu (affine (V c main_v0) (V c main_arg1) (V c main_arg2)) :=
  (dat0 (F := Ideal) V c).arrAt_eq_of_cover 3 _ (fun t _ => flushed_eq V c t) covered

end Cert.KernelIdeal.Dense0

end
-- ==== Proof.Dense1.lean ====
/-
  The second affine layer as the kernel computes it, block of rows by block of rows.

  The grid has 8 points; point t stages rows 512·t … 512·t + 511 of the layer's input (all 1024 columns), the whole
  1024 × 512 weight matrix and the whole bias vector, and writes back rows 512·t … 512·t + 511 of the output (all 512 columns).
  What it writes is the layer of the staged rows, followed by the maximum with zero; an entry of a layer depends only on its own row of the
  input, so the block written at point t is block t of the layer of the WHOLE input, and the 8 blocks tile the
  output's rows: the output array ends as that layer of the arrays the region found.
-/
import proofs.«157121_j79989470920946_2_alg».proof.Proof.Gen.KernelIdeal.Frame
import proofs.«157121_j79989470920946_2_alg».proof.Proof.Layer
import Idealize.ShloMosaic.Lib.Pipeline.Value

set_option maxRecDepth 16384

noncomputable section

namespace Cert.KernelIdeal.Dense1

open Idealize.ShloMosaic Idealize.ShloMosaic.TcCoe Idealize.ShloMosaic.ValueIdx Idealize.SL.Sem
open Idealize.ShloMosaic.Pipeline (Dat)
open Cert.KernelIdeal Cert.KernelIdeal.Gen Cert.Spec

theorem zero2 : (![0, 0] : Fin 2 → Nat) = fun _ => 0 := funext fun x => by fin_cases x <;> rfl
theorem zero1 : (![0] : Fin 1 → Nat) = fun _ => 0 := funext fun x => by fin_cases x; rfl

/-- The body's one stored value is the layer of its three loaded blocks. -/
theorem payload_eq (x0 : Vec Ideal S512x1024 .f32) (x1 : Vec Ideal S1024x512 .f32) (x2 : Vec Ideal S512 .f32) :
    k1_pay1 (F := Ideal) x0 x1 x2 = relu (affine x0 x1 x2) := by
  show maximumf (addf (matmul (Lib.PlainDot.dims dot_S512x1024_S1024x512_S512x512_1_0_0_1_n_n_wf) none (shapeCast S512x1024 x0 shapeCasts_S512x1024_S512x1024) x1 (constant S512x512 .f32 0x00000000#32)) (broadcastTo S512x512 (shapeCast S1x512 x2 shapeCasts_S512_S1x512) broadcasts_S1x512_S512x512)) (broadcast S512x512 (Scalar.ofBits (F := Ideal) .f32 0x00000000#32)) = _
  rw [Layer.kernel_affine, Layer.kernel_relu]

/-- An entry of the layer of a block of rows is the entry of the layer of the whole input at the row the block's row
    sits at: the two inputs agree along that row, and the weights and the bias are the same. -/
theorem block_entry {a A c b : Nat} (X : FVec Ideal ⟨2, ![a, c]⟩ .f32) (Xf : FVec Ideal ⟨2, ![A, c]⟩ .f32)
    (W W' : FVec Ideal ⟨2, ![c, b]⟩ .f32) (B B' : FVec Ideal ⟨1, ![b]⟩ .f32)
    (j : (⟨2, ![a, b]⟩ : Shape).Idx) (i : (⟨2, ![A, b]⟩ : Shape).Idx)
    (hW : W = W') (hB : B = B') (hq : (j 1).val = (i 1).val)
    (hX : ∀ k : Fin c, X (ix2 (j 0) k) = Xf (ix2 (i 0) k)) :
    (relu (affine X W B)) j = (relu (affine Xf W' B')) i := by
  subst hW hB
  obtain ⟨p, q, rfl⟩ : ∃ (p : Fin a) (q : Fin b), j = ix2 p q := ⟨j 0, j 1, eq_ix2 j⟩
  obtain ⟨P, q', rfl⟩ : ∃ (P : Fin A) (q' : Fin b), i = ix2 P q' := ⟨i 0, i 1, eq_ix2 i⟩
  obtain rfl : q = q' := Fin.ext hq
  have hX' : ∀ k : Fin c, X (ix2 p k) = Xf (ix2 P k) := hX
  show max (affineAt X W B p q) 0 = max (affineAt Xf W B P q) 0
  unfold affineAt
  simp only [hX']

/-- The printed index maps, decided over the grid: the input rows move with the output rows; the weights, the bias
    and the columns stay at block 0. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0
    ∧ win1_3.index t (0 : Fin 2) = t.val :=
  (by decide +kernel : ∀ t : Fin grid1.N, _)

variable (V : (c : Dev nD) → (b : Ref sig .tc) → Buf (Elt Ideal) ((c : Thread nD τ).loc b))

/-- What point `t` writes back is block `t` of the layer of the arrays as the region finds them. -/
theorem flushed_eq (c : Dev nD) (t : Fin cfg1.N) :
    (dat1 (F := Ideal) V c).flushed 3 t
      = ((cfg1.win 3).blk t).view.read (Elt Ideal) (relu (affine (V c main_v1) (V c main_arg3) (V c main_arg4))) := by
  show (cfg1.win 3).cut (grid1.coords t) ((dat1 V c).after 3 t) = _
  rw [after1_3]
  unfold out1_3
  rw [View.canon_unit_zero zero2]
  simp only [View.ld_unit_zero (S := S512x1024) zero2, View.ld_unit_zero (S := S1024x512) zero2, View.ld_unit_zero (S := S512) zero1]
  rw [payload_eq]
  obtain ⟨e0, e1, e2, e3, e4, e5, e6⟩ := index_facts t
  refine funext fun (j : S512x512.Idx) => ?_
  refine block_entry (iblk1 V c 0 t) (V c main_v1) (iblk1 V c 1 t) (V c main_arg3) (iblk1 V c 2 t) (V c main_arg4) j
    (((cfg1.win 3).blk t).view.emb j) ?_ ?_ ?_ ?_
  · refine funext fun (y : S1024x512.Idx) => ?_
    show V c main_arg3 (((cfg1.win 1).blk t).view.emb y) = V c main_arg3 y
    refine congrArg (V c main_arg3) (funext fun x => Fin.ext ?_)
    match x with
    | ⟨0, _⟩ => show win1_1.index t (0 : Fin 2) * 1024 + 1 * (y 0).val = (y 0).val; omega
    | ⟨1, _⟩ => show win1_1.index t (1 : Fin 2) * 512 + 1 * (y 1).val = (y 1).val; omega
  · refine funext fun (y : S512.Idx) => ?_
    show V c main_arg4 (((cfg1.win 2).blk t).view.emb y) = V c main_arg4 y
    refine congrArg (V c main_arg4) (funext fun x => Fin.ext ?_)
    match x with
    | ⟨0, _⟩ => show win1_2.index t (0 : Fin 1) * 512 + 1 * (y 0).val = (y 0).val; omega
  · show (j 1).val = win1_3.index t (1 : Fin 2) * 512 + 1 * (j 1).val
    omega
  · intro k
    show V c main_v1 (((cfg1.win 0).blk t).view.emb (ix2 (j 0) k)) = V c main_v1 (ix2 ((((cfg1.win 3).blk t).view.emb j) 0) k)
    refine congrArg (V c main_v1) (funext fun x => Fin.ext ?_)
    match x with
    | ⟨0, _⟩ => show win1_0.index t (0 : Fin 2) * 512 + 1 * (j 0).val = win1_3.index t (0 : Fin 2) * 512 + 1 * (j 0).val; omega
    | ⟨1, _⟩ => show win1_0.index t (1 : Fin 2) * 1024 + 1 * k.val = k.val; omega

/-- An index of the output array is in point `t`'s block iff each coordinate is in the block's range on its axis. -/
theorem mem_block (t : Fin cfg1.N) (i : S4096x512.Idx) :
    i ∈ ((cfg1.win 3).blk t).view.set ↔ ∀ x : Fin 2, win1_3.index t x * S512x512.size x ≤ (i x).val ∧ (i x).val < win1_3.index t x * S512x512.size x + S512x512.size x := by
  show i ∈ ((View.whole main_v2).slice (win1_3.rect t)).set ↔ _
  rw [View.set_slice_whole, Rect.mem_set_unit]
  exact Iff.rfl

/-- Every row of the output lies in some point's block: row r in the block of point r / 512. -/
theorem covered (i : S4096x512.Idx) : ∃ t : Fin cfg1.N, (cfg1.win 3).flush t = true ∧ i ∈ ((cfg1.win 3).blk t).view.set := by
  have hi0 : (i 0).val < 4096 := (i 0).isLt
  have hi1 : (i 1).val < 512 := (i 1).isLt
  have hN : cfg1.N = 8 := N_1
  refine ⟨⟨(i 0).val / 512, by rw [hN]; omega⟩, flush1_3 _, ?_⟩
  rw [mem_block]
  obtain ⟨e0, e1, e2, e3, e4, e5, e6⟩ := index_facts ⟨(i 0).val / 512, by rw [hN]; omega⟩
  intro x
  match x with
  | ⟨0, _⟩ =>
    show win1_3.index ⟨(i 0).val / 512, _⟩ (0 : Fin 2) * 512 ≤ (i 0).val ∧ (i 0).val < win1_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, _⟩ (1 : Fin 2) * 512 ≤ (i 1).val ∧ (i 1).val < win1_3.index ⟨(i 0).val / 512, _⟩ (1 : Fin 2) * 512 + 512
    rw [e5]; omega

/-- The output array after the region: the layer of the arrays the region found. -/
theorem final (c : Dev nD) :
    (dat1 (F := Ideal) V c).arrAt 3 cfg1.N = relu (affine (V c main_v1) (V c main_arg3) (V c main_arg4)) :=
  (dat1 (F := Ideal) V c).arrAt_eq_of_cover 3 _ (fun t _ => flushed_eq V c t) covered

end Cert.KernelIdeal.Dense1

end
-- ==== Proof.Dense2.lean ====
/-
  The third affine layer as the kernel computes it, block of rows by block of rows.

  The grid has 8 points; point t stages rows 512·t … 512·t + 511 of the layer's input (all 512 columns), the whole
  512 × 64 weight matrix and the whole bias vector, and writes back rows 512·t … 512·t + 511 of the output (all 64 columns).
  What it writes is the layer of the staged rows; an entry of a layer depends only on its own row of the
  input, so the block written at point t is block t of the layer of the WHOLE input, and the 8 blocks tile the
  output's rows: the output array ends as that layer of the arrays the region found.
-/
import proofs.«157121_j79989470920946_2_alg».proof.Proof.Gen.KernelIdeal.Frame
import proofs.«157121_j79989470920946_2_alg».proof.Proof.Layer
import Idealize.ShloMosaic.Lib.Pipeline.Value

set_option maxRecDepth 16384

noncomputable section

namespace Cert.KernelIdeal.Dense2

open Idealize.ShloMosaic Idealize.ShloMosaic.TcCoe Idealize.ShloMosaic.ValueIdx Idealize.SL.Sem
open Idealize.ShloMosaic.Pipeline (Dat)
open Cert.KernelIdeal Cert.KernelIdeal.Gen Cert.Spec

theorem zero2 : (![0, 0] : Fin 2 → Nat) = fun _ => 0 := funext fun x => by fin_cases x <;> rfl
theorem zero1 : (![0] : Fin 1 → Nat) = fun _ => 0 := funext fun x => by fin_cases x; rfl

/-- The body's one stored value is the layer of its three loaded blocks. -/
theorem payload_eq (x0 : Vec Ideal S512x512 .f32) (x1 : Vec Ideal S512x64 .f32) (x2 : Vec Ideal S64 .f32) :
    k2_pay1 (F := Ideal) x0 x1 x2 = affine x0 x1 x2 := by
  show (addf (matmul (Lib.PlainDot.dims dot_S512x512_S512x64_S512x64_1_0_0_1_n_n_wf) none (shapeCast S512x512 x0 shapeCasts_S512x512_S512x512) x1 (constant S512x64 .f32 0x00000000#32)) (broadcastTo S512x64 (shapeCast S1x64 x2 shapeCasts_S64_S1x64) broadcasts_S1x64_S512x64) : FVec Ideal S512x64 .f32) = _
  rw [Layer.kernel_affine]

/-- An entry of the layer of a block of rows is the entry of the layer of the whole input at the row the block's row
    sits at: the two inputs agree along that row, and the weights and the bias are the same. -/
theorem block_entry {a A c b : Nat} (X : FVec Ideal ⟨2, ![a, c]⟩ .f32) (Xf : FVec Ideal ⟨2, ![A, c]⟩ .f32)
    (W W' : FVec Ideal ⟨2, ![c, b]⟩ .f32) (B B' : FVec Ideal ⟨1, ![b]⟩ .f32)
    (j : (⟨2, ![a, b]⟩ : Shape).Idx) (i : (⟨2, ![A, b]⟩ : Shape).Idx)
    (hW : W = W') (hB : B = B') (hq : (j 1).val = (i 1).val)
    (hX : ∀ k : Fin c, X (ix2 (j 0) k) = Xf (ix2 (i 0) k)) :
    (affine X W B) j = (affine Xf W' B') i := by
  subst hW hB
  obtain ⟨p, q, rfl⟩ : ∃ (p : Fin a) (q : Fin b), j = ix2 p q := ⟨j 0, j 1, eq_ix2 j⟩
  obtain ⟨P, q', rfl⟩ : ∃ (P : Fin A) (q' : Fin b), i = ix2 P q' := ⟨i 0, i 1, eq_ix2 i⟩
  obtain rfl : q = q' := Fin.ext hq
  have hX' : ∀ k : Fin c, X (ix2 p k) = Xf (ix2 P k) := hX
  show affineAt X W B p q = affineAt Xf W B P q
  unfold affineAt
  simp only [hX']

/-- The printed index maps, decided over the grid: the input rows move with the output rows; the weights, the bias
    and the columns stay at block 0. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0
    ∧ win2_3.index t (0 : Fin 2) = t.val :=
  (by decide +kernel : ∀ t : Fin grid2.N, _)

variable (V : (c : Dev nD) → (b : Ref sig .tc) → Buf (Elt Ideal) ((c : Thread nD τ).loc b))

/-- What point `t` writes back is block `t` of the layer of the arrays as the region finds them. -/
theorem flushed_eq (c : Dev nD) (t : Fin cfg2.N) :
    (dat2 (F := Ideal) V c).flushed 3 t
      = ((cfg2.win 3).blk t).view.read (Elt Ideal) (affine (V c main_v2) (V c main_arg5) (V c main_arg6)) := by
  show (cfg2.win 3).cut (grid2.coords t) ((dat2 V c).after 3 t) = _
  rw [after2_3]
  unfold out2_3
  rw [View.canon_unit_zero zero2]
  simp only [View.ld_unit_zero (S := S512x512) zero2, View.ld_unit_zero (S := S512x64) zero2, View.ld_unit_zero (S := S64) zero1]
  rw [payload_eq]
  obtain ⟨e0, e1, e2, e3, e4, e5, e6⟩ := index_facts t
  refine funext fun (j : S512x64.Idx) => ?_
  refine block_entry (iblk2 V c 0 t) (V c main_v2) (iblk2 V c 1 t) (V c main_arg5) (iblk2 V c 2 t) (V c main_arg6) j
    (((cfg2.win 3).blk t).view.emb j) ?_ ?_ ?_ ?_
  · refine funext fun (y : S512x64.Idx) => ?_
    show V c main_arg5 (((cfg2.win 1).blk t).view.emb y) = V c main_arg5 y
    refine congrArg (V c main_arg5) (funext fun x => Fin.ext ?_)
    match x with
    | ⟨0, _⟩ => show win2_1.index t (0 : Fin 2) * 512 + 1 * (y 0).val = (y 0).val; omega
    | ⟨1, _⟩ => show win2_1.index t (1 : Fin 2) * 64 + 1 * (y 1).val = (y 1).val; omega
  · refine funext fun (y : S64.Idx) => ?_
    show V c main_arg6 (((cfg2.win 2).blk t).view.emb y) = V c main_arg6 y
    refine congrArg (V c main_arg6) (funext fun x => Fin.ext ?_)
    match x with
    | ⟨0, _⟩ => show win2_2.index t (0 : Fin 1) * 64 + 1 * (y 0).val = (y 0).val; omega
  · show (j 1).val = win2_3.index t (1 : Fin 2) * 64 + 1 * (j 1).val
    omega
  · intro k
    show V c main_v2 (((cfg2.win 0).blk t).view.emb (ix2 (j 0) k)) = V c main_v2 (ix2 ((((cfg2.win 3).blk t).view.emb j) 0) k)
    refine congrArg (V c main_v2) (funext fun x => Fin.ext ?_)
    match x with
    | ⟨0, _⟩ => show win2_0.index t (0 : Fin 2) * 512 + 1 * (j 0).val = win2_3.index t (0 : Fin 2) * 512 + 1 * (j 0).val; omega
    | ⟨1, _⟩ => show win2_0.index t (1 : Fin 2) * 512 + 1 * k.val = k.val; omega

/-- An index of the output array is in point `t`'s block iff each coordinate is in the block's range on its axis. -/
theorem mem_block (t : Fin cfg2.N) (i : S4096x64.Idx) :
    i ∈ ((cfg2.win 3).blk t).view.set ↔ ∀ x : Fin 2, win2_3.index t x * S512x64.size x ≤ (i x).val ∧ (i x).val < win2_3.index t x * S512x64.size x + S512x64.size x := by
  show i ∈ ((View.whole main_v3).slice (win2_3.rect t)).set ↔ _
  rw [View.set_slice_whole, Rect.mem_set_unit]
  exact Iff.rfl

/-- Every row of the output lies in some point's block: row r in the block of point r / 512. -/
theorem covered (i : S4096x64.Idx) : ∃ t : Fin cfg2.N, (cfg2.win 3).flush t = true ∧ i ∈ ((cfg2.win 3).blk t).view.set := by
  have hi0 : (i 0).val < 4096 := (i 0).isLt
  have hi1 : (i 1).val < 64 := (i 1).isLt
  have hN : cfg2.N = 8 := N_2
  refine ⟨⟨(i 0).val / 512, by rw [hN]; omega⟩, flush2_3 _, ?_⟩
  rw [mem_block]
  obtain ⟨e0, e1, e2, e3, e4, e5, e6⟩ := index_facts ⟨(i 0).val / 512, by rw [hN]; omega⟩
  intro x
  match x with
  | ⟨0, _⟩ =>
    show win2_3.index ⟨(i 0).val / 512, _⟩ (0 : Fin 2) * 512 ≤ (i 0).val ∧ (i 0).val < win2_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win2_3.index ⟨(i 0).val / 512, _⟩ (1 : Fin 2) * 64 ≤ (i 1).val ∧ (i 1).val < win2_3.index ⟨(i 0).val / 512, _⟩ (1 : Fin 2) * 64 + 64
    rw [e5]; omega

/-- The output array after the region: the layer of the arrays the region found. -/
theorem final (c : Dev nD) :
    (dat2 (F := Ideal) V c).arrAt 3 cfg2.N = affine (V c main_v2) (V c main_arg5) (V c main_arg6) :=
  (dat2 (F := Ideal) V c).arrAt_eq_of_cover 3 _ (fun t _ => flushed_eq V c t) covered

end Cert.KernelIdeal.Dense2

end
-- ==== Proof.KernelChain.lean ====
/-
  The kernel program's buffers, stage by stage, as functions of the launch memory.

  The host first lays each batch row's 16 × 256 entries side by side (a reshape; it writes no argument).  Region 0
  leaves in its output the first layer followed by the maximum with zero, of that flattened input and the first
  weights and bias; region 1 the second such layer of region 0's output; region 2 the third layer (no maximum) of
  region 1's output — each region reads its weights and bias, which nothing before it has written, as launched.
  Region 3 reads the input array, which nothing has written either.  The five host operations after the regions
  join the two feature blocks side by side, multiply by the last weights and add the last bias row.
-/
import proofs.«157121_j79989470920946_2_alg».proof.Proof.Gen.KernelIdeal.Frame
import proofs.«157121_j79989470920946_2_alg».proof.Proof.Dense0
import proofs.«157121_j79989470920946_2_alg».proof.Proof.Dense1
import proofs.«157121_j79989470920946_2_alg».proof.Proof.Dense2
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-! ## The arguments after the reshape: as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The batch rows laid side by side. -/
abbrev flatOf (x : FVec Ideal S4096x16x256 .f32) : FVec Ideal S4096x4096 .f32 :=
  shapeCast S4096x4096 x shapeCasts_S4096x16x256_S4096x4096

/-- The reshape leaves the flattened input in its buffer. -/
theorem flat_eq (c : Dev nD) :
    (W1 m ρ c (Proc.devRef .tc main_v0) : S4096x4096.Idx → EReal) = flatOf (m ((c : Thread nD τ).loc main_arg0)) := by
  show StableHlo.after hostOps0 (W0 m ρ c) (Proc.devRef .tc main_v0) = _
  after_results
  rfl

/-! ## The three layers -/

/-- Region 0's output: the first layer and the maximum with zero. -/
theorem layer1_eq (c : Dev nD) :
    (W2 m ρ c (Proc.devRef .tc main_v1) : S4096x1024.Idx → EReal)
      = relu (affine (flatOf (m ((c : Thread nD τ).loc main_arg0))) (m ((c : Thread nD τ).loc main_arg1)) (m ((c : Thread nD τ).loc main_arg2))) := by
  have e0 : (V1 m ρ c main_v0 : S4096x4096.Idx → EReal) = flatOf (m ((c : Thread nD τ).loc main_arg0)) := flat_eq m ρ c
  have e1 : V1 m ρ c main_arg1 = m ((c : Thread nD τ).loc main_arg1) := W1_main_arg1 m ρ c
  have e2 : V1 m ρ c main_arg2 = m ((c : Thread nD τ).loc main_arg2) := W1_main_arg2 m ρ c
  refine ((W2_arr m ρ c 3).trans (Dense0.final (V1 m ρ) c)).trans ?_
  rw [e0, e1, e2]

/-- Region 1's output: the second layer and the maximum with zero, of region 0's output. -/
theorem layer2_eq (c : Dev nD) :
    (W3 m ρ c (Proc.devRef .tc main_v2) : S4096x512.Idx → EReal)
      = relu (affine (relu (affine (flatOf (m ((c : Thread nD τ).loc main_arg0))) (m ((c : Thread nD τ).loc main_arg1)) (m ((c : Thread nD τ).loc main_arg2))))
          (m ((c : Thread nD τ).loc main_arg3)) (m ((c : Thread nD τ).loc main_arg4))) := by
  have e0 : (V2 m ρ c main_v1 : S4096x1024.Idx → EReal) = _ := layer1_eq m ρ c
  have e1 : V2 m ρ c main_arg3 = m ((c : Thread nD τ).loc main_arg3) :=
    (W2_of_ne m ρ c main_arg3 (by decide)).trans (W1_main_arg3 m ρ c)
  have e2 : V2 m ρ c main_arg4 = m ((c : Thread nD τ).loc main_arg4) :=
    (W2_of_ne m ρ c main_arg4 (by decide)).trans (W1_main_arg4 m ρ c)
  refine ((W3_arr m ρ c 3).trans (Dense1.final (V2 m ρ) c)).trans ?_
  rw [e0, e1, e2]

/-- Region 2's output: the higher-order features. -/
theorem hidden_eq (c : Dev nD) :
    (W4 m ρ c (Proc.devRef .tc main_v3) : S4096x64.Idx → EReal)
      = hidden (flatOf (m ((c : Thread nD τ).loc main_arg0))) (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  have e0 : (V3 m ρ c main_v2 : S4096x512.Idx → EReal) = _ := layer2_eq m ρ c
  have e1 : V3 m ρ c main_arg5 = m ((c : Thread nD τ).loc main_arg5) :=
    (W3_of_ne m ρ c main_arg5 (by decide)).trans ((W2_of_ne m ρ c main_arg5 (by decide)).trans (W1_main_arg5 m ρ c))
  have e2 : V3 m ρ c main_arg6 = m ((c : Thread nD τ).loc main_arg6) :=
    (W3_of_ne m ρ c main_arg6 (by decide)).trans ((W2_of_ne m ρ c main_arg6 (by decide)).trans (W1_main_arg6 m ρ c))
  refine ((W4_arr m ρ c 3).trans (Dense2.final (V3 m ρ) c)).trans ?_
  rw [e0, e1, e2]
  rfl

/-! ## What region 3 and the host tail read -/

/-- Region 3 finds the input array as launched. -/
theorem input_at_pairs (c : Dev nD) : V4 m ρ c main_arg0 = m ((c : Thread nD τ).loc main_arg0) :=
  (W4_of_ne m ρ c main_arg0 (by decide)).trans ((W3_of_ne m ρ c main_arg0 (by decide)).trans
    ((W2_of_ne m ρ c main_arg0 (by decide)).trans (W1_main_arg0 m ρ c)))

/-- The host tail finds the higher-order features where region 2 left them. -/
theorem hidden_at_tail (c : Dev nD) :
    W5 m ρ c (Proc.devRef .tc main_v3) = W4 m ρ c (Proc.devRef .tc main_v3) := W5_of_ne m ρ c main_v3 (by decide)

/-- … and the last weights and bias as launched. -/
theorem W5_main_arg7 (c : Dev nD) : W5 m ρ c (Proc.devRef .tc main_arg7) = m ((c : Thread nD τ).loc main_arg7) :=
  (W5_of_ne m ρ c main_arg7 (by decide)).trans ((W4_of_ne m ρ c main_arg7 (by decide)).trans ((W3_of_ne m ρ c main_arg7 (by decide)).trans
    ((W2_of_ne m ρ c main_arg7 (by decide)).trans (W1_main_arg7 m ρ c))))
theorem W5_main_arg8 (c : Dev nD) : W5 m ρ c (Proc.devRef .tc main_arg8) = m ((c : Thread nD τ).loc main_arg8) :=
  (W5_of_ne m ρ c main_arg8 (by decide)).trans ((W4_of_ne m ρ c main_arg8 (by decide)).trans ((W3_of_ne m ρ c main_arg8 (by decide)).trans
    ((W2_of_ne m ρ c main_arg8 (by decide)).trans (W1_main_arg8 m ρ c))))

/-- The five host operations after the regions, as one function of the two feature blocks, the last weights and the
    last bias: the blocks side by side, times the weights, plus the bias row. -/
def tail (ho : FVec Ideal S4096x64 .f32) (so : FVec Ideal S4096x120 .f32) (Wc : FVec Ideal S184x5 .f32) (bc : FVec Ideal S5 .f32) :
    FVec Ideal S4096x5 .f32 :=
  addf (Host.dotGeneral (F := Ideal) dot_S4096x184_S184x5_S4096x5_1_0_0_1_n_n none
      (concatenate S4096x184 1 [⟨S4096x64, ho⟩, ⟨S4096x120, so⟩] concatenates_S4096x64_S4096x120_S4096x184_d1) Wc)
    (broadcastInDim S4096x5 ![0, 1] bcast_S1x5_S4096x5_0_1 (broadcastInDim S1x5 ![1] bcast_S5_S1x5_1 bc))

/-- The result buffer after the host tail. -/
theorem out_eq (c : Dev nD) :
    (W6 m ρ c (Proc.devRef .tc main_v9) : S4096x5.Idx → EReal)
      = tail (W5 m ρ c (Proc.devRef .tc main_v3)) (W5 m ρ c (Proc.devRef .tc main_v4))
          (W5 m ρ c (Proc.devRef .tc main_arg7)) (W5 m ρ c (Proc.devRef .tc main_arg8)) := by
  show StableHlo.after hostOps4 (W5 m ρ c) (Proc.devRef .tc main_v9) = _
  after_results
  rfl

end Cert.KernelIdeal.Chain

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.PairsPiece.lean ====
/-
  One column of the pairwise inner products, read at an index.

  A block holds 512 batch rows of 16 feature vectors of 256 entries.  Feature vector `a` of every row, sliced out and
  viewed as a 512 × 256 matrix, holds at (r, d) the block's entry (r, a, d): the slice shifts the middle coordinate by
  `a`, and dropping the unit middle axis keeps the row-major position.  The entrywise product of two such matrices,
  summed along each row and stored as a 512 × 1 column, therefore holds at (r, ·) the inner product
  ∑ d, x (r, a, d) · x (r, b, d) of feature vectors `a` and `b` of row r.
-/
import proofs.«157121_j79989470920946_2_alg».proof.Proof.Gen.KernelIdeal.Skeleton
import proofs.«157121_j79989470920946_2_alg».proof.Proof.LibKeepdims
import Idealize.ShloMosaic.PureOps.Ideal.Laws
import Idealize.ShloMosaic.Lib.Pipeline.Value
import Idealize.ShloMosaic.Lib.ValueIdx

noncomputable section

namespace Cert.KernelIdeal.Pairs

open Cert.KernelIdeal Cert.KernelIdeal.Gen
open Idealize.ShloMosaic Idealize.ShloMosaic.ValueIdx
open scoped BigOperators

/-- Feature vector `a` of every row of the block, as a 512 × 256 matrix. -/
def rowsOf (a : Nat) (ha : S512x16x256.Slices ![0, a, 0] S512x1x256) (x0 : Vec Ideal S512x16x256 .f32) :
    FVec Ideal S512x256 .f32 :=
  shapeCast S512x256 (extractStridedSlice S512x1x256 ![0, a, 0] x0 ha) shapeCasts_S512x1x256_S512x256

/-- Its entry (r, d) is the block's entry (r, a, d). -/
theorem rowsOf_apply (a : Nat) (ha : S512x16x256.Slices ![0, a, 0] S512x1x256) (x0 : Vec Ideal S512x16x256 .f32)
    (r : Fin 512) (d : Fin 256) (i : Fin 16) (hi : i.val = a) :
    rowsOf a ha x0 (ix2 r d) = x0 (ix3 r i d) := by
  unfold rowsOf
  refine (shapeCast_apply _ shapeCasts_S512x1x256_S512x256 (ix2 r d) (ix3 r (0 : Fin 1) d) ?_).trans ?_
  · rw [Shape.rowMajor_val_three, Shape.rowMajor_val_two]
    show (r.val * 1 + 0) * 256 + d.val = r.val * 256 + d.val
    omega
  · exact extractStridedSlice_apply ![0, a, 0] x0 ha (ix3 r (0 : Fin 1) d) (ix3 r i d) fun ax => by
      match ax with
      | ⟨0, _⟩ => show r.val = 0 + r.val; omega
      | ⟨1, _⟩ => show i.val = a + 0; omega
      | ⟨2, _⟩ => show d.val = 0 + d.val; omega

/-- The row sums of the entrywise product of feature vectors `a` and `b`, before they are laid out as a column. -/
def dotVec (a b : Nat) (ha : S512x16x256.Slices ![0, a, 0] S512x1x256) (hb : S512x16x256.Slices ![0, b, 0] S512x1x256)
    (x0 : Vec Ideal S512x16x256 .f32) : FVec Ideal S512 .f32 :=
  multiReduction .add [1] S512 (mulf (rowsOf a ha x0) (rowsOf b hb x0)) 0x00000000#32 reduces_S512x256_S512 (.inl rfl) rfl

/-- Entry r of the row sums is the inner product of feature vectors `a` and `b` of row r. -/
theorem dotVec_apply (a b : Nat) (ha : S512x16x256.Slices ![0, a, 0] S512x1x256)
    (hb : S512x16x256.Slices ![0, b, 0] S512x1x256) (x0 : Vec Ideal S512x16x256 .f32)
    (r : Fin 512) (i j : Fin 16) (hi : i.val = a) (hj : j.val = b) :
    dotVec a b ha hb x0 (ix1 r) = ∑ d : Fin 256, x0 (ix3 r i d) * x0 (ix3 r j d) := by
  unfold dotVec
  refine (Ideal.multiReduction_add_single (mulf (rowsOf a ha x0) (rowsOf b hb x0)) 0x00000000#32
    reduces_S512x256_S512 (.inl rfl) rfl (ix1 r)).trans ?_
  show ∑ d : Fin 256, mulf (rowsOf a ha x0) (rowsOf b hb x0) (reduces_S512x256_S512.lift (ix1 r) d) = _
  refine Finset.sum_congr rfl fun d _ => ?_
  have e : reduces_S512x256_S512.lift (ix1 r) d = ix2 r d := by
    funext ax; apply Fin.ext
    match ax with
    | ⟨0, _⟩ => rfl
    | ⟨1, _⟩ => rfl
  rw [e, mulf_apply, rowsOf_apply a ha x0 r d i hi, rowsOf_apply b hb x0 r d j hj]

/-- The column of inner products of feature vectors `a` and `b`: the row sums laid out 512 × 1. -/
def dotCol (a b : Nat) (ha : S512x16x256.Slices ![0, a, 0] S512x1x256) (hb : S512x16x256.Slices ![0, b, 0] S512x1x256)
    (x0 : Vec Ideal S512x16x256 .f32) : FVec Ideal S512x1 .f32 :=
  shapeCast S512x1 (dotVec a b ha hb x0) shapeCasts_S512_S512x1

/-- Entry (r, ·) of the column is the inner product of feature vectors `a` and `b` of row r. -/
theorem dotCol_apply (a b : Nat) (ha : S512x16x256.Slices ![0, a, 0] S512x1x256)
    (hb : S512x16x256.Slices ![0, b, 0] S512x1x256) (x0 : Vec Ideal S512x16x256 .f32)
    (r : Fin 512) (u : Fin 1) (i j : Fin 16) (hi : i.val = a) (hj : j.val = b) :
    dotCol a b ha hb x0 (ix2 r u) = ∑ d : Fin 256, x0 (ix3 r i d) * x0 (ix3 r j d) := by
  unfold dotCol
  exact (Cert.Lib.Keepdims.col_apply (dotVec a b ha hb x0) shapeCasts_S512_S512x1 r u).trans
    (dotVec_apply a b ha hb x0 r i j hi hj)

end Cert.KernelIdeal.Pairs

end
-- ==== Proof.PairsColumn.lean ====
/-
  The 120 columns of one block's pairwise inner products, as pieces of ONE function.

  The block's inner products form a 512 × 120 array: entry (r, k) is the inner product of the two feature vectors of
  row r that pair k names.  A column of inner products of feature vectors `a` and `b`, placed at column `c` of that
  array, agrees with it entry by entry exactly when pair `c` is (a, b).  A list of such columns is then a list of pieces
  of the one array, whatever its length and order.
-/
import proofs.«157121_j79989470920946_2_alg».proof.Proof.Gen.KernelIdeal.Frame
import proofs.«157121_j79989470920946_2_alg».proof.Proof.PairsPiece
import proofs.«157121_j79989470920946_2_alg».proof.Proof.Spec

set_option maxRecDepth 16384

noncomputable section

namespace Cert.KernelIdeal.Pairs

open Cert.KernelIdeal Cert.KernelIdeal.Gen Cert.Spec
open Idealize.ShloMosaic Idealize.ShloMosaic.ValueIdx
open scoped BigOperators

/-- The inner products of one block of 512 batch rows: entry (r, k) is the inner product of the two feature vectors
    of row r that pair k names. -/
def blockDots (x0 : Vec Ideal S512x16x256 .f32) : Vec Ideal S512x120 .f32 :=
  fun y => ∑ d : Fin 256, x0 (ix3 (y 0) (pairI (y 1)) d) * x0 (ix3 (y 0) (pairJ (y 1)) d)

theorem blockDots_apply (x0 : Vec Ideal S512x16x256 .f32) (r : Fin 512) (k : Fin 120) :
    blockDots x0 (ix2 r k) = ∑ d : Fin 256, x0 (ix3 r (pairI k) d) * x0 (ix3 r (pairJ k) d) := rfl

/-- The column of inner products of feature vectors `a` and `b`, placed at column `c` of the 512 × 120 array, is
    that column of the block's inner products when pair `c` is (a, b). -/
theorem piece_ok (x0 : Vec Ideal S512x16x256 .f32) (c a b : Nat) (hc : c < 120)
    (ha : S512x16x256.Slices ![0, a, 0] S512x1x256) (hb : S512x16x256.Slices ![0, b, 0] S512x1x256)
    (inb : ∀ ax, (![0, c] : Fin 2 → Nat) ax + S512x1.size ax ≤ S512x120.size ax)
    (hI : (pairI ⟨c, hc⟩).val = a) (hJ : (pairJ ⟨c, hc⟩).val = b)
    (x : (Rect.unit (s := S512x120) ![0, c] S512x1.size inb).shape.Idx) :
    dotCol a b ha hb x0 x = blockDots x0 ((Rect.unit (s := S512x120) ![0, c] S512x1.size inb).emb x) := by
  obtain ⟨r, u, rfl⟩ : ∃ (r : Fin 512) (u : Fin 1), x = ix2 r u := ⟨x 0, x 1, eq_ix2 x⟩
  have e : (Rect.unit (s := S512x120) ![0, c] S512x1.size inb).emb (ix2 r u) = ix2 r ⟨c, hc⟩ := by
    funext ax; apply Fin.ext
    match ax with
    | ⟨0, _⟩ => show 0 + 1 * r.val = r.val; omega
    | ⟨1, _⟩ => show c + 1 * u.val = c; omega
  rw [e, blockDots_apply]
  exact dotCol_apply a b ha hb x0 r u _ _ hI hJ

/-- No piece: nothing to check. -/
theorem ok_nil (x0 : Vec Ideal S512x16x256 .f32) :
    ∀ p ∈ ([] : List (View.Piece (Elt Ideal) S512x120 .f32)), ∀ x : p.1.shape.Idx, p.2 x = blockDots x0 (p.1.emb x) :=
  fun _ h => absurd h List.not_mem_nil

/-- One more piece of the block's inner products in front of a list of them. -/
theorem ok_cons (x0 : Vec Ideal S512x16x256 .f32) {r : Rect S512x120} {w : r.shape.Idx → Elt Ideal .f32}
    {L : List (View.Piece (Elt Ideal) S512x120 .f32)} (h : ∀ x : r.shape.Idx, w x = blockDots x0 (r.emb x))
    (hL : ∀ p ∈ L, ∀ x : p.1.shape.Idx, p.2 x = blockDots x0 (p.1.emb x)) :
    ∀ p ∈ ((⟨r, w⟩ : View.Piece (Elt Ideal) S512x120 .f32) :: L), ∀ x : p.1.shape.Idx, p.2 x = blockDots x0 (p.1.emb x) :=
  List.forall_mem_cons.2 ⟨h, hL⟩

end Cert.KernelIdeal.Pairs

end
-- ==== Proof.PairsBlock.lean ====
/-
  What the body leaves in the 512 × 120 buffer: the block's pairwise inner products.

  The body loads the whole 512 × 16 × 256 block and makes 120 stores, one per pair of feature vectors, each through one
  column of the buffer, all 512 rows.  Every stored column is the matching column of ONE array, the block's inner
  products; the 120 columns tile the buffer; so the buffer ends holding that array.
-/
import proofs.«157121_j79989470920946_2_alg».proof.Proof.PairsTable

set_option maxRecDepth 16384

noncomputable section

namespace Cert.KernelIdeal.Pairs

open Cert.KernelIdeal Cert.KernelIdeal.Gen Cert.Spec
open Idealize.ShloMosaic Idealize.ShloMosaic.ValueIdx
open scoped BigOperators

/-- The offsets of the whole-block load are all zero. -/
theorem zeroOff3 : (![0, 0, 0] : Fin 3 → Nat) = fun _ => 0 := funext fun a => by fin_cases a <;> rfl

/-- The buffer after the body is the block's inner products: every store is a column of them, and the columns cover
    the buffer. -/
theorem out3_1_eq (x0 : Vec Ideal S512x16x256 .f32) : out3_1 x0 = blockDots x0 := by
  funext y
  unfold out3_1
  rw [View.ld_unit_zero zeroOff3 inb_S512x16x256_S512x16x256_0_0_0 x0]
  exact View.canon_apply_of_pieces (blockDots x0) _ (table x0) y (cover3_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)

/-- Entry (r, k) of the buffer after the body: the inner product of the two feature vectors of row r that pair k names. -/
theorem out3_1_apply (x0 : Vec Ideal S512x16x256 .f32) (r : Fin 512) (k : Fin 120) :
    out3_1 x0 (ix2 r k) = ∑ d : Fin 256, x0 (ix3 r (pairI k) d) * x0 (ix3 r (pairJ k) d) := by
  rw [out3_1_eq, blockDots_apply]

end Cert.KernelIdeal.Pairs

end
-- ==== Proof.PairsValue.lean ====
/-
  The array of pairwise inner products the pairs region leaves.

  The region visits 8 points; point t reads rows 512·t … 512·t + 511 of the 4096 × 16 × 256 input, all 16 feature
  vectors and all 256 entries, and writes back rows 512·t … 512·t + 511 of the 4096 × 120 output, all 120 columns.  What
  it writes back is the block's inner products, which are the rows 512·t … of the whole input's inner products; the 8
  row blocks cover the output; so the output ends holding the inner products of the whole input.
-/
import proofs.«157121_j79989470920946_2_alg».proof.Proof.PairsBlock
import Idealize.ShloMosaic.Lib.Pipeline.Value

set_option maxRecDepth 16384

noncomputable section

namespace Cert.KernelIdeal.Pairs

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

/-- A block whose rows are rows 512·T … of an array `A` has, as its inner products, rows 512·T … of `A`'s. -/
theorem block_eq (A : FVec Ideal ⟨3, ![4096, 16, 256]⟩ .f32) (x0 : Vec Ideal S512x16x256 .f32) (T : Nat)
    (hx : ∀ (r : Fin 512) (i : Fin 16) (d : Fin 256) (R : Fin 4096), R.val = T * 512 + 1 * r.val →
      x0 (ix3 r i d) = A (ix3 R i d))
    (r : Fin 512) (k : Fin 120) (R : Fin 4096) (hR : R.val = T * 512 + 1 * r.val) :
    out3_1 x0 (ix2 r k) = pairDots A (ix2 R k) := by
  rw [out3_1_apply, pairDots_apply]
  unfold dotAt
  exact Finset.sum_congr rfl fun d _ => by rw [hx r (pairI k) d R hR, hx r (pairJ k) d R hR]

variable (V : (c : Dev nD) → (b : Ref sig .tc) → Buf (Elt Ideal) ((c : Thread nD τ).loc b))

/-- The two index maps over the 8 points: point t names row block t of the input and of the output, and block 0 on
    every other axis. -/
theorem idx_facts : ∀ t : Fin cfg3.N,
    win3_0.index t (0 : Fin 3) = t.val ∧ win3_0.index t (1 : Fin 3) = 0 ∧ win3_0.index t (2 : Fin 3) = 0
    ∧ win3_1.index t (0 : Fin 2) = t.val ∧ win3_1.index t (1 : Fin 2) = 0 :=
  (by decide +kernel : ∀ t : Fin grid3.N, _)

/-- What point t writes back is row block t of the inner products of the input as the region finds it. -/
theorem flushed_eq (c : Dev nD) (t : Fin cfg3.N) :
    (dat3 (F := Ideal) V c).flushed 1 t
      = ((cfg3.win 1).blk t).view.read (Elt Ideal) (pairDots (V c main_arg0)) := by
  show (cfg3.win 1).cut (grid3.coords t) ((dat3 V c).after 1 t) = _
  rw [after3_1]
  obtain ⟨e0, e1, e2, e3, e4⟩ := idx_facts t
  have hN : grid3.N = 8 := N_3
  have ht : t.val < 8 := by have h : t.val < grid3.N := t.isLt; omega
  funext j
  have hj0 : (j 0).val < 512 := (j 0).isLt
  have hj1 : (j 1).val < 120 := (j 1).isLt
  have hR : t.val * 512 + 1 * (j 0).val < 4096 := by omega
  have hl : (cfg3.win 1).xinj (grid3.coords t) j = ix2 ⟨(j 0).val, hj0⟩ ⟨(j 1).val, hj1⟩ := by
    funext a
    match a with
    | ⟨0, _⟩ => rfl
    | ⟨1, _⟩ => rfl
  have hr : ((cfg3.win 1).blk t).view.emb j = ix2 ⟨t.val * 512 + 1 * (j 0).val, hR⟩ ⟨(j 1).val, hj1⟩ := by
    funext a; apply Fin.ext
    match a with
    | ⟨0, _⟩ =>
      show win3_1.index t (0 : Fin 2) * 512 + 1 * (j 0).val = t.val * 512 + 1 * (j 0).val
      rw [e3]
    | ⟨1, _⟩ =>
      show win3_1.index t (1 : Fin 2) * 120 + 1 * (j 1).val = (j 1).val
      rw [e4]; omega
  show out3_1 (iblk3 V c 0 t) ((cfg3.win 1).xinj (grid3.coords t) j)
    = pairDots (V c main_arg0) (((cfg3.win 1).blk t).view.emb j)
  rw [hl, hr]
  refine block_eq (V c main_arg0) (iblk3 V c 0 t) t.val (fun r i d R hRr => ?_) _ _ _ rfl
  show V c main_arg0 (((cfg3.win 0).blk t).view.emb (ix3 r i d)) = V c main_arg0 (ix3 R i d)
  refine congrArg _ (funext fun a => Fin.ext ?_)
  match a with
  | ⟨0, _⟩ =>
    show win3_0.index t (0 : Fin 3) * 512 + 1 * r.val = R.val
    rw [e0, hRr]
  | ⟨1, _⟩ =>
    show win3_0.index t (1 : Fin 3) * 16 + 1 * i.val = i.val
    rw [e1]; omega
  | ⟨2, _⟩ =>
    show win3_0.index t (2 : Fin 3) * 256 + 1 * d.val = d.val
    rw [e2]; omega

/-- An index of the output is in point t's block iff each coordinate is in the block's range on its axis. -/
theorem mem_blk (t : Fin cfg3.N) (i : S4096x120.Idx) :
    i ∈ ((cfg3.win 1).blk t).view.set ↔ ∀ a : Fin 2, win3_1.index t a * S512x120.size a ≤ (i a).val
      ∧ (i a).val < win3_1.index t a * S512x120.size a + S512x120.size a := by
  show i ∈ ((View.whole main_v4).slice (win3_1.rect t)).set ↔ _
  rw [View.set_slice_whole, Rect.mem_set_unit]
  exact Iff.rfl

/-- Every index of the output is in the block of the point that owns its row: row R belongs to point R / 512. -/
theorem cover (i : S4096x120.Idx) :
    ∃ t : Fin cfg3.N, (cfg3.win 1).flush t = true ∧ i ∈ ((cfg3.win 1).blk t).view.set := by
  have hi0 : (i 0).val < 4096 := (i 0).isLt
  have hi1 : (i 1).val < 120 := (i 1).isLt
  have hN : grid3.N = 8 := N_3
  have hq : (i 0).val / 512 < grid3.N := by omega
  obtain ⟨-, -, -, e3, e4⟩ := idx_facts ⟨(i 0).val / 512, hq⟩
  refine ⟨⟨(i 0).val / 512, hq⟩, flush3_1 _, ?_⟩
  rw [mem_blk]
  intro a
  match a with
  | ⟨0, _⟩ =>
    show win3_1.index ⟨(i 0).val / 512, hq⟩ (0 : Fin 2) * 512 ≤ (i 0).val
      ∧ (i 0).val < win3_1.index ⟨(i 0).val / 512, hq⟩ (0 : Fin 2) * 512 + 512
    rw [e3]
    show (i 0).val / 512 * 512 ≤ (i 0).val ∧ (i 0).val < (i 0).val / 512 * 512 + 512
    omega
  | ⟨1, _⟩ =>
    show win3_1.index ⟨(i 0).val / 512, hq⟩ (1 : Fin 2) * 120 ≤ (i 1).val
      ∧ (i 1).val < win3_1.index ⟨(i 0).val / 512, hq⟩ (1 : Fin 2) * 120 + 120
    rw [e4]; omega

/-- THE ARRAY the region leaves: the pairwise inner products of the input as the region finds it. -/
theorem final (c : Dev nD) :
    (dat3 (F := Ideal) V c).arrAt 1 cfg3.N = pairDots (V c main_arg0) :=
  (dat3 V c).arrAt_eq_of_cover 1 (pairDots (V c main_arg0)) (fun t _ => flushed_eq V c t) cover

end Cert.KernelIdeal.Pairs

end
-- ==== Proof.KernelValue.lean ====
/-
  The kernel program's result as one function of its arguments.

  Its run ends with the result buffer at the last stage of the fold of buffer contents; that stage is the host tail
  applied to the higher-order features region 2 left, the second-order features region 3 left (the pairwise inner
  products of the input as launched), and the last weights and bias as launched.
-/
import proofs.«157121_j79989470920946_2_alg».proof.Proof.KernelRun
import proofs.«157121_j79989470920946_2_alg».proof.Proof.KernelChain
import proofs.«157121_j79989470920946_2_alg».proof.Proof.PairsValue

set_option maxRecDepth 16384

noncomputable section

namespace Cert.KernelIdeal.Value

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

/-- The result of the program on core `c`, from the launch memory. -/
def result (c : Dev nD) : FVec Ideal S4096x5 .f32 :=
  Chain.tail
    (hidden (Chain.flatOf (m ((c : Thread nD τ).loc main_arg0))) (m ((c : Thread nD τ).loc main_arg1)) (m ((c : Thread nD τ).loc main_arg2))
      (m ((c : Thread nD τ).loc main_arg3)) (m ((c : Thread nD τ).loc main_arg4))
      (m ((c : Thread nD τ).loc main_arg5)) (m ((c : Thread nD τ).loc main_arg6)))
    (pairDots (m ((c : Thread nD τ).loc main_arg0)))
    (m ((c : Thread nD τ).loc main_arg7)) (m ((c : Thread nD τ).loc main_arg8))

/-- Region 3's output when the host tail reads it: the pairwise inner products of the input as launched. -/
theorem pairs_at_tail (c : Dev nD) :
    (W5 m ρ c (Proc.devRef .tc main_v4) : S4096x120.Idx → EReal) = pairDots (m ((c : Thread nD τ).loc main_arg0)) := by
  refine ((W5_arr m ρ c 1).trans (Pairs.final (V4 m ρ) c)).trans ?_
  rw [Chain.input_at_pairs m ρ c]

/-- The last stage of the fold at the result buffer. -/
theorem out_eq (c : Dev nD) : (W6 m ρ c (Proc.devRef .tc main_v9) : S4096x5.Idx → EReal) = result m c := by
  rw [Chain.out_eq, Chain.hidden_at_tail, Chain.hidden_eq, pairs_at_tail, Chain.W5_main_arg7, Chain.W5_main_arg8]
  rfl

/-- Every weakly fair execution of the kernel program terminates with its result at `result` and its arguments
    unchanged. -/
theorem run : θ_run (defs (F := Ideal)) (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c => ⟨(h c).1.trans (out_eq m ρ c), (h c).2⟩) (Run.run_out m ρ)

end Cert.KernelIdeal.Value

end
-- ==== Proof.RefOps.lean ====
/-
  The reference program as one straight line of host operations.

  The program is its own statements with every call of a module-local function replaced by the function's
  operations over that call's buffers; each operation is written at the buffers themselves, with its function at
  the buffers' value types.  The line is cut into six stretches: up to the running count of the scattered marks
  (the flat positions of the pairs), the two quotient-and-remainder computations, the assembly of the index table
  and the gather, and the two halves of the dense layers.  Running the program is running the stretches in order.
-/
import proofs.«157121_j79989470920946_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The pairwise inner products; the upper-triangle mask of a 16 by 16 table, its running count over the 256 positions, and the running count of the scattered marks over the 120 slots. -/
abbrev sA : List (HloOp τ sig (Elt F)) :=
  [ StableHlo.binary main_arg0 main_arg0 main_v0 ((fun l r => Host.dotGeneral dot_S4096x16x256_S4096x16x256_S4096x16x16_2_2_1_1_0_0 none l r) : (⟨S4096x16x256, .f32⟩ : BufTy).Contents (Elt F) → (⟨S4096x16x256, .f32⟩ : BufTy).Contents (Elt F) → (⟨S4096x16x16, .f32⟩ : BufTy).Contents (Elt F)),
    StableHlo.nullary main_cst (constant S_ .f32 0x3F800000#32),
    StableHlo.unary main_cst main_v1 (broadcastInDim S16x16 ![] bcast_S_S16x16 : (⟨S_, .f32⟩ : BufTy).Contents (Elt F) → (⟨S16x16, .f32⟩ : BufTy).Contents (Elt F)),
    StableHlo.nullary main_call0_v0 ((iotaInDim S16x16 32 0) : (⟨S16x16, .i32⟩ : BufTy).Contents (Elt F)),
    StableHlo.nullary main_call0_c ((constantI S_ 32 0#32) : (⟨S_, .i32⟩ : BufTy).Contents (Elt F)),
    StableHlo.unary main_call0_c main_call0_v1 ((broadcastInDim S16x16 ![] bcast_S_S16x16) : (⟨S_, .i32⟩ : BufTy).Contents (Elt F) → (⟨S16x16, .i32⟩ : BufTy).Contents (Elt F)),
    StableHlo.binary main_call0_v0 main_call0_v1 main_call0_v2 (addi : (⟨S16x16, .i32⟩ : BufTy).Contents (Elt F) → (⟨S16x16, .i32⟩ : BufTy).Contents (Elt F) → (⟨S16x16, .i32⟩ : BufTy).Contents (Elt F)),
    StableHlo.nullary main_call0_v3 ((iotaInDim S16x16 32 1) : (⟨S16x16, .i32⟩ : BufTy).Contents (Elt F)),
    StableHlo.binary main_call0_v2 main_call0_v3 main_call0_v4 ((cmpi .sge) : (⟨S16x16, .i32⟩ : BufTy).Contents (Elt F) → (⟨S16x16, .i32⟩ : BufTy).Contents (Elt F) → (⟨S16x16, .i1⟩ : BufTy).Contents (Elt F)),
    StableHlo.nullary main_call0_cst ((constant S_ .f32 0x00000000#32) : (⟨S_, .f32⟩ : BufTy).Contents (Elt F)),
    StableHlo.unary main_call0_cst main_call0_v5 ((broadcastInDim S16x16 ![] bcast_S_S16x16) : (⟨S_, .f32⟩ : BufTy).Contents (Elt F) → (⟨S16x16, .f32⟩ : BufTy).Contents (Elt F)),
    StableHlo.ternary main_call0_v4 main_call0_v5 main_v1 main_v2 (select : (⟨S16x16, .i1⟩ : BufTy).Contents (Elt F) → (⟨S16x16, .f32⟩ : BufTy).Contents (Elt F) → (⟨S16x16, .f32⟩ : BufTy).Contents (Elt F) → (⟨S16x16, .f32⟩ : BufTy).Contents (Elt F)),
    StableHlo.nullary main_cst_0 (constant S_ .f32 0x00000000#32),
    StableHlo.unary main_cst_0 main_v3 (broadcastInDim S16x16 ![] bcast_S_S16x16 : (⟨S_, .f32⟩ : BufTy).Contents (Elt F) → (⟨S16x16, .f32⟩ : BufTy).Contents (Elt F)),
    StableHlo.binary main_v2 main_v3 main_v4 (cmpf .une : (⟨S16x16, .f32⟩ : BufTy).Contents (Elt F) → (⟨S16x16, .f32⟩ : BufTy).Contents (Elt F) → (⟨S16x16, .i1⟩ : BufTy).Contents (Elt F)),
    StableHlo.reshape main_v4 main_call1_v0 rfl shapeCasts_S16x16_S256,
    StableHlo.unary main_call1_v0 main_call1_v1 ((extui 32 · natLt_1_32) : (⟨S256, .i1⟩ : BufTy).Contents (Elt F) → (⟨S256, .i32⟩ : BufTy).Contents (Elt F)),
    StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_call1_v1 main_call1_call0_v0 main_v5 ((fun x v => Host.reduceWindow IntOp.addi ![256] ![1] ![255] ![0] x v reduceWindows_S256_S256_w256s1p255_0 h_S_) : (⟨S256, .i32⟩ : BufTy).Contents (Elt F) → (⟨S_, .i32⟩ : BufTy).Contents (Elt F) → (⟨S256, .i32⟩ : BufTy).Contents (Elt F)),
    StableHlo.nullary main_c (constantI S_ 32 0#32),
    StableHlo.unary main_c main_v6 (broadcastInDim S120 ![] bcast_S_S120 : (⟨S_, .i32⟩ : BufTy).Contents (Elt F) → (⟨S120, .i32⟩ : BufTy).Contents (Elt F)),
    StableHlo.nullary main_c_1 (constantI S_ 32 0#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S256 ![] bcast_S_S256) : (⟨S_, .i32⟩ : BufTy).Contents (Elt F) → (⟨S256, .i32⟩ : BufTy).Contents (Elt F)),
    StableHlo.binary main_call2_v1 main_v5 main_v7 (maxsi : (⟨S256, .i32⟩ : BufTy).Contents (Elt F) → (⟨S256, .i32⟩ : BufTy).Contents (Elt F) → (⟨S256, .i32⟩ : BufTy).Contents (Elt F)),
    StableHlo.nullary main_c_2 (constantI S_ 32 0#32),
    StableHlo.unary main_c_2 main_v8 (broadcastInDim S256 ![] bcast_S_S256 : (⟨S_, .i32⟩ : BufTy).Contents (Elt F) → (⟨S256, .i32⟩ : BufTy).Contents (Elt F)),
    StableHlo.binary main_v7 main_v8 main_v9 (cmpi .slt : (⟨S256, .i32⟩ : BufTy).Contents (Elt F) → (⟨S256, .i32⟩ : BufTy).Contents (Elt F) → (⟨S256, .i1⟩ : BufTy).Contents (Elt F)),
    StableHlo.nullary main_c_3 (constantI S_ 32 120#32),
    StableHlo.unary main_c_3 main_v10 (broadcastInDim S256 ![] bcast_S_S256 : (⟨S_, .i32⟩ : BufTy).Contents (Elt F) → (⟨S256, .i32⟩ : BufTy).Contents (Elt F)),
    StableHlo.binary main_v7 main_v10 main_v11 (addi : (⟨S256, .i32⟩ : BufTy).Contents (Elt F) → (⟨S256, .i32⟩ : BufTy).Contents (Elt F) → (⟨S256, .i32⟩ : BufTy).Contents (Elt F)),
    StableHlo.ternary main_v9 main_v11 main_v7 main_v12 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v12 main_v13 (broadcastInDim S256x1 ![0] bcast_S256_S256x1_0 : (⟨S256, .i32⟩ : BufTy).Contents (Elt F) → (⟨S256x1, .i32⟩ : BufTy).Contents (Elt F)),
    StableHlo.nullary main_c_4 (constantI S_ 32 1#32),
    StableHlo.unary main_c_4 main_v14 (broadcastInDim S256 ![] bcast_S_S256 : (⟨S_, .i32⟩ : BufTy).Contents (Elt F) → (⟨S256, .i32⟩ : BufTy).Contents (Elt F)),
    StableHlo.ternary main_v6 main_v13 main_v14 main_v15 ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)),
    StableHlo.nullary main_call3_call0_c ((constantI S_ 32 0#32) : (⟨S_, .i32⟩ : BufTy).Contents (Elt F)),
    StableHlo.unary main_call3_call0_c main_call3_call0_v0 ((broadcastInDim S_ ![] bcast_S_S_) : (⟨S_, .i32⟩ : BufTy).Contents (Elt F) → (⟨S_, .i32⟩ : BufTy).Contents (Elt F)),
    StableHlo.binary main_v15 main_call3_call0_v0 main_v16 ((fun x v => Host.reduceWindow IntOp.addi ![120] ![1] ![119] ![0] x v reduceWindows_S120_S120_w120s1p119_0 h_S_) : (⟨S120, .i32⟩ : BufTy).Contents (Elt F) → (⟨S_, .i32⟩ : BufTy).Contents (Elt F) → (⟨S120, .i32⟩ : BufTy).Contents (Elt F)) ]

/-- The floored quotient by 16 of the slot table, and its remainder modulo 16: the first coordinate of each pair. -/
abbrev sB : List (HloOp τ sig (Elt F)) :=
  [ StableHlo.nullary main_c_5 (constantI S_ 32 16#32),
    StableHlo.unary main_c_5 main_call4_v0 ((broadcastInDim S120 ![] bcast_S_S120) : (⟨S_, .i32⟩ : BufTy).Contents (Elt F) → (⟨S120, .i32⟩ : BufTy).Contents (Elt F)),
    StableHlo.binary main_v16 main_call4_v0 main_call4_v1 (Host.divsi : (⟨S120, .i32⟩ : BufTy).Contents (Elt F) → (⟨S120, .i32⟩ : BufTy).Contents (Elt F) → (⟨S120, .i32⟩ : BufTy).Contents (Elt F)),
    StableHlo.unary main_v16 main_call4_v2 (signi : (⟨S120, .i32⟩ : BufTy).Contents (Elt F) → (⟨S120, .i32⟩ : BufTy).Contents (Elt F)),
    StableHlo.unary main_c_5 main_call4_v3 (signi : (⟨S_, .i32⟩ : BufTy).Contents (Elt F) → (⟨S_, .i32⟩ : BufTy).Contents (Elt F)),
    StableHlo.unary main_call4_v3 main_call4_v4 ((broadcastInDim S120 ![] bcast_S_S120) : (⟨S_, .i32⟩ : BufTy).Contents (Elt F) → (⟨S120, .i32⟩ : BufTy).Contents (Elt F)),
    StableHlo.binary main_call4_v2 main_call4_v4 main_call4_v5 ((cmpi .ne) : (⟨S120, .i32⟩ : BufTy).Contents (Elt F) → (⟨S120, .i32⟩ : BufTy).Contents (Elt F) → (⟨S120, .i1⟩ : BufTy).Contents (Elt F)),
    StableHlo.unary main_c_5 main_call4_v6 ((broadcastInDim S120 ![] bcast_S_S120) : (⟨S_, .i32⟩ : BufTy).Contents (Elt F) → (⟨S120, .i32⟩ : BufTy).Contents (Elt F)),
    StableHlo.binary main_v16 main_call4_v6 main_call4_v7 (Host.remsi : (⟨S120, .i32⟩ : BufTy).Contents (Elt F) → (⟨S120, .i32⟩ : BufTy).Contents (Elt F) → (⟨S120, .i32⟩ : BufTy).Contents (Elt F)),
    StableHlo.nullary main_call4_c ((constantI S_ 32 0#32) : (⟨S_, .i32⟩ : BufTy).Contents (Elt F)),
    StableHlo.unary main_call4_c main_call4_v8 ((broadcastInDim S120 ![] bcast_S_S120) : (⟨S_, .i32⟩ : BufTy).Contents (Elt F) → (⟨S120, .i32⟩ : BufTy).Contents (Elt F)),
    StableHlo.binary main_call4_v7 main_call4_v8 main_call4_v9 ((cmpi .ne) : (⟨S120, .i32⟩ : BufTy).Contents (Elt F) → (⟨S120, .i32⟩ : BufTy).Contents (Elt F) → (⟨S120, .i1⟩ : BufTy).Contents (Elt F)),
    StableHlo.binary main_call4_v5 main_call4_v9 main_call4_v10 (andi : (⟨S120, .i1⟩ : BufTy).Contents (Elt F) → (⟨S120, .i1⟩ : BufTy).Contents (Elt F) → (⟨S120, .i1⟩ : BufTy).Contents (Elt F)),
    StableHlo.nullary main_call4_c_0 ((constantI S_ 32 1#32) : (⟨S_, .i32⟩ : BufTy).Contents (Elt F)),
    StableHlo.unary main_call4_c_0 main_call4_v11 ((broadcastInDim S120 ![] bcast_S_S120) : (⟨S_, .i32⟩ : BufTy).Contents (Elt F) → (⟨S120, .i32⟩ : BufTy).Contents (Elt F)),
    StableHlo.binary main_call4_v1 main_call4_v11 main_call4_v12 (subi : (⟨S120, .i32⟩ : BufTy).Contents (Elt F) → (⟨S120, .i32⟩ : BufTy).Contents (Elt F) → (⟨S120, .i32⟩ : BufTy).Contents (Elt F)),
    StableHlo.ternary main_call4_v10 main_call4_v12 main_call4_v1 main_v17 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.nullary main_c_6 (constantI S_ 32 16#32),
    StableHlo.unary main_c_6 main_call5_v0 (id : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S120 ![] bcast_S_S120) : (⟨S_, .i32⟩ : BufTy).Contents (Elt F) → (⟨S120, .i32⟩ : BufTy).Contents (Elt F)),
    StableHlo.binary main_v17 main_call5_v3 main_call5_v4 (Host.remsi : (⟨S120, .i32⟩ : BufTy).Contents (Elt F) → (⟨S120, .i32⟩ : BufTy).Contents (Elt F) → (⟨S120, .i32⟩ : BufTy).Contents (Elt F)),
    StableHlo.nullary main_call5_c_1 ((constantI S_ 32 0#32) : (⟨S_, .i32⟩ : BufTy).Contents (Elt F)),
    StableHlo.unary main_call5_c_1 main_call5_v5 ((broadcastInDim S120 ![] bcast_S_S120) : (⟨S_, .i32⟩ : BufTy).Contents (Elt F) → (⟨S120, .i32⟩ : BufTy).Contents (Elt F)),
    StableHlo.binary main_call5_v4 main_call5_v5 main_call5_v6 ((cmpi .ne) : (⟨S120, .i32⟩ : BufTy).Contents (Elt F) → (⟨S120, .i32⟩ : BufTy).Contents (Elt F) → (⟨S120, .i1⟩ : BufTy).Contents (Elt F)),
    StableHlo.nullary main_call5_c_2 ((constantI S_ 32 0#32) : (⟨S_, .i32⟩ : BufTy).Contents (Elt F)),
    StableHlo.unary main_call5_c_2 main_call5_v7 ((broadcastInDim S120 ![] bcast_S_S120) : (⟨S_, .i32⟩ : BufTy).Contents (Elt F) → (⟨S120, .i32⟩ : BufTy).Contents (Elt F)),
    StableHlo.binary main_call5_v4 main_call5_v7 main_call5_v8 ((cmpi .slt) : (⟨S120, .i32⟩ : BufTy).Contents (Elt F) → (⟨S120, .i32⟩ : BufTy).Contents (Elt F) → (⟨S120, .i1⟩ : BufTy).Contents (Elt F)),
    StableHlo.nullary main_call5_c_3 ((constantI S_ 32 0#32) : (⟨S_, .i32⟩ : BufTy).Contents (Elt F)),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S120 ![] bcast_S_S120) : (⟨S_, .i1⟩ : BufTy).Contents (Elt F) → (⟨S120, .i1⟩ : BufTy).Contents (Elt F)),
    StableHlo.binary main_call5_v8 main_call5_v10 main_call5_v11 ((cmpi .ne) : (⟨S120, .i1⟩ : BufTy).Contents (Elt F) → (⟨S120, .i1⟩ : BufTy).Contents (Elt F) → (⟨S120, .i1⟩ : BufTy).Contents (Elt F)),
    StableHlo.binary main_call5_v11 main_call5_v6 main_call5_v12 (andi : (⟨S120, .i1⟩ : BufTy).Contents (Elt F) → (⟨S120, .i1⟩ : BufTy).Contents (Elt F) → (⟨S120, .i1⟩ : BufTy).Contents (Elt F)),
    StableHlo.unary main_call5_v2 main_call5_v13 ((broadcastInDim S120 ![] bcast_S_S120) : (⟨S_, .i32⟩ : BufTy).Contents (Elt F) → (⟨S120, .i32⟩ : BufTy).Contents (Elt F)),
    StableHlo.binary main_call5_v4 main_call5_v13 main_call5_v14 (addi : (⟨S120, .i32⟩ : BufTy).Contents (Elt F) → (⟨S120, .i32⟩ : BufTy).Contents (Elt F) → (⟨S120, .i32⟩ : BufTy).Contents (Elt F)),
    StableHlo.ternary main_call5_v12 main_call5_v14 main_call5_v4 main_v18 (select : (⟨S120, .i1⟩ : BufTy).Contents (Elt F) → (⟨S120, .i32⟩ : BufTy).Contents (Elt F) → (⟨S120, .i32⟩ : BufTy).Contents (Elt F) → (⟨S120, .i32⟩ : BufTy).Contents (Elt F)) ]

/-- The floored quotient by 1 of the slot table, and its remainder modulo 16: the second coordinate of each pair. -/
abbrev sC : List (HloOp τ sig (Elt F)) :=
  [ StableHlo.nullary main_c_7 (constantI S_ 32 1#32),
    StableHlo.unary main_c_7 main_call6_v0 ((broadcastInDim S120 ![] bcast_S_S120) : (⟨S_, .i32⟩ : BufTy).Contents (Elt F) → (⟨S120, .i32⟩ : BufTy).Contents (Elt F)),
    StableHlo.binary main_v16 main_call6_v0 main_call6_v1 (Host.divsi : (⟨S120, .i32⟩ : BufTy).Contents (Elt F) → (⟨S120, .i32⟩ : BufTy).Contents (Elt F) → (⟨S120, .i32⟩ : BufTy).Contents (Elt F)),
    StableHlo.unary main_v16 main_call6_v2 (signi : (⟨S120, .i32⟩ : BufTy).Contents (Elt F) → (⟨S120, .i32⟩ : BufTy).Contents (Elt F)),
    StableHlo.unary main_c_7 main_call6_v3 (signi : (⟨S_, .i32⟩ : BufTy).Contents (Elt F) → (⟨S_, .i32⟩ : BufTy).Contents (Elt F)),
    StableHlo.unary main_call6_v3 main_call6_v4 ((broadcastInDim S120 ![] bcast_S_S120) : (⟨S_, .i32⟩ : BufTy).Contents (Elt F) → (⟨S120, .i32⟩ : BufTy).Contents (Elt F)),
    StableHlo.binary main_call6_v2 main_call6_v4 main_call6_v5 ((cmpi .ne) : (⟨S120, .i32⟩ : BufTy).Contents (Elt F) → (⟨S120, .i32⟩ : BufTy).Contents (Elt F) → (⟨S120, .i1⟩ : BufTy).Contents (Elt F)),
    StableHlo.unary main_c_7 main_call6_v6 ((broadcastInDim S120 ![] bcast_S_S120) : (⟨S_, .i32⟩ : BufTy).Contents (Elt F) → (⟨S120, .i32⟩ : BufTy).Contents (Elt F)),
    StableHlo.binary main_v16 main_call6_v6 main_call6_v7 (Host.remsi : (⟨S120, .i32⟩ : BufTy).Contents (Elt F) → (⟨S120, .i32⟩ : BufTy).Contents (Elt F) → (⟨S120, .i32⟩ : BufTy).Contents (Elt F)),
    StableHlo.nullary main_call6_c ((constantI S_ 32 0#32) : (⟨S_, .i32⟩ : BufTy).Contents (Elt F)),
    StableHlo.unary main_call6_c main_call6_v8 ((broadcastInDim S120 ![] bcast_S_S120) : (⟨S_, .i32⟩ : BufTy).Contents (Elt F) → (⟨S120, .i32⟩ : BufTy).Contents (Elt F)),
    StableHlo.binary main_call6_v7 main_call6_v8 main_call6_v9 ((cmpi .ne) : (⟨S120, .i32⟩ : BufTy).Contents (Elt F) → (⟨S120, .i32⟩ : BufTy).Contents (Elt F) → (⟨S120, .i1⟩ : BufTy).Contents (Elt F)),
    StableHlo.binary main_call6_v5 main_call6_v9 main_call6_v10 (andi : (⟨S120, .i1⟩ : BufTy).Contents (Elt F) → (⟨S120, .i1⟩ : BufTy).Contents (Elt F) → (⟨S120, .i1⟩ : BufTy).Contents (Elt F)),
    StableHlo.nullary main_call6_c_0 ((constantI S_ 32 1#32) : (⟨S_, .i32⟩ : BufTy).Contents (Elt F)),
    StableHlo.unary main_call6_c_0 main_call6_v11 ((broadcastInDim S120 ![] bcast_S_S120) : (⟨S_, .i32⟩ : BufTy).Contents (Elt F) → (⟨S120, .i32⟩ : BufTy).Contents (Elt F)),
    StableHlo.binary main_call6_v1 main_call6_v11 main_call6_v12 (subi : (⟨S120, .i32⟩ : BufTy).Contents (Elt F) → (⟨S120, .i32⟩ : BufTy).Contents (Elt F) → (⟨S120, .i32⟩ : BufTy).Contents (Elt F)),
    StableHlo.ternary main_call6_v10 main_call6_v12 main_call6_v1 main_v19 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.nullary main_c_8 (constantI S_ 32 16#32),
    StableHlo.unary main_c_8 main_call7_v0 (id : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 ((broadcastInDim S120 ![] bcast_S_S120) : (⟨S_, .i32⟩ : BufTy).Contents (Elt F) → (⟨S120, .i32⟩ : BufTy).Contents (Elt F)),
    StableHlo.binary main_v19 main_call7_v3 main_call7_v4 (Host.remsi : (⟨S120, .i32⟩ : BufTy).Contents (Elt F) → (⟨S120, .i32⟩ : BufTy).Contents (Elt F) → (⟨S120, .i32⟩ : BufTy).Contents (Elt F)),
    StableHlo.nullary main_call7_c_1 ((constantI S_ 32 0#32) : (⟨S_, .i32⟩ : BufTy).Contents (Elt F)),
    StableHlo.unary main_call7_c_1 main_call7_v5 ((broadcastInDim S120 ![] bcast_S_S120) : (⟨S_, .i32⟩ : BufTy).Contents (Elt F) → (⟨S120, .i32⟩ : BufTy).Contents (Elt F)),
    StableHlo.binary main_call7_v4 main_call7_v5 main_call7_v6 ((cmpi .ne) : (⟨S120, .i32⟩ : BufTy).Contents (Elt F) → (⟨S120, .i32⟩ : BufTy).Contents (Elt F) → (⟨S120, .i1⟩ : BufTy).Contents (Elt F)),
    StableHlo.nullary main_call7_c_2 ((constantI S_ 32 0#32) : (⟨S_, .i32⟩ : BufTy).Contents (Elt F)),
    StableHlo.unary main_call7_c_2 main_call7_v7 ((broadcastInDim S120 ![] bcast_S_S120) : (⟨S_, .i32⟩ : BufTy).Contents (Elt F) → (⟨S120, .i32⟩ : BufTy).Contents (Elt F)),
    StableHlo.binary main_call7_v4 main_call7_v7 main_call7_v8 ((cmpi .slt) : (⟨S120, .i32⟩ : BufTy).Contents (Elt F) → (⟨S120, .i32⟩ : BufTy).Contents (Elt F) → (⟨S120, .i1⟩ : BufTy).Contents (Elt F)),
    StableHlo.nullary main_call7_c_3 ((constantI S_ 32 0#32) : (⟨S_, .i32⟩ : BufTy).Contents (Elt F)),
    StableHlo.binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    StableHlo.unary main_call7_v9 main_call7_v10 ((broadcastInDim S120 ![] bcast_S_S120) : (⟨S_, .i1⟩ : BufTy).Contents (Elt F) → (⟨S120, .i1⟩ : BufTy).Contents (Elt F)),
    StableHlo.binary main_call7_v8 main_call7_v10 main_call7_v11 ((cmpi .ne) : (⟨S120, .i1⟩ : BufTy).Contents (Elt F) → (⟨S120, .i1⟩ : BufTy).Contents (Elt F) → (⟨S120, .i1⟩ : BufTy).Contents (Elt F)),
    StableHlo.binary main_call7_v11 main_call7_v6 main_call7_v12 (andi : (⟨S120, .i1⟩ : BufTy).Contents (Elt F) → (⟨S120, .i1⟩ : BufTy).Contents (Elt F) → (⟨S120, .i1⟩ : BufTy).Contents (Elt F)),
    StableHlo.unary main_call7_v2 main_call7_v13 ((broadcastInDim S120 ![] bcast_S_S120) : (⟨S_, .i32⟩ : BufTy).Contents (Elt F) → (⟨S120, .i32⟩ : BufTy).Contents (Elt F)),
    StableHlo.binary main_call7_v4 main_call7_v13 main_call7_v14 (addi : (⟨S120, .i32⟩ : BufTy).Contents (Elt F) → (⟨S120, .i32⟩ : BufTy).Contents (Elt F) → (⟨S120, .i32⟩ : BufTy).Contents (Elt F)),
    StableHlo.ternary main_call7_v12 main_call7_v14 main_call7_v4 main_v20 (select : (⟨S120, .i1⟩ : BufTy).Contents (Elt F) → (⟨S120, .i32⟩ : BufTy).Contents (Elt F) → (⟨S120, .i32⟩ : BufTy).Contents (Elt F) → (⟨S120, .i32⟩ : BufTy).Contents (Elt F)) ]

/-- The two coordinates wrapped into range, laid side by side as the index table, and the gather of the inner products at it. -/
abbrev sD : List (HloOp τ sig (Elt F)) :=
  [ StableHlo.nullary main_c_9 (constantI S_ 32 0#32),
    StableHlo.unary main_c_9 main_v21 (broadcastInDim S120 ![] bcast_S_S120 : (⟨S_, .i32⟩ : BufTy).Contents (Elt F) → (⟨S120, .i32⟩ : BufTy).Contents (Elt F)),
    StableHlo.binary main_v18 main_v21 main_v22 (cmpi .slt : (⟨S120, .i32⟩ : BufTy).Contents (Elt F) → (⟨S120, .i32⟩ : BufTy).Contents (Elt F) → (⟨S120, .i1⟩ : BufTy).Contents (Elt F)),
    StableHlo.nullary main_c_10 (constantI S_ 32 16#32),
    StableHlo.unary main_c_10 main_v23 (broadcastInDim S120 ![] bcast_S_S120 : (⟨S_, .i32⟩ : BufTy).Contents (Elt F) → (⟨S120, .i32⟩ : BufTy).Contents (Elt F)),
    StableHlo.binary main_v18 main_v23 main_v24 (addi : (⟨S120, .i32⟩ : BufTy).Contents (Elt F) → (⟨S120, .i32⟩ : BufTy).Contents (Elt F) → (⟨S120, .i32⟩ : BufTy).Contents (Elt F)),
    StableHlo.ternary main_v22 main_v24 main_v18 main_v25 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.nullary main_c_11 (constantI S_ 32 0#32),
    StableHlo.unary main_c_11 main_v26 (broadcastInDim S120 ![] bcast_S_S120 : (⟨S_, .i32⟩ : BufTy).Contents (Elt F) → (⟨S120, .i32⟩ : BufTy).Contents (Elt F)),
    StableHlo.binary main_v20 main_v26 main_v27 (cmpi .slt : (⟨S120, .i32⟩ : BufTy).Contents (Elt F) → (⟨S120, .i32⟩ : BufTy).Contents (Elt F) → (⟨S120, .i1⟩ : BufTy).Contents (Elt F)),
    StableHlo.nullary main_c_12 (constantI S_ 32 16#32),
    StableHlo.unary main_c_12 main_v28 (broadcastInDim S120 ![] bcast_S_S120 : (⟨S_, .i32⟩ : BufTy).Contents (Elt F) → (⟨S120, .i32⟩ : BufTy).Contents (Elt F)),
    StableHlo.binary main_v20 main_v28 main_v29 (addi : (⟨S120, .i32⟩ : BufTy).Contents (Elt F) → (⟨S120, .i32⟩ : BufTy).Contents (Elt F) → (⟨S120, .i32⟩ : BufTy).Contents (Elt F)),
    StableHlo.ternary main_v27 main_v29 main_v20 main_v30 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v25 main_v31 (broadcastInDim S120x1 ![0] bcast_S120_S120x1_0 : (⟨S120, .i32⟩ : BufTy).Contents (Elt F) → (⟨S120x1, .i32⟩ : BufTy).Contents (Elt F)),
    StableHlo.unary main_v30 main_v32 (broadcastInDim S120x1 ![0] bcast_S120_S120x1_0 : (⟨S120, .i32⟩ : BufTy).Contents (Elt F) → (⟨S120x1, .i32⟩ : BufTy).Contents (Elt F)),
    StableHlo.binary main_v31 main_v32 main_v33 ((fun a b => concatenate S120x2 1 [⟨S120x1, a⟩, ⟨S120x1, b⟩] concatenates_S120x1_S120x1_S120x2_d1) : (⟨S120x1, .i32⟩ : BufTy).Contents (Elt F) → (⟨S120x1, .i32⟩ : BufTy).Contents (Elt F) → (⟨S120x2, .i32⟩ : BufTy).Contents (Elt F)),
    StableHlo.binary main_v0 main_v33 main_v34 ((fun x i => Host.gather gather_S4096x16x16_S120x2_S4096x120_0_12_n_n_12_1_409611 x i) : (⟨S4096x16x16, .f32⟩ : BufTy).Contents (Elt F) → (⟨S120x2, .i32⟩ : BufTy).Contents (Elt F) → (⟨S4096x120, .f32⟩ : BufTy).Contents (Elt F)) ]

/-- The rows laid flat, the first dense layer with its maximum with zero, and the second dense layer before its maximum. -/
abbrev sE : List (HloOp τ sig (Elt F)) :=
  [ StableHlo.reshape main_arg0 main_v35 rfl shapeCasts_S4096x16x256_S4096x4096,
    StableHlo.binary main_v35 main_arg1 main_v36 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    StableHlo.unary main_arg2 main_v37 (broadcastInDim S1x1024 ![1] bcast_S1024_S1x1024_1 : (⟨S1024, .f32⟩ : BufTy).Contents (Elt F) → (⟨S1x1024, .f32⟩ : BufTy).Contents (Elt F)),
    StableHlo.unary main_v37 main_v38 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v36 main_v38 main_v39 (addf : (⟨S4096x1024, .f32⟩ : BufTy).Contents (Elt F) → (⟨S4096x1024, .f32⟩ : BufTy).Contents (Elt F) → (⟨S4096x1024, .f32⟩ : BufTy).Contents (Elt F)),
    StableHlo.nullary main_call8_cst ((constant S_ .f32 0x00000000#32) : (⟨S_, .f32⟩ : BufTy).Contents (Elt F)),
    StableHlo.unary main_call8_cst main_call8_v0 ((broadcastInDim S4096x1024 ![] bcast_S_S4096x1024) : (⟨S_, .f32⟩ : BufTy).Contents (Elt F) → (⟨S4096x1024, .f32⟩ : BufTy).Contents (Elt F)),
    StableHlo.binary main_v39 main_call8_v0 main_v40 (maximumf : (⟨S4096x1024, .f32⟩ : BufTy).Contents (Elt F) → (⟨S4096x1024, .f32⟩ : BufTy).Contents (Elt F) → (⟨S4096x1024, .f32⟩ : BufTy).Contents (Elt F)),
    StableHlo.binary main_v40 main_arg3 main_v41 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    StableHlo.unary main_arg4 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S4096x512 ![0, 1] bcast_S1x512_S4096x512_0_1 : (⟨S1x512, .f32⟩ : BufTy).Contents (Elt F) → (⟨S4096x512, .f32⟩ : BufTy).Contents (Elt F)),
    StableHlo.binary main_v41 main_v43 main_v44 (addf : (⟨S4096x512, .f32⟩ : BufTy).Contents (Elt F) → (⟨S4096x512, .f32⟩ : BufTy).Contents (Elt F) → (⟨S4096x512, .f32⟩ : BufTy).Contents (Elt F)) ]

/-- The second layer's maximum with zero, the third dense layer, the concatenation with the gathered inner products, and the final affine map. -/
abbrev sF : List (HloOp τ sig (Elt F)) :=
  [ StableHlo.nullary main_call9_cst ((constant S_ .f32 0x00000000#32) : (⟨S_, .f32⟩ : BufTy).Contents (Elt F)),
    StableHlo.unary main_call9_cst main_call9_v0 ((broadcastInDim S4096x512 ![] bcast_S_S4096x512) : (⟨S_, .f32⟩ : BufTy).Contents (Elt F) → (⟨S4096x512, .f32⟩ : BufTy).Contents (Elt F)),
    StableHlo.binary main_v44 main_call9_v0 main_v45 (maximumf : (⟨S4096x512, .f32⟩ : BufTy).Contents (Elt F) → (⟨S4096x512, .f32⟩ : BufTy).Contents (Elt F) → (⟨S4096x512, .f32⟩ : BufTy).Contents (Elt F)),
    StableHlo.binary main_v45 main_arg5 main_v46 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    StableHlo.unary main_arg6 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S4096x64 ![0, 1] bcast_S1x64_S4096x64_0_1 : (⟨S1x64, .f32⟩ : BufTy).Contents (Elt F) → (⟨S4096x64, .f32⟩ : BufTy).Contents (Elt F)),
    StableHlo.binary main_v46 main_v48 main_v49 (addf : (⟨S4096x64, .f32⟩ : BufTy).Contents (Elt F) → (⟨S4096x64, .f32⟩ : BufTy).Contents (Elt F) → (⟨S4096x64, .f32⟩ : BufTy).Contents (Elt F)),
    StableHlo.binary main_v49 main_v34 main_v50 ((fun a b => concatenate S4096x184 1 [⟨S4096x64, a⟩, ⟨S4096x120, b⟩] concatenates_S4096x64_S4096x120_S4096x184_d1) : (⟨S4096x64, .f32⟩ : BufTy).Contents (Elt F) → (⟨S4096x120, .f32⟩ : BufTy).Contents (Elt F) → (⟨S4096x184, .f32⟩ : BufTy).Contents (Elt F)),
    StableHlo.binary main_v50 main_arg7 main_v51 ((fun l r => Host.dotGeneral dot_S4096x184_S184x5_S4096x5_1_0_0_1_n_n none l r) : (⟨S4096x184, .f32⟩ : BufTy).Contents (Elt F) → (⟨S184x5, .f32⟩ : BufTy).Contents (Elt F) → (⟨S4096x5, .f32⟩ : BufTy).Contents (Elt F)),
    StableHlo.unary main_arg8 main_v52 (broadcastInDim S1x5 ![1] bcast_S5_S1x5_1 : (⟨S5, .f32⟩ : BufTy).Contents (Elt F) → (⟨S1x5, .f32⟩ : BufTy).Contents (Elt F)),
    StableHlo.unary main_v52 main_v53 (broadcastInDim S4096x5 ![0, 1] bcast_S1x5_S4096x5_0_1 : (⟨S1x5, .f32⟩ : BufTy).Contents (Elt F) → (⟨S4096x5, .f32⟩ : BufTy).Contents (Elt F)),
    StableHlo.binary main_v51 main_v53 main_v54 (addf : (⟨S4096x5, .f32⟩ : BufTy).Contents (Elt F) → (⟨S4096x5, .f32⟩ : BufTy).Contents (Elt F) → (⟨S4096x5, .f32⟩ : BufTy).Contents (Elt F)) ]

/-- The operations of one call (triu, buffers main_call0), in order. -/
abbrev k0 : List (HloOp τ sig (Elt F)) :=
  [ StableHlo.nullary main_call0_v0 ((iotaInDim S16x16 32 0) : (⟨S16x16, .i32⟩ : BufTy).Contents (Elt F)),
    StableHlo.nullary main_call0_c ((constantI S_ 32 0#32) : (⟨S_, .i32⟩ : BufTy).Contents (Elt F)),
    StableHlo.unary main_call0_c main_call0_v1 ((broadcastInDim S16x16 ![] bcast_S_S16x16) : (⟨S_, .i32⟩ : BufTy).Contents (Elt F) → (⟨S16x16, .i32⟩ : BufTy).Contents (Elt F)),
    StableHlo.binary main_call0_v0 main_call0_v1 main_call0_v2 (addi : (⟨S16x16, .i32⟩ : BufTy).Contents (Elt F) → (⟨S16x16, .i32⟩ : BufTy).Contents (Elt F) → (⟨S16x16, .i32⟩ : BufTy).Contents (Elt F)),
    StableHlo.nullary main_call0_v3 ((iotaInDim S16x16 32 1) : (⟨S16x16, .i32⟩ : BufTy).Contents (Elt F)),
    StableHlo.binary main_call0_v2 main_call0_v3 main_call0_v4 ((cmpi .sge) : (⟨S16x16, .i32⟩ : BufTy).Contents (Elt F) → (⟨S16x16, .i32⟩ : BufTy).Contents (Elt F) → (⟨S16x16, .i1⟩ : BufTy).Contents (Elt F)),
    StableHlo.nullary main_call0_cst ((constant S_ .f32 0x00000000#32) : (⟨S_, .f32⟩ : BufTy).Contents (Elt F)),
    StableHlo.unary main_call0_cst main_call0_v5 ((broadcastInDim S16x16 ![] bcast_S_S16x16) : (⟨S_, .f32⟩ : BufTy).Contents (Elt F) → (⟨S16x16, .f32⟩ : BufTy).Contents (Elt F)),
    StableHlo.ternary main_call0_v4 main_call0_v5 main_v1 main_v2 (select : (⟨S16x16, .i1⟩ : BufTy).Contents (Elt F) → (⟨S16x16, .f32⟩ : BufTy).Contents (Elt F) → (⟨S16x16, .f32⟩ : BufTy).Contents (Elt F) → (⟨S16x16, .f32⟩ : BufTy).Contents (Elt F)) ]

/-- The operations of one call (cumsum, buffers main_call1), in order. -/
abbrev k1 : List (HloOp τ sig (Elt F)) :=
  [ StableHlo.reshape main_v4 main_call1_v0 rfl shapeCasts_S16x16_S256,
    StableHlo.unary main_call1_v0 main_call1_v1 ((extui 32 · natLt_1_32) : (⟨S256, .i1⟩ : BufTy).Contents (Elt F) → (⟨S256, .i32⟩ : BufTy).Contents (Elt F)),
    StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_call1_v1 main_call1_call0_v0 main_v5 ((fun x v => Host.reduceWindow IntOp.addi ![256] ![1] ![255] ![0] x v reduceWindows_S256_S256_w256s1p255_0 h_S_) : (⟨S256, .i32⟩ : BufTy).Contents (Elt F) → (⟨S_, .i32⟩ : BufTy).Contents (Elt F) → (⟨S256, .i32⟩ : BufTy).Contents (Elt F)) ]

/-- The operations of one call (clip, buffers main_call2), in order. -/
abbrev k2 : List (HloOp τ sig (Elt F)) :=
  [ StableHlo.unary main_c_1 main_call2_v0 (id : (⟨S_, .i32⟩ : BufTy).Contents (Elt F) → (⟨S_, .i32⟩ : BufTy).Contents (Elt F)),
    StableHlo.unary main_call2_v0 main_call2_v1 ((broadcastInDim S256 ![] bcast_S_S256) : (⟨S_, .i32⟩ : BufTy).Contents (Elt F) → (⟨S256, .i32⟩ : BufTy).Contents (Elt F)),
    StableHlo.binary main_call2_v1 main_v5 main_v7 (maxsi : (⟨S256, .i32⟩ : BufTy).Contents (Elt F) → (⟨S256, .i32⟩ : BufTy).Contents (Elt F) → (⟨S256, .i32⟩ : BufTy).Contents (Elt F)) ]

/-- The operations of one call (cumsum_1, buffers main_call3), in order. -/
abbrev k3 : List (HloOp τ sig (Elt F)) :=
  [ StableHlo.nullary main_call3_call0_c ((constantI S_ 32 0#32) : (⟨S_, .i32⟩ : BufTy).Contents (Elt F)),
    StableHlo.unary main_call3_call0_c main_call3_call0_v0 ((broadcastInDim S_ ![] bcast_S_S_) : (⟨S_, .i32⟩ : BufTy).Contents (Elt F) → (⟨S_, .i32⟩ : BufTy).Contents (Elt F)),
    StableHlo.binary main_v15 main_call3_call0_v0 main_v16 ((fun x v => Host.reduceWindow IntOp.addi ![120] ![1] ![119] ![0] x v reduceWindows_S120_S120_w120s1p119_0 h_S_) : (⟨S120, .i32⟩ : BufTy).Contents (Elt F) → (⟨S_, .i32⟩ : BufTy).Contents (Elt F) → (⟨S120, .i32⟩ : BufTy).Contents (Elt F)) ]

/-- The operations of one call (floor_divide, buffers main_call4), in order. -/
abbrev k4 : List (HloOp τ sig (Elt F)) :=
  [ StableHlo.unary main_c_5 main_call4_v0 ((broadcastInDim S120 ![] bcast_S_S120) : (⟨S_, .i32⟩ : BufTy).Contents (Elt F) → (⟨S120, .i32⟩ : BufTy).Contents (Elt F)),
    StableHlo.binary main_v16 main_call4_v0 main_call4_v1 (Host.divsi : (⟨S120, .i32⟩ : BufTy).Contents (Elt F) → (⟨S120, .i32⟩ : BufTy).Contents (Elt F) → (⟨S120, .i32⟩ : BufTy).Contents (Elt F)),
    StableHlo.unary main_v16 main_call4_v2 (signi : (⟨S120, .i32⟩ : BufTy).Contents (Elt F) → (⟨S120, .i32⟩ : BufTy).Contents (Elt F)),
    StableHlo.unary main_c_5 main_call4_v3 (signi : (⟨S_, .i32⟩ : BufTy).Contents (Elt F) → (⟨S_, .i32⟩ : BufTy).Contents (Elt F)),
    StableHlo.unary main_call4_v3 main_call4_v4 ((broadcastInDim S120 ![] bcast_S_S120) : (⟨S_, .i32⟩ : BufTy).Contents (Elt F) → (⟨S120, .i32⟩ : BufTy).Contents (Elt F)),
    StableHlo.binary main_call4_v2 main_call4_v4 main_call4_v5 ((cmpi .ne) : (⟨S120, .i32⟩ : BufTy).Contents (Elt F) → (⟨S120, .i32⟩ : BufTy).Contents (Elt F) → (⟨S120, .i1⟩ : BufTy).Contents (Elt F)),
    StableHlo.unary main_c_5 main_call4_v6 ((broadcastInDim S120 ![] bcast_S_S120) : (⟨S_, .i32⟩ : BufTy).Contents (Elt F) → (⟨S120, .i32⟩ : BufTy).Contents (Elt F)),
    StableHlo.binary main_v16 main_call4_v6 main_call4_v7 (Host.remsi : (⟨S120, .i32⟩ : BufTy).Contents (Elt F) → (⟨S120, .i32⟩ : BufTy).Contents (Elt F) → (⟨S120, .i32⟩ : BufTy).Contents (Elt F)),
    StableHlo.nullary main_call4_c ((constantI S_ 32 0#32) : (⟨S_, .i32⟩ : BufTy).Contents (Elt F)),
    StableHlo.unary main_call4_c main_call4_v8 ((broadcastInDim S120 ![] bcast_S_S120) : (⟨S_, .i32⟩ : BufTy).Contents (Elt F) → (⟨S120, .i32⟩ : BufTy).Contents (Elt F)),
    StableHlo.binary main_call4_v7 main_call4_v8 main_call4_v9 ((cmpi .ne) : (⟨S120, .i32⟩ : BufTy).Contents (Elt F) → (⟨S120, .i32⟩ : BufTy).Contents (Elt F) → (⟨S120, .i1⟩ : BufTy).Contents (Elt F)),
    StableHlo.binary main_call4_v5 main_call4_v9 main_call4_v10 (andi : (⟨S120, .i1⟩ : BufTy).Contents (Elt F) → (⟨S120, .i1⟩ : BufTy).Contents (Elt F) → (⟨S120, .i1⟩ : BufTy).Contents (Elt F)),
    StableHlo.nullary main_call4_c_0 ((constantI S_ 32 1#32) : (⟨S_, .i32⟩ : BufTy).Contents (Elt F)),
    StableHlo.unary main_call4_c_0 main_call4_v11 ((broadcastInDim S120 ![] bcast_S_S120) : (⟨S_, .i32⟩ : BufTy).Contents (Elt F) → (⟨S120, .i32⟩ : BufTy).Contents (Elt F)),
    StableHlo.binary main_call4_v1 main_call4_v11 main_call4_v12 (subi : (⟨S120, .i32⟩ : BufTy).Contents (Elt F) → (⟨S120, .i32⟩ : BufTy).Contents (Elt F) → (⟨S120, .i32⟩ : BufTy).Contents (Elt F)),
    StableHlo.ternary main_call4_v10 main_call4_v12 main_call4_v1 main_v17 (select : (⟨S120, .i1⟩ : BufTy).Contents (Elt F) → (⟨S120, .i32⟩ : BufTy).Contents (Elt F) → (⟨S120, .i32⟩ : BufTy).Contents (Elt F) → (⟨S120, .i32⟩ : BufTy).Contents (Elt F)) ]

/-- The operations of one call (remainder, buffers main_call5), in order. -/
abbrev k5 : List (HloOp τ sig (Elt F)) :=
  [ StableHlo.unary main_c_6 main_call5_v0 (id : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S120 ![] bcast_S_S120) : (⟨S_, .i32⟩ : BufTy).Contents (Elt F) → (⟨S120, .i32⟩ : BufTy).Contents (Elt F)),
    StableHlo.binary main_v17 main_call5_v3 main_call5_v4 (Host.remsi : (⟨S120, .i32⟩ : BufTy).Contents (Elt F) → (⟨S120, .i32⟩ : BufTy).Contents (Elt F) → (⟨S120, .i32⟩ : BufTy).Contents (Elt F)),
    StableHlo.nullary main_call5_c_1 ((constantI S_ 32 0#32) : (⟨S_, .i32⟩ : BufTy).Contents (Elt F)),
    StableHlo.unary main_call5_c_1 main_call5_v5 ((broadcastInDim S120 ![] bcast_S_S120) : (⟨S_, .i32⟩ : BufTy).Contents (Elt F) → (⟨S120, .i32⟩ : BufTy).Contents (Elt F)),
    StableHlo.binary main_call5_v4 main_call5_v5 main_call5_v6 ((cmpi .ne) : (⟨S120, .i32⟩ : BufTy).Contents (Elt F) → (⟨S120, .i32⟩ : BufTy).Contents (Elt F) → (⟨S120, .i1⟩ : BufTy).Contents (Elt F)),
    StableHlo.nullary main_call5_c_2 ((constantI S_ 32 0#32) : (⟨S_, .i32⟩ : BufTy).Contents (Elt F)),
    StableHlo.unary main_call5_c_2 main_call5_v7 ((broadcastInDim S120 ![] bcast_S_S120) : (⟨S_, .i32⟩ : BufTy).Contents (Elt F) → (⟨S120, .i32⟩ : BufTy).Contents (Elt F)),
    StableHlo.binary main_call5_v4 main_call5_v7 main_call5_v8 ((cmpi .slt) : (⟨S120, .i32⟩ : BufTy).Contents (Elt F) → (⟨S120, .i32⟩ : BufTy).Contents (Elt F) → (⟨S120, .i1⟩ : BufTy).Contents (Elt F)),
    StableHlo.nullary main_call5_c_3 ((constantI S_ 32 0#32) : (⟨S_, .i32⟩ : BufTy).Contents (Elt F)),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S120 ![] bcast_S_S120) : (⟨S_, .i1⟩ : BufTy).Contents (Elt F) → (⟨S120, .i1⟩ : BufTy).Contents (Elt F)),
    StableHlo.binary main_call5_v8 main_call5_v10 main_call5_v11 ((cmpi .ne) : (⟨S120, .i1⟩ : BufTy).Contents (Elt F) → (⟨S120, .i1⟩ : BufTy).Contents (Elt F) → (⟨S120, .i1⟩ : BufTy).Contents (Elt F)),
    StableHlo.binary main_call5_v11 main_call5_v6 main_call5_v12 (andi : (⟨S120, .i1⟩ : BufTy).Contents (Elt F) → (⟨S120, .i1⟩ : BufTy).Contents (Elt F) → (⟨S120, .i1⟩ : BufTy).Contents (Elt F)),
    StableHlo.unary main_call5_v2 main_call5_v13 ((broadcastInDim S120 ![] bcast_S_S120) : (⟨S_, .i32⟩ : BufTy).Contents (Elt F) → (⟨S120, .i32⟩ : BufTy).Contents (Elt F)),
    StableHlo.binary main_call5_v4 main_call5_v13 main_call5_v14 (addi : (⟨S120, .i32⟩ : BufTy).Contents (Elt F) → (⟨S120, .i32⟩ : BufTy).Contents (Elt F) → (⟨S120, .i32⟩ : BufTy).Contents (Elt F)),
    StableHlo.ternary main_call5_v12 main_call5_v14 main_call5_v4 main_v18 (select : (⟨S120, .i1⟩ : BufTy).Contents (Elt F) → (⟨S120, .i32⟩ : BufTy).Contents (Elt F) → (⟨S120, .i32⟩ : BufTy).Contents (Elt F) → (⟨S120, .i32⟩ : BufTy).Contents (Elt F)) ]

/-- The operations of one call (floor_divide, buffers main_call6), in order. -/
abbrev k6 : List (HloOp τ sig (Elt F)) :=
  [ StableHlo.unary main_c_7 main_call6_v0 ((broadcastInDim S120 ![] bcast_S_S120) : (⟨S_, .i32⟩ : BufTy).Contents (Elt F) → (⟨S120, .i32⟩ : BufTy).Contents (Elt F)),
    StableHlo.binary main_v16 main_call6_v0 main_call6_v1 (Host.divsi : (⟨S120, .i32⟩ : BufTy).Contents (Elt F) → (⟨S120, .i32⟩ : BufTy).Contents (Elt F) → (⟨S120, .i32⟩ : BufTy).Contents (Elt F)),
    StableHlo.unary main_v16 main_call6_v2 (signi : (⟨S120, .i32⟩ : BufTy).Contents (Elt F) → (⟨S120, .i32⟩ : BufTy).Contents (Elt F)),
    StableHlo.unary main_c_7 main_call6_v3 (signi : (⟨S_, .i32⟩ : BufTy).Contents (Elt F) → (⟨S_, .i32⟩ : BufTy).Contents (Elt F)),
    StableHlo.unary main_call6_v3 main_call6_v4 ((broadcastInDim S120 ![] bcast_S_S120) : (⟨S_, .i32⟩ : BufTy).Contents (Elt F) → (⟨S120, .i32⟩ : BufTy).Contents (Elt F)),
    StableHlo.binary main_call6_v2 main_call6_v4 main_call6_v5 ((cmpi .ne) : (⟨S120, .i32⟩ : BufTy).Contents (Elt F) → (⟨S120, .i32⟩ : BufTy).Contents (Elt F) → (⟨S120, .i1⟩ : BufTy).Contents (Elt F)),
    StableHlo.unary main_c_7 main_call6_v6 ((broadcastInDim S120 ![] bcast_S_S120) : (⟨S_, .i32⟩ : BufTy).Contents (Elt F) → (⟨S120, .i32⟩ : BufTy).Contents (Elt F)),
    StableHlo.binary main_v16 main_call6_v6 main_call6_v7 (Host.remsi : (⟨S120, .i32⟩ : BufTy).Contents (Elt F) → (⟨S120, .i32⟩ : BufTy).Contents (Elt F) → (⟨S120, .i32⟩ : BufTy).Contents (Elt F)),
    StableHlo.nullary main_call6_c ((constantI S_ 32 0#32) : (⟨S_, .i32⟩ : BufTy).Contents (Elt F)),
    StableHlo.unary main_call6_c main_call6_v8 ((broadcastInDim S120 ![] bcast_S_S120) : (⟨S_, .i32⟩ : BufTy).Contents (Elt F) → (⟨S120, .i32⟩ : BufTy).Contents (Elt F)),
    StableHlo.binary main_call6_v7 main_call6_v8 main_call6_v9 ((cmpi .ne) : (⟨S120, .i32⟩ : BufTy).Contents (Elt F) → (⟨S120, .i32⟩ : BufTy).Contents (Elt F) → (⟨S120, .i1⟩ : BufTy).Contents (Elt F)),
    StableHlo.binary main_call6_v5 main_call6_v9 main_call6_v10 (andi : (⟨S120, .i1⟩ : BufTy).Contents (Elt F) → (⟨S120, .i1⟩ : BufTy).Contents (Elt F) → (⟨S120, .i1⟩ : BufTy).Contents (Elt F)),
    StableHlo.nullary main_call6_c_0 ((constantI S_ 32 1#32) : (⟨S_, .i32⟩ : BufTy).Contents (Elt F)),
    StableHlo.unary main_call6_c_0 main_call6_v11 ((broadcastInDim S120 ![] bcast_S_S120) : (⟨S_, .i32⟩ : BufTy).Contents (Elt F) → (⟨S120, .i32⟩ : BufTy).Contents (Elt F)),
    StableHlo.binary main_call6_v1 main_call6_v11 main_call6_v12 (subi : (⟨S120, .i32⟩ : BufTy).Contents (Elt F) → (⟨S120, .i32⟩ : BufTy).Contents (Elt F) → (⟨S120, .i32⟩ : BufTy).Contents (Elt F)),
    StableHlo.ternary main_call6_v10 main_call6_v12 main_call6_v1 main_v19 (select : (⟨S120, .i1⟩ : BufTy).Contents (Elt F) → (⟨S120, .i32⟩ : BufTy).Contents (Elt F) → (⟨S120, .i32⟩ : BufTy).Contents (Elt F) → (⟨S120, .i32⟩ : BufTy).Contents (Elt F)) ]

/-- The operations of one call (remainder, buffers main_call7), in order. -/
abbrev k7 : List (HloOp τ sig (Elt F)) :=
  [ StableHlo.unary main_c_8 main_call7_v0 (id : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 ((broadcastInDim S120 ![] bcast_S_S120) : (⟨S_, .i32⟩ : BufTy).Contents (Elt F) → (⟨S120, .i32⟩ : BufTy).Contents (Elt F)),
    StableHlo.binary main_v19 main_call7_v3 main_call7_v4 (Host.remsi : (⟨S120, .i32⟩ : BufTy).Contents (Elt F) → (⟨S120, .i32⟩ : BufTy).Contents (Elt F) → (⟨S120, .i32⟩ : BufTy).Contents (Elt F)),
    StableHlo.nullary main_call7_c_1 ((constantI S_ 32 0#32) : (⟨S_, .i32⟩ : BufTy).Contents (Elt F)),
    StableHlo.unary main_call7_c_1 main_call7_v5 ((broadcastInDim S120 ![] bcast_S_S120) : (⟨S_, .i32⟩ : BufTy).Contents (Elt F) → (⟨S120, .i32⟩ : BufTy).Contents (Elt F)),
    StableHlo.binary main_call7_v4 main_call7_v5 main_call7_v6 ((cmpi .ne) : (⟨S120, .i32⟩ : BufTy).Contents (Elt F) → (⟨S120, .i32⟩ : BufTy).Contents (Elt F) → (⟨S120, .i1⟩ : BufTy).Contents (Elt F)),
    StableHlo.nullary main_call7_c_2 ((constantI S_ 32 0#32) : (⟨S_, .i32⟩ : BufTy).Contents (Elt F)),
    StableHlo.unary main_call7_c_2 main_call7_v7 ((broadcastInDim S120 ![] bcast_S_S120) : (⟨S_, .i32⟩ : BufTy).Contents (Elt F) → (⟨S120, .i32⟩ : BufTy).Contents (Elt F)),
    StableHlo.binary main_call7_v4 main_call7_v7 main_call7_v8 ((cmpi .slt) : (⟨S120, .i32⟩ : BufTy).Contents (Elt F) → (⟨S120, .i32⟩ : BufTy).Contents (Elt F) → (⟨S120, .i1⟩ : BufTy).Contents (Elt F)),
    StableHlo.nullary main_call7_c_3 ((constantI S_ 32 0#32) : (⟨S_, .i32⟩ : BufTy).Contents (Elt F)),
    StableHlo.binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    StableHlo.unary main_call7_v9 main_call7_v10 ((broadcastInDim S120 ![] bcast_S_S120) : (⟨S_, .i1⟩ : BufTy).Contents (Elt F) → (⟨S120, .i1⟩ : BufTy).Contents (Elt F)),
    StableHlo.binary main_call7_v8 main_call7_v10 main_call7_v11 ((cmpi .ne) : (⟨S120, .i1⟩ : BufTy).Contents (Elt F) → (⟨S120, .i1⟩ : BufTy).Contents (Elt F) → (⟨S120, .i1⟩ : BufTy).Contents (Elt F)),
    StableHlo.binary main_call7_v11 main_call7_v6 main_call7_v12 (andi : (⟨S120, .i1⟩ : BufTy).Contents (Elt F) → (⟨S120, .i1⟩ : BufTy).Contents (Elt F) → (⟨S120, .i1⟩ : BufTy).Contents (Elt F)),
    StableHlo.unary main_call7_v2 main_call7_v13 ((broadcastInDim S120 ![] bcast_S_S120) : (⟨S_, .i32⟩ : BufTy).Contents (Elt F) → (⟨S120, .i32⟩ : BufTy).Contents (Elt F)),
    StableHlo.binary main_call7_v4 main_call7_v13 main_call7_v14 (addi : (⟨S120, .i32⟩ : BufTy).Contents (Elt F) → (⟨S120, .i32⟩ : BufTy).Contents (Elt F) → (⟨S120, .i32⟩ : BufTy).Contents (Elt F)),
    StableHlo.ternary main_call7_v12 main_call7_v14 main_call7_v4 main_v20 (select : (⟨S120, .i1⟩ : BufTy).Contents (Elt F) → (⟨S120, .i32⟩ : BufTy).Contents (Elt F) → (⟨S120, .i32⟩ : BufTy).Contents (Elt F) → (⟨S120, .i32⟩ : BufTy).Contents (Elt F)) ]

/-- The operations of one call (relu, buffers main_call8), in order. -/
abbrev k8 : List (HloOp τ sig (Elt F)) :=
  [ StableHlo.nullary main_call8_cst ((constant S_ .f32 0x00000000#32) : (⟨S_, .f32⟩ : BufTy).Contents (Elt F)),
    StableHlo.unary main_call8_cst main_call8_v0 ((broadcastInDim S4096x1024 ![] bcast_S_S4096x1024) : (⟨S_, .f32⟩ : BufTy).Contents (Elt F) → (⟨S4096x1024, .f32⟩ : BufTy).Contents (Elt F)),
    StableHlo.binary main_v39 main_call8_v0 main_v40 (maximumf : (⟨S4096x1024, .f32⟩ : BufTy).Contents (Elt F) → (⟨S4096x1024, .f32⟩ : BufTy).Contents (Elt F) → (⟨S4096x1024, .f32⟩ : BufTy).Contents (Elt F)) ]

/-- The operations of one call (relu_4, buffers main_call9), in order. -/
abbrev k9 : List (HloOp τ sig (Elt F)) :=
  [ StableHlo.nullary main_call9_cst ((constant S_ .f32 0x00000000#32) : (⟨S_, .f32⟩ : BufTy).Contents (Elt F)),
    StableHlo.unary main_call9_cst main_call9_v0 ((broadcastInDim S4096x512 ![] bcast_S_S4096x512) : (⟨S_, .f32⟩ : BufTy).Contents (Elt F) → (⟨S4096x512, .f32⟩ : BufTy).Contents (Elt F)),
    StableHlo.binary main_v44 main_call9_v0 main_v45 (maximumf : (⟨S4096x512, .f32⟩ : BufTy).Contents (Elt F) → (⟨S4096x512, .f32⟩ : BufTy).Contents (Elt F) → (⟨S4096x512, .f32⟩ : BufTy).Contents (Elt F)) ]

/-- The program's operations, in order. -/
abbrev ops : List (HloOp τ sig (Elt F)) := sA ++ (sB ++ (sC ++ (sD ++ (sE ++ sF))))

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem sA_sub : (sA : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

set_option maxRecDepth 8192 in
theorem sB_sub : (sB : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
theorem sC_sub : (sC : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
theorem sD_sub : (sD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

set_option maxRecDepth 8192 in
theorem sE_sub : (sE : List (HloOp τ sig (Elt F))).Forall fun op => op.bufs ⊆ tcRefs τ sig :=
  ⟨reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem sF_sub : (sF : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp sA_sub op h, List.forall_iff_forall_mem.mp sB_sub op h,
      List.forall_iff_forall_mem.mp sC_sub op h, List.forall_iff_forall_mem.mp sD_sub op h,
      List.forall_iff_forall_mem.mp sE_sub op h, List.forall_iff_forall_mem.mp sF_sub op h]

end Cert.ReferenceIdeal.RefRun

end
-- ==== Proof.RefMainEq.lean ====
/-
  The reference program is the straight line of its operations.

  A call of a module-local function is the function's body over the call's buffers; a body is a line of operations
  written over references that carry their value types, each of which is the plain operation at the same buffers.
  So every call is the line of its plain operations, and the program, its calls replaced, is the six stretches run
  in order.  The run of a straight line then gives every buffer's final contents as the fold of the operations.
-/
import proofs.«157121_j79989470920946_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000 in
/-- The call is the line of its operations. -/
theorem k0_eq : (fn_triu.body (.of main_v1) main_call0 : Prog (TpuEff nD τ sig (Elt F) (Pipeline.Sig Λ₀ (Fin 0) fun p => (pcfgs (F := F) p).Adm) .tc) PUnit) = seq k0 := by
  simp only [fn_triu.body, k0, seq, bind_assoc, pure_bind] <;> rfl

attribute [local irreducible] Host.reduceWindow in
set_option maxHeartbeats 400000 in
/-- The call is the line of its operations. -/
theorem k1_eq : (fn_cumsum.body (.of main_v4) main_call1 : Prog (TpuEff nD τ sig (Elt F) (Pipeline.Sig Λ₀ (Fin 0) fun p => (pcfgs (F := F) p).Adm) .tc) PUnit) = seq k1 := by
  simp only [fn_cumsum.body, fn_cumsum_0.body, k1, seq, bind_assoc, pure_bind] <;> rfl

set_option maxHeartbeats 400000 in
/-- The call is the line of its operations. -/
theorem k2_eq : (fn_clip.body (.of main_v5) (.of main_c_1) main_call2 : Prog (TpuEff nD τ sig (Elt F) (Pipeline.Sig Λ₀ (Fin 0) fun p => (pcfgs (F := F) p).Adm) .tc) PUnit) = seq k2 := by
  simp only [fn_clip.body, k2, seq, bind_assoc, pure_bind] <;> rfl

attribute [local irreducible] Host.reduceWindow in
set_option maxHeartbeats 400000 in
/-- The call is the line of its operations. -/
theorem k3_eq : (fn_cumsum_1.body (.of main_v15) main_call3 : Prog (TpuEff nD τ sig (Elt F) (Pipeline.Sig Λ₀ (Fin 0) fun p => (pcfgs (F := F) p).Adm) .tc) PUnit) = seq k3 := by
  simp only [fn_cumsum_1.body, fn_cumsum_2.body, k3, seq, bind_assoc, pure_bind] <;> rfl

set_option maxHeartbeats 400000 in
/-- The call is the line of its operations. -/
theorem k4_eq : (fn_floor_divide.body (.of main_v16) (.of main_c_5) main_call4 : Prog (TpuEff nD τ sig (Elt F) (Pipeline.Sig Λ₀ (Fin 0) fun p => (pcfgs (F := F) p).Adm) .tc) PUnit) = seq k4 := by
  simp only [fn_floor_divide.body, fn_where.body, k4, seq, bind_assoc, pure_bind] <;> rfl

set_option maxHeartbeats 400000 in
/-- The call is the line of its operations. -/
theorem k5_eq : (fn_remainder.body (.of main_v17) (.of main_c_6) main_call5 : Prog (TpuEff nD τ sig (Elt F) (Pipeline.Sig Λ₀ (Fin 0) fun p => (pcfgs (F := F) p).Adm) .tc) PUnit) = seq k5 := by
  simp only [fn_remainder.body, fn_where_3.body, k5, seq, bind_assoc, pure_bind] <;> rfl

set_option maxHeartbeats 400000 in
/-- The call is the line of its operations. -/
theorem k6_eq : (fn_floor_divide.body (.of main_v16) (.of main_c_7) main_call6 : Prog (TpuEff nD τ sig (Elt F) (Pipeline.Sig Λ₀ (Fin 0) fun p => (pcfgs (F := F) p).Adm) .tc) PUnit) = seq k6 := by
  simp only [fn_floor_divide.body, fn_where.body, k6, seq, bind_assoc, pure_bind] <;> rfl

set_option maxHeartbeats 400000 in
/-- The call is the line of its operations. -/
theorem k7_eq : (fn_remainder.body (.of main_v19) (.of main_c_8) main_call7 : Prog (TpuEff nD τ sig (Elt F) (Pipeline.Sig Λ₀ (Fin 0) fun p => (pcfgs (F := F) p).Adm) .tc) PUnit) = seq k7 := by
  simp only [fn_remainder.body, fn_where_3.body, k7, seq, bind_assoc, pure_bind] <;> rfl

set_option maxHeartbeats 400000 in
/-- The call is the line of its operations. -/
theorem k8_eq : (fn_relu.body (.of main_v39) main_call8 : Prog (TpuEff nD τ sig (Elt F) (Pipeline.Sig Λ₀ (Fin 0) fun p => (pcfgs (F := F) p).Adm) .tc) PUnit) = seq k8 := by
  simp only [fn_relu.body, k8, seq, bind_assoc, pure_bind] <;> rfl

set_option maxHeartbeats 400000 in
/-- The call is the line of its operations. -/
theorem k9_eq : (fn_relu_4.body (.of main_v44) main_call9 : Prog (TpuEff nD τ sig (Elt F) (Pipeline.Sig Λ₀ (Fin 0) fun p => (pcfgs (F := F) p).Adm) .tc) PUnit) = seq k9 := by
  simp only [fn_relu_4.body, k9, seq, bind_assoc, pure_bind] <;> rfl

set_option maxRecDepth 16384 in
set_option maxHeartbeats 2000000 in
/-- The first window of statements is the first five stretches run in order. -/
theorem main_part0_eq (c : Dev nD) :
    main_part0 (F := F) c = (seq sA >>= fun _ => seq sB >>= fun _ => seq sC >>= fun _ => seq sD >>= fun _ => seq sE) := by
  simp only [main_part0, k0_eq, k1_eq, k2_eq, k3_eq, k4_eq, k5_eq, k6_eq, k7_eq, k8_eq,
    k0, k1, k2, k3, k4, k5, k6, k7, k8, sA, sB, sC, sD, sE, seq, bind_assoc, pure_bind] <;> rfl

set_option maxRecDepth 8192 in
/-- The second window of statements is the last stretch. -/
theorem main_part1_eq (c : Dev nD) : main_part1 (F := F) c = seq sF := by
  simp only [main_part1, k9_eq, k9, sF, seq, bind_assoc, pure_bind] <;> rfl

/-- The program is the straight line of its operations. -/
theorem main_eq (c : Dev nD) : main (F := F) c = seq ops := by
  simp only [main, main_part0_eq, main_part1_eq, ops, seq_append, bind_assoc]

/-- On every device, for any float values, from any memory with zero counters: every weakly fair execution of the
    program terminates, and every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefIndexDef.lean ====
/-
  The reference program's table of gather indices, as a closed term.

  Statements %1 … %33 of the reference compute a [120, 2] array of 32-bit integers from constants
  alone: the coordinates of the non-zero entries of a strictly upper-triangular 16 × 16 mask of
  ones, found by prefix sums, a counting scatter-add, a second prefix sum, and a floored division
  and remainder by 16.  `idxArray` is the composition of exactly those operations, each helper
  function's body written once as a function of its arguments and applied where the program
  calls it, every operation with the record and the fact the program cites.
-/
import proofs.«157121_j79989470920946_2_alg».proof.ReferenceIdeal
import Idealize.ShloMosaic.PureOps.Ideal

noncomputable section

namespace Cert.ReferenceIdeal.RefIndex

open Idealize.ShloMosaic Idealize.SL.Sem
open Cert.ReferenceIdeal

variable [Facts]
open Facts₀ Facts

/-- The body of `triu`: the argument where row < column, zero elsewhere. -/
def triuV (arg0 : (⟨S16x16, .f32⟩ : BufTy).Contents (Elt Ideal)) : (⟨S16x16, .f32⟩ : BufTy).Contents (Elt Ideal) :=
  have v0 : (⟨S16x16, .i32⟩ : BufTy).Contents (Elt Ideal) := iotaInDim S16x16 32 0
  have c : (⟨S_, .i32⟩ : BufTy).Contents (Elt Ideal) := constantI S_ 32 0#32
  have v1 : (⟨S16x16, .i32⟩ : BufTy).Contents (Elt Ideal) := broadcastInDim S16x16 ![] bcast_S_S16x16 c
  have v2 : (⟨S16x16, .i32⟩ : BufTy).Contents (Elt Ideal) := addi v0 v1
  have v3 : (⟨S16x16, .i32⟩ : BufTy).Contents (Elt Ideal) := iotaInDim S16x16 32 1
  have v4 : (⟨S16x16, .i1⟩ : BufTy).Contents (Elt Ideal) := cmpi .sge v2 v3
  have cst : (⟨S_, .f32⟩ : BufTy).Contents (Elt Ideal) := constant (F := Ideal) S_ .f32 0x00000000#32
  have v5 : (⟨S16x16, .f32⟩ : BufTy).Contents (Elt Ideal) := broadcastInDim S16x16 ![] bcast_S_S16x16 cst
  select v4 v5 arg0

/-- The body of `cumsum_0`: inclusive prefix sums over 256 entries, as a padded window sum. -/
def cumsum0V (arg0 : (⟨S256, .i32⟩ : BufTy).Contents (Elt Ideal)) : (⟨S256, .i32⟩ : BufTy).Contents (Elt Ideal) :=
  have c : (⟨S_, .i32⟩ : BufTy).Contents (Elt Ideal) := constantI S_ 32 0#32
  have v0 : (⟨S_, .i32⟩ : BufTy).Contents (Elt Ideal) := broadcastInDim S_ ![] bcast_S_S_ c
  Host.reduceWindow IntOp.addi ![256] ![1] ![255] ![0] arg0 v0 reduceWindows_S256_S256_w256s1p255_0 h_S_

/-- The body of `cumsum`: flatten the mask, widen it to 32 bits, take prefix sums. -/
def cumsumV (arg0 : (⟨S16x16, .i1⟩ : BufTy).Contents (Elt Ideal)) : (⟨S256, .i32⟩ : BufTy).Contents (Elt Ideal) :=
  have v0 : (⟨S256, .i1⟩ : BufTy).Contents (Elt Ideal) := shapeCast S256 arg0 shapeCasts_S16x16_S256
  have v1 : (⟨S256, .i32⟩ : BufTy).Contents (Elt Ideal) := extui 32 v0 natLt_1_32
  cumsum0V v1

/-- The body of `clip`: the maximum with a lower bound. -/
def clipV (arg0 : (⟨S256, .i32⟩ : BufTy).Contents (Elt Ideal)) (arg1 : (⟨S_, .i32⟩ : BufTy).Contents (Elt Ideal)) :
    (⟨S256, .i32⟩ : BufTy).Contents (Elt Ideal) :=
  have v0 : (⟨S_, .i32⟩ : BufTy).Contents (Elt Ideal) := id arg1
  have v1 : (⟨S256, .i32⟩ : BufTy).Contents (Elt Ideal) := broadcastInDim S256 ![] bcast_S_S256 v0
  maxsi v1 arg0

/-- The body of `cumsum_2` (which `cumsum_1` calls and returns): inclusive prefix sums over 120 entries. -/
def cumsum2V (arg0 : (⟨S120, .i32⟩ : BufTy).Contents (Elt Ideal)) : (⟨S120, .i32⟩ : BufTy).Contents (Elt Ideal) :=
  have c : (⟨S_, .i32⟩ : BufTy).Contents (Elt Ideal) := constantI S_ 32 0#32
  have v0 : (⟨S_, .i32⟩ : BufTy).Contents (Elt Ideal) := broadcastInDim S_ ![] bcast_S_S_ c
  Host.reduceWindow IntOp.addi ![120] ![1] ![119] ![0] arg0 v0 reduceWindows_S120_S120_w120s1p119_0 h_S_

/-- The body of `floor_divide`: the truncated quotient, less one where the signs differ and the
    remainder is not zero. -/
def floorDivideV (arg0 : (⟨S120, .i32⟩ : BufTy).Contents (Elt Ideal)) (arg1 : (⟨S_, .i32⟩ : BufTy).Contents (Elt Ideal)) :
    (⟨S120, .i32⟩ : BufTy).Contents (Elt Ideal) :=
  have v0 : (⟨S120, .i32⟩ : BufTy).Contents (Elt Ideal) := broadcastInDim S120 ![] bcast_S_S120 arg1
  have v1 : (⟨S120, .i32⟩ : BufTy).Contents (Elt Ideal) := Host.divsi arg0 v0
  have v2 : (⟨S120, .i32⟩ : BufTy).Contents (Elt Ideal) := signi arg0
  have v3 : (⟨S_, .i32⟩ : BufTy).Contents (Elt Ideal) := signi arg1
  have v4 : (⟨S120, .i32⟩ : BufTy).Contents (Elt Ideal) := broadcastInDim S120 ![] bcast_S_S120 v3
  have v5 : (⟨S120, .i1⟩ : BufTy).Contents (Elt Ideal) := cmpi .ne v2 v4
  have v6 : (⟨S120, .i32⟩ : BufTy).Contents (Elt Ideal) := broadcastInDim S120 ![] bcast_S_S120 arg1
  have v7 : (⟨S120, .i32⟩ : BufTy).Contents (Elt Ideal) := Host.remsi arg0 v6
  have c : (⟨S_, .i32⟩ : BufTy).Contents (Elt Ideal) := constantI S_ 32 0#32
  have v8 : (⟨S120, .i32⟩ : BufTy).Contents (Elt Ideal) := broadcastInDim S120 ![] bcast_S_S120 c
  have v9 : (⟨S120, .i1⟩ : BufTy).Contents (Elt Ideal) := cmpi .ne v7 v8
  have v10 : (⟨S120, .i1⟩ : BufTy).Contents (Elt Ideal) := andi v5 v9
  have c_0 : (⟨S_, .i32⟩ : BufTy).Contents (Elt Ideal) := constantI S_ 32 1#32
  have v11 : (⟨S120, .i32⟩ : BufTy).Contents (Elt Ideal) := broadcastInDim S120 ![] bcast_S_S120 c_0
  have v12 : (⟨S120, .i32⟩ : BufTy).Contents (Elt Ideal) := subi v1 v11
  select v10 v12 v1

/-- The body of `remainder`: the truncated remainder by the divisor (by one if the divisor is zero),
    plus the divisor where the remainder is not zero and its sign differs from the divisor's. -/
def remainderV (arg0 : (⟨S120, .i32⟩ : BufTy).Contents (Elt Ideal)) (arg1 : (⟨S_, .i32⟩ : BufTy).Contents (Elt Ideal)) :
    (⟨S120, .i32⟩ : BufTy).Contents (Elt Ideal) :=
  have v0 : (⟨S_, .i32⟩ : BufTy).Contents (Elt Ideal) := id arg1
  have c : (⟨S_, .i32⟩ : BufTy).Contents (Elt Ideal) := constantI S_ 32 0#32
  have v1 : (⟨S_, .i1⟩ : BufTy).Contents (Elt Ideal) := cmpi .eq v0 c
  have c_0 : (⟨S_, .i32⟩ : BufTy).Contents (Elt Ideal) := constantI S_ 32 1#32
  have v2 : (⟨S_, .i32⟩ : BufTy).Contents (Elt Ideal) := select v1 c_0 v0
  have v3 : (⟨S120, .i32⟩ : BufTy).Contents (Elt Ideal) := broadcastInDim S120 ![] bcast_S_S120 v2
  have v4 : (⟨S120, .i32⟩ : BufTy).Contents (Elt Ideal) := Host.remsi arg0 v3
  have c_1 : (⟨S_, .i32⟩ : BufTy).Contents (Elt Ideal) := constantI S_ 32 0#32
  have v5 : (⟨S120, .i32⟩ : BufTy).Contents (Elt Ideal) := broadcastInDim S120 ![] bcast_S_S120 c_1
  have v6 : (⟨S120, .i1⟩ : BufTy).Contents (Elt Ideal) := cmpi .ne v4 v5
  have c_2 : (⟨S_, .i32⟩ : BufTy).Contents (Elt Ideal) := constantI S_ 32 0#32
  have v7 : (⟨S120, .i32⟩ : BufTy).Contents (Elt Ideal) := broadcastInDim S120 ![] bcast_S_S120 c_2
  have v8 : (⟨S120, .i1⟩ : BufTy).Contents (Elt Ideal) := cmpi .slt v4 v7
  have c_3 : (⟨S_, .i32⟩ : BufTy).Contents (Elt Ideal) := constantI S_ 32 0#32
  have v9 : (⟨S_, .i1⟩ : BufTy).Contents (Elt Ideal) := cmpi .slt v2 c_3
  have v10 : (⟨S120, .i1⟩ : BufTy).Contents (Elt Ideal) := broadcastInDim S120 ![] bcast_S_S120 v9
  have v11 : (⟨S120, .i1⟩ : BufTy).Contents (Elt Ideal) := cmpi .ne v8 v10
  have v12 : (⟨S120, .i1⟩ : BufTy).Contents (Elt Ideal) := andi v11 v6
  have v13 : (⟨S120, .i32⟩ : BufTy).Contents (Elt Ideal) := broadcastInDim S120 ![] bcast_S_S120 v2
  have v14 : (⟨S120, .i32⟩ : BufTy).Contents (Elt Ideal) := addi v4 v13
  select v12 v14 v4

/-- %4 of the reference: the 16 × 16 mask, one bit per entry, of the non-zero entries of the
    strictly upper-triangular part of the all-ones matrix. -/
def maskV : (⟨S16x16, .i1⟩ : BufTy).Contents (Elt Ideal) :=
  have cst : (⟨S_, .f32⟩ : BufTy).Contents (Elt Ideal) := constant (F := Ideal) S_ .f32 0x3F800000#32
  have v1 : (⟨S16x16, .f32⟩ : BufTy).Contents (Elt Ideal) := broadcastInDim S16x16 ![] bcast_S_S16x16 cst
  have v2 : (⟨S16x16, .f32⟩ : BufTy).Contents (Elt Ideal) := triuV v1
  have cst_0 : (⟨S_, .f32⟩ : BufTy).Contents (Elt Ideal) := constant (F := Ideal) S_ .f32 0x00000000#32
  have v3 : (⟨S16x16, .f32⟩ : BufTy).Contents (Elt Ideal) := broadcastInDim S16x16 ![] bcast_S_S16x16 cst_0
  cmpf (F := Ideal) (φ := .f32) .une v2 v3

/-- %16 of the reference, from the mask %4: for each pair number k the flat position 16·i + j of
    the k-th non-zero entry of the mask. -/
def flatV (v4 : (⟨S16x16, .i1⟩ : BufTy).Contents (Elt Ideal)) : (⟨S120, .i32⟩ : BufTy).Contents (Elt Ideal) :=
  have v5 : (⟨S256, .i32⟩ : BufTy).Contents (Elt Ideal) := cumsumV v4
  have c : (⟨S_, .i32⟩ : BufTy).Contents (Elt Ideal) := constantI S_ 32 0#32
  have v6 : (⟨S120, .i32⟩ : BufTy).Contents (Elt Ideal) := broadcastInDim S120 ![] bcast_S_S120 c
  have c_1 : (⟨S_, .i32⟩ : BufTy).Contents (Elt Ideal) := constantI S_ 32 0#32
  have v7 : (⟨S256, .i32⟩ : BufTy).Contents (Elt Ideal) := clipV v5 c_1
  have c_2 : (⟨S_, .i32⟩ : BufTy).Contents (Elt Ideal) := constantI S_ 32 0#32
  have v8 : (⟨S256, .i32⟩ : BufTy).Contents (Elt Ideal) := broadcastInDim S256 ![] bcast_S_S256 c_2
  have v9 : (⟨S256, .i1⟩ : BufTy).Contents (Elt Ideal) := cmpi .slt v7 v8
  have c_3 : (⟨S_, .i32⟩ : BufTy).Contents (Elt Ideal) := constantI S_ 32 120#32
  have v10 : (⟨S256, .i32⟩ : BufTy).Contents (Elt Ideal) := broadcastInDim S256 ![] bcast_S_S256 c_3
  have v11 : (⟨S256, .i32⟩ : BufTy).Contents (Elt Ideal) := addi v7 v10
  have v12 : (⟨S256, .i32⟩ : BufTy).Contents (Elt Ideal) := select v9 v11 v7
  have v13 : (⟨S256x1, .i32⟩ : BufTy).Contents (Elt Ideal) := broadcastInDim S256x1 ![0] bcast_S256_S256x1_0 v12
  have c_4 : (⟨S_, .i32⟩ : BufTy).Contents (Elt Ideal) := constantI S_ 32 1#32
  have v14 : (⟨S256, .i32⟩ : BufTy).Contents (Elt Ideal) := broadcastInDim S256 ![] bcast_S_S256 c_4
  have v15 : (⟨S120, .i32⟩ : BufTy).Contents (Elt Ideal) := Host.scatter scatter_S120_S256x1_S256_n_0_0_1 IntOp.addi v6 v13 v14
  cumsum2V v15

/-- %33 of the reference, from %16: row and column of each flat position, side by side. -/
def coordsV (v16 : (⟨S120, .i32⟩ : BufTy).Contents (Elt Ideal)) : (⟨S120x2, .i32⟩ : BufTy).Contents (Elt Ideal) :=
  have c_5 : (⟨S_, .i32⟩ : BufTy).Contents (Elt Ideal) := constantI S_ 32 16#32
  have v17 : (⟨S120, .i32⟩ : BufTy).Contents (Elt Ideal) := floorDivideV v16 c_5
  have c_6 : (⟨S_, .i32⟩ : BufTy).Contents (Elt Ideal) := constantI S_ 32 16#32
  have v18 : (⟨S120, .i32⟩ : BufTy).Contents (Elt Ideal) := remainderV v17 c_6
  have c_7 : (⟨S_, .i32⟩ : BufTy).Contents (Elt Ideal) := constantI S_ 32 1#32
  have v19 : (⟨S120, .i32⟩ : BufTy).Contents (Elt Ideal) := floorDivideV v16 c_7
  have c_8 : (⟨S_, .i32⟩ : BufTy).Contents (Elt Ideal) := constantI S_ 32 16#32
  have v20 : (⟨S120, .i32⟩ : BufTy).Contents (Elt Ideal) := remainderV v19 c_8
  have c_9 : (⟨S_, .i32⟩ : BufTy).Contents (Elt Ideal) := constantI S_ 32 0#32
  have v21 : (⟨S120, .i32⟩ : BufTy).Contents (Elt Ideal) := broadcastInDim S120 ![] bcast_S_S120 c_9
  have v22 : (⟨S120, .i1⟩ : BufTy).Contents (Elt Ideal) := cmpi .slt v18 v21
  have c_10 : (⟨S_, .i32⟩ : BufTy).Contents (Elt Ideal) := constantI S_ 32 16#32
  have v23 : (⟨S120, .i32⟩ : BufTy).Contents (Elt Ideal) := broadcastInDim S120 ![] bcast_S_S120 c_10
  have v24 : (⟨S120, .i32⟩ : BufTy).Contents (Elt Ideal) := addi v18 v23
  have v25 : (⟨S120, .i32⟩ : BufTy).Contents (Elt Ideal) := select v22 v24 v18
  have c_11 : (⟨S_, .i32⟩ : BufTy).Contents (Elt Ideal) := constantI S_ 32 0#32
  have v26 : (⟨S120, .i32⟩ : BufTy).Contents (Elt Ideal) := broadcastInDim S120 ![] bcast_S_S120 c_11
  have v27 : (⟨S120, .i1⟩ : BufTy).Contents (Elt Ideal) := cmpi .slt v20 v26
  have c_12 : (⟨S_, .i32⟩ : BufTy).Contents (Elt Ideal) := constantI S_ 32 16#32
  have v28 : (⟨S120, .i32⟩ : BufTy).Contents (Elt Ideal) := broadcastInDim S120 ![] bcast_S_S120 c_12
  have v29 : (⟨S120, .i32⟩ : BufTy).Contents (Elt Ideal) := addi v20 v28
  have v30 : (⟨S120, .i32⟩ : BufTy).Contents (Elt Ideal) := select v27 v29 v20
  have v31 : (⟨S120x1, .i32⟩ : BufTy).Contents (Elt Ideal) := broadcastInDim S120x1 ![0] bcast_S120_S120x1_0 v25
  have v32 : (⟨S120x1, .i32⟩ : BufTy).Contents (Elt Ideal) := broadcastInDim S120x1 ![0] bcast_S120_S120x1_0 v30
  concatenate S120x2 1 [⟨S120x1, v31⟩, ⟨S120x1, v32⟩] concatenates_S120x1_S120x1_S120x2_d1

/-- %33 of the reference: the [120, 2] array of gather indices, (row, column) of each pair. -/
def idxArray : (⟨S120x2, .i32⟩ : BufTy).Contents (Elt Ideal) := coordsV (flatV maskV)

end Cert.ReferenceIdeal.RefIndex

end
-- ==== Proof.RefLayers.lean ====
/-
  The reference's three layers and its host tail, read against the specification.

  The reference spells a layer as the host's matrix product plus the bias broadcast to a row and down the rows, and
  the maximum with zero as the maximum with a broadcast zero scalar; these are the specification's `affine` and
  `relu` (the layer lemmas, at the reference's own extents).  Composed, the three layers of the flattened input are
  the specification's higher-order features.
-/
import proofs.«157121_j79989470920946_2_alg».proof.ReferenceIdeal
import proofs.«157121_j79989470920946_2_alg».proof.Proof.Gen.ReferenceIdeal
import proofs.«157121_j79989470920946_2_alg».proof.Proof.Layer

noncomputable section

namespace Cert.ReferenceIdeal.RefLayers

open Idealize.ShloMosaic Idealize.ShloMosaic.ValueIdx
open Cert.ReferenceIdeal Cert.ReferenceIdeal.Facts₀ Cert.Spec

/-- The first layer with its maximum, as the reference computes it. -/
def layer1 (flat : FVec Ideal S4096x4096 .f32) (W1 : FVec Ideal S4096x1024 .f32) (b1 : FVec Ideal S1024 .f32) : FVec Ideal S4096x1024 .f32 :=
  maximumf (addf (Host.dotGeneral (F := Ideal) dot_S4096x4096_S4096x1024_S4096x1024_1_0_0_1_n_n none flat W1)
      (broadcastInDim S4096x1024 ![0, 1] bcast_S1x1024_S4096x1024_0_1 (broadcastInDim S1x1024 ![1] bcast_S1024_S1x1024_1 b1)))
    (broadcastInDim S4096x1024 ![] bcast_S_S4096x1024 (constant (F := Ideal) S_ .f32 0x00000000#32))

/-- The second layer with its maximum. -/
def layer2 (y1 : FVec Ideal S4096x1024 .f32) (W2 : FVec Ideal S1024x512 .f32) (b2 : FVec Ideal S512 .f32) : FVec Ideal S4096x512 .f32 :=
  maximumf (addf (Host.dotGeneral (F := Ideal) dot_S4096x1024_S1024x512_S4096x512_1_0_0_1_n_n none y1 W2)
      (broadcastInDim S4096x512 ![0, 1] bcast_S1x512_S4096x512_0_1 (broadcastInDim S1x512 ![1] bcast_S512_S1x512_1 b2)))
    (broadcastInDim S4096x512 ![] bcast_S_S4096x512 (constant (F := Ideal) S_ .f32 0x00000000#32))

/-- The third layer (no maximum). -/
def layer3 (y2 : FVec Ideal S4096x512 .f32) (W3 : FVec Ideal S512x64 .f32) (b3 : FVec Ideal S64 .f32) : FVec Ideal S4096x64 .f32 :=
  addf (Host.dotGeneral (F := Ideal) dot_S4096x512_S512x64_S4096x64_1_0_0_1_n_n none y2 W3)
    (broadcastInDim S4096x64 ![0, 1] bcast_S1x64_S4096x64_0_1 (broadcastInDim S1x64 ![1] bcast_S64_S1x64_1 b3))

theorem layer1_eq (flat : FVec Ideal S4096x4096 .f32) (W1 : FVec Ideal S4096x1024 .f32) (b1 : FVec Ideal S1024 .f32) :
    layer1 flat W1 b1 = relu (affine flat W1 b1) := by
  show maximumf (addf (Host.dotGeneral (F := Ideal) (Lib.PlainDot.dims dot_S4096x4096_S4096x1024_S4096x1024_1_0_0_1_n_n_wf) none flat W1)
      (broadcastInDim S4096x1024 ![0, 1] bcast_S1x1024_S4096x1024_0_1 (broadcastInDim S1x1024 ![1] bcast_S1024_S1x1024_1 b1)))
    (broadcastInDim S4096x1024 ![] bcast_S_S4096x1024 (constant (F := Ideal) S_ .f32 0x00000000#32)) = _
  rw [Layer.host_affine, Layer.host_relu]

theorem layer2_eq (y1 : FVec Ideal S4096x1024 .f32) (W2 : FVec Ideal S1024x512 .f32) (b2 : FVec Ideal S512 .f32) :
    layer2 y1 W2 b2 = relu (affine y1 W2 b2) := by
  show maximumf (addf (Host.dotGeneral (F := Ideal) (Lib.PlainDot.dims dot_S4096x1024_S1024x512_S4096x512_1_0_0_1_n_n_wf) none y1 W2)
      (broadcastInDim S4096x512 ![0, 1] bcast_S1x512_S4096x512_0_1 (broadcastInDim S1x512 ![1] bcast_S512_S1x512_1 b2)))
    (broadcastInDim S4096x512 ![] bcast_S_S4096x512 (constant (F := Ideal) S_ .f32 0x00000000#32)) = _
  rw [Layer.host_affine, Layer.host_relu]

theorem layer3_eq (y2 : FVec Ideal S4096x512 .f32) (W3 : FVec Ideal S512x64 .f32) (b3 : FVec Ideal S64 .f32) :
    layer3 y2 W3 b3 = affine y2 W3 b3 := by
  show (addf (Host.dotGeneral (F := Ideal) (Lib.PlainDot.dims dot_S4096x512_S512x64_S4096x64_1_0_0_1_n_n_wf) none y2 W3)
      (broadcastInDim S4096x64 ![0, 1] bcast_S1x64_S4096x64_0_1 (broadcastInDim S1x64 ![1] bcast_S64_S1x64_1 b3)) : FVec Ideal S4096x64 .f32) = _
  rw [Layer.host_affine]

/-- The three layers composed are the specification's higher-order features. -/
theorem hidden_eq (flat : FVec Ideal S4096x4096 .f32) (W1 : FVec Ideal S4096x1024 .f32) (b1 : FVec Ideal S1024 .f32)
    (W2 : FVec Ideal S1024x512 .f32) (b2 : FVec Ideal S512 .f32) (W3 : FVec Ideal S512x64 .f32) (b3 : FVec Ideal S64 .f32) :
    layer3 (layer2 (layer1 flat W1 b1) W2 b2) W3 b3 = hidden flat W1 b1 W2 b2 W3 b3 := by
  rw [layer1_eq, layer2_eq, layer3_eq]
  rfl

/-- The reference's last three operations and its concatenate, as one function of the two feature blocks, the last
    weights and the last bias. -/
def tail (ho : FVec Ideal S4096x64 .f32) (so : FVec Ideal S4096x120 .f32) (Wc : FVec Ideal S184x5 .f32) (bc : FVec Ideal S5 .f32) :
    FVec Ideal S4096x5 .f32 :=
  addf (Host.dotGeneral (F := Ideal) dot_S4096x184_S184x5_S4096x5_1_0_0_1_n_n none
      (concatenate S4096x184 1 [⟨S4096x64, ho⟩, ⟨S4096x120, so⟩] concatenates_S4096x64_S4096x120_S4096x184_d1) Wc)
    (broadcastInDim S4096x5 ![0, 1] bcast_S1x5_S4096x5_0_1 (broadcastInDim S1x5 ![1] bcast_S5_S1x5_1 bc))

end Cert.ReferenceIdeal.RefLayers

end
-- ==== Proof.RefRead.lean ====
/-
  The reference program's stretches, read.

  After a stretch of operations, a buffer the stretch does not write holds what it held before; a buffer it writes
  holds the composition of the stretch's functions over what the buffers it reads held before.  The first stretch
  leaves the pairwise inner products and the flat positions of the 120 pairs; the next two the pairs' first and
  second coordinates; the fourth lays the coordinates side by side and gathers the inner products there; the last
  two compute the dense layers and the final affine map of the concatenated features.
-/
import proofs.«157121_j79989470920946_2_alg».proof.Proof.RefOps
import proofs.«157121_j79989470920946_2_alg».proof.Proof.RefIndexDef
import proofs.«157121_j79989470920946_2_alg».proof.Proof.RefLayers

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffers the stretch writes. -/
abbrev sA_W : List (Ref sig .tc) := [main_v0, main_cst, main_v1, main_call0_v0, main_call0_c, main_call0_v1, main_call0_v2, main_call0_v3, main_call0_v4, main_call0_cst, main_call0_v5, main_v2, main_cst_0, main_v3, main_v4, main_call1_v0, main_call1_v1, main_call1_call0_c, main_call1_call0_v0, main_v5, main_c, main_v6, main_c_1, main_call2_v0, main_call2_v1, main_v7, main_c_2, main_v8, main_v9, main_c_3, main_v10, main_v11, main_v12, main_v13, main_c_4, main_v14, main_v15, main_call3_call0_c, main_call3_call0_v0, main_v16]
set_option maxRecDepth 8192 in
theorem sA_writes : (sA (F := Ideal)).Forall fun op => op.writes ⊆ (sA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sA_keep (W : Valuation τ sig (Elt Ideal)) (r : Ref sig .tc) (h : r ∉ sA_W) :
    after (sA (F := Ideal)) W (Proc.devRef .tc r) = W (Proc.devRef .tc r) :=
  after_of_writes_sub sA _ sA_writes h

/-- The buffers the stretch writes. -/
abbrev sB_W : List (Ref sig .tc) := [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v17, main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v18]
set_option maxRecDepth 8192 in
theorem sB_writes : (sB (F := Ideal)).Forall fun op => op.writes ⊆ (sB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sB_keep (W : Valuation τ sig (Elt Ideal)) (r : Ref sig .tc) (h : r ∉ sB_W) :
    after (sB (F := Ideal)) W (Proc.devRef .tc r) = W (Proc.devRef .tc r) :=
  after_of_writes_sub sB _ sB_writes h

/-- The buffers the stretch writes. -/
abbrev sC_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v19, main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v20]
set_option maxRecDepth 8192 in
theorem sC_writes : (sC (F := Ideal)).Forall fun op => op.writes ⊆ (sC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sC_keep (W : Valuation τ sig (Elt Ideal)) (r : Ref sig .tc) (h : r ∉ sC_W) :
    after (sC (F := Ideal)) W (Proc.devRef .tc r) = W (Proc.devRef .tc r) :=
  after_of_writes_sub sC _ sC_writes h

/-- The buffers the stretch writes. -/
abbrev sD_W : List (Ref sig .tc) := [main_c_9, main_v21, main_v22, main_c_10, main_v23, main_v24, main_v25, main_c_11, main_v26, main_v27, main_c_12, main_v28, main_v29, main_v30, main_v31, main_v32, main_v33, main_v34]
set_option maxRecDepth 8192 in
theorem sD_writes : (sD (F := Ideal)).Forall fun op => op.writes ⊆ (sD_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sD_keep (W : Valuation τ sig (Elt Ideal)) (r : Ref sig .tc) (h : r ∉ sD_W) :
    after (sD (F := Ideal)) W (Proc.devRef .tc r) = W (Proc.devRef .tc r) :=
  after_of_writes_sub sD _ sD_writes h

/-- The buffers the stretch writes. -/
abbrev sE_W : List (Ref sig .tc) := [main_v35, main_v36, main_v37, main_v38, main_v39, main_call8_cst, main_call8_v0, main_v40, main_v41, main_v42, main_v43, main_v44]
set_option maxRecDepth 8192 in
theorem sE_writes : (sE (F := Ideal)).Forall fun op => op.writes ⊆ (sE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sE_keep (W : Valuation τ sig (Elt Ideal)) (r : Ref sig .tc) (h : r ∉ sE_W) :
    after (sE (F := Ideal)) W (Proc.devRef .tc r) = W (Proc.devRef .tc r) :=
  after_of_writes_sub sE _ sE_writes h

/-- The buffers the stretch writes. -/
abbrev sF_W : List (Ref sig .tc) := [main_call9_cst, main_call9_v0, main_v45, main_v46, main_v47, main_v48, main_v49, main_v50, main_v51, main_v52, main_v53, main_v54]
set_option maxRecDepth 8192 in
theorem sF_writes : (sF (F := Ideal)).Forall fun op => op.writes ⊆ (sF_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem sF_keep (W : Valuation τ sig (Elt Ideal)) (r : Ref sig .tc) (h : r ∉ sF_W) :
    after (sF (F := Ideal)) W (Proc.devRef .tc r) = W (Proc.devRef .tc r) :=
  after_of_writes_sub sF _ sF_writes h

/-- The two coordinates wrapped into range and laid side by side: the index table from the pairs' first and second
    coordinates. -/
def coordsOf (v18 v20 : (⟨S120, .i32⟩ : BufTy).Contents (Elt Ideal)) : (⟨S120x2, .i32⟩ : BufTy).Contents (Elt Ideal) :=
  have c_9 : (⟨S_, .i32⟩ : BufTy).Contents (Elt Ideal) := constantI S_ 32 0#32
  have v21 : (⟨S120, .i32⟩ : BufTy).Contents (Elt Ideal) := broadcastInDim S120 ![] bcast_S_S120 c_9
  have v22 : (⟨S120, .i1⟩ : BufTy).Contents (Elt Ideal) := cmpi .slt v18 v21
  have c_10 : (⟨S_, .i32⟩ : BufTy).Contents (Elt Ideal) := constantI S_ 32 16#32
  have v23 : (⟨S120, .i32⟩ : BufTy).Contents (Elt Ideal) := broadcastInDim S120 ![] bcast_S_S120 c_10
  have v24 : (⟨S120, .i32⟩ : BufTy).Contents (Elt Ideal) := addi v18 v23
  have v25 : (⟨S120, .i32⟩ : BufTy).Contents (Elt Ideal) := select v22 v24 v18
  have c_11 : (⟨S_, .i32⟩ : BufTy).Contents (Elt Ideal) := constantI S_ 32 0#32
  have v26 : (⟨S120, .i32⟩ : BufTy).Contents (Elt Ideal) := broadcastInDim S120 ![] bcast_S_S120 c_11
  have v27 : (⟨S120, .i1⟩ : BufTy).Contents (Elt Ideal) := cmpi .slt v20 v26
  have c_12 : (⟨S_, .i32⟩ : BufTy).Contents (Elt Ideal) := constantI S_ 32 16#32
  have v28 : (⟨S120, .i32⟩ : BufTy).Contents (Elt Ideal) := broadcastInDim S120 ![] bcast_S_S120 c_12
  have v29 : (⟨S120, .i32⟩ : BufTy).Contents (Elt Ideal) := addi v20 v28
  have v30 : (⟨S120, .i32⟩ : BufTy).Contents (Elt Ideal) := select v27 v29 v20
  have v31 : (⟨S120x1, .i32⟩ : BufTy).Contents (Elt Ideal) := broadcastInDim S120x1 ![0] bcast_S120_S120x1_0 v25
  have v32 : (⟨S120x1, .i32⟩ : BufTy).Contents (Elt Ideal) := broadcastInDim S120x1 ![0] bcast_S120_S120x1_0 v30
  concatenate S120x2 1 [⟨S120x1, v31⟩, ⟨S120x1, v32⟩] concatenates_S120x1_S120x1_S120x2_d1

/-- The index table from the flat positions is the table of the two coordinates: the quotient by 16 taken modulo 16,
    and the position itself taken modulo 16. -/
theorem coordsV_eq (v16 : (⟨S120, .i32⟩ : BufTy).Contents (Elt Ideal)) :
    RefIndex.coordsV v16
      = coordsOf (RefIndex.remainderV (RefIndex.floorDivideV v16 (constantI S_ 32 16#32)) (constantI S_ 32 16#32))
          (RefIndex.remainderV (RefIndex.floorDivideV v16 (constantI S_ 32 1#32)) (constantI S_ 32 16#32)) := rfl

/-- The second dense layer before its maximum with zero. -/
def pre2 (y1 : FVec Ideal S4096x1024 .f32) (W2 : FVec Ideal S1024x512 .f32) (b2 : FVec Ideal S512 .f32) : FVec Ideal S4096x512 .f32 :=
  addf (Host.dotGeneral (F := Ideal) dot_S4096x1024_S1024x512_S4096x512_1_0_0_1_n_n none y1 W2)
    (broadcastInDim S4096x512 ![0, 1] bcast_S1x512_S4096x512_0_1 (broadcastInDim S1x512 ![1] bcast_S512_S1x512_1 b2))

theorem layer2_pre2 (y1 : FVec Ideal S4096x1024 .f32) (W2 : FVec Ideal S1024x512 .f32) (b2 : FVec Ideal S512 .f32) :
    maximumf (pre2 y1 W2 b2) (broadcastInDim S4096x512 ![] bcast_S_S4096x512 (constant (F := Ideal) S_ .f32 0x00000000#32))
      = RefLayers.layer2 y1 W2 b2 := rfl

attribute [local irreducible] Host.reduceWindow Host.scatter Host.gather Host.divsi Host.remsi in
set_option maxRecDepth 8192 in
set_option maxHeartbeats 2000000 in
theorem sA_v0 (W : Valuation τ sig (Elt Ideal)) :
    after (sA (F := Ideal)) W (Proc.devRef .tc main_v0) = Host.dotGeneral (F := Ideal) (φ₁ := .f32) (φ₂ := .f32) dot_S4096x16x256_S4096x16x256_S4096x16x16_2_2_1_1_0_0 none (W (Proc.devRef .tc main_arg0) : FVec Ideal S4096x16x256 .f32) (W (Proc.devRef .tc main_arg0) : FVec Ideal S4096x16x256 .f32) := by
  simp only [sA]
  after_results_simp <;> rfl

attribute [local irreducible] Host.reduceWindow Host.scatter Host.gather Host.divsi Host.remsi in
set_option maxRecDepth 8192 in
set_option maxHeartbeats 2000000 in
theorem sA_v16 (W : Valuation τ sig (Elt Ideal)) :
    after (sA (F := Ideal)) W (Proc.devRef .tc main_v16) = RefIndex.flatV RefIndex.maskV := by
  simp only [sA]
  after_results_simp <;> rfl

attribute [local irreducible] Host.reduceWindow Host.scatter Host.gather Host.divsi Host.remsi in
set_option maxRecDepth 8192 in
set_option maxHeartbeats 2000000 in
theorem sB_v18 (W : Valuation τ sig (Elt Ideal)) :
    after (sB (F := Ideal)) W (Proc.devRef .tc main_v18) = RefIndex.remainderV (RefIndex.floorDivideV (W (Proc.devRef .tc main_v16)) (constantI S_ 32 16#32)) (constantI S_ 32 16#32) := by
  simp only [sB]
  after_results_simp <;> rfl

attribute [local irreducible] Host.reduceWindow Host.scatter Host.gather Host.divsi Host.remsi in
set_option maxRecDepth 8192 in
set_option maxHeartbeats 2000000 in
theorem sC_v20 (W : Valuation τ sig (Elt Ideal)) :
    after (sC (F := Ideal)) W (Proc.devRef .tc main_v20) = RefIndex.remainderV (RefIndex.floorDivideV (W (Proc.devRef .tc main_v16)) (constantI S_ 32 1#32)) (constantI S_ 32 16#32) := by
  simp only [sC]
  after_results_simp <;> rfl

attribute [local irreducible] Host.reduceWindow Host.scatter Host.gather Host.divsi Host.remsi in
set_option maxRecDepth 8192 in
set_option maxHeartbeats 2000000 in
theorem sD_v34 (W : Valuation τ sig (Elt Ideal)) :
    after (sD (F := Ideal)) W (Proc.devRef .tc main_v34) = Host.gather gather_S4096x16x16_S120x2_S4096x120_0_12_n_n_12_1_409611 (W (Proc.devRef .tc main_v0) : FVec Ideal S4096x16x16 .f32) (coordsOf (W (Proc.devRef .tc main_v18)) (W (Proc.devRef .tc main_v20))) := by
  simp only [sD]
  after_results_simp <;> rfl

attribute [local irreducible] Host.reduceWindow Host.scatter Host.gather Host.divsi Host.remsi in
set_option maxRecDepth 8192 in
set_option maxHeartbeats 2000000 in
theorem sE_v44 (W : Valuation τ sig (Elt Ideal)) :
    after (sE (F := Ideal)) W (Proc.devRef .tc main_v44) = pre2 (RefLayers.layer1 (shapeCast S4096x4096 (W (Proc.devRef .tc main_arg0)) shapeCasts_S4096x16x256_S4096x4096) (W (Proc.devRef .tc main_arg1)) (W (Proc.devRef .tc main_arg2))) (W (Proc.devRef .tc main_arg3)) (W (Proc.devRef .tc main_arg4)) := by
  simp only [sE]
  after_results_simp <;> rfl

attribute [local irreducible] Host.reduceWindow Host.scatter Host.gather Host.divsi Host.remsi in
set_option maxRecDepth 8192 in
set_option maxHeartbeats 2000000 in
theorem sF_v54 (W : Valuation τ sig (Elt Ideal)) :
    after (sF (F := Ideal)) W (Proc.devRef .tc main_v54) = RefLayers.tail (RefLayers.layer3 (maximumf (W (Proc.devRef .tc main_v44)) (broadcastInDim S4096x512 ![] bcast_S_S4096x512 (constant (F := Ideal) S_ .f32 0x00000000#32))) (W (Proc.devRef .tc main_arg5)) (W (Proc.devRef .tc main_arg6))) (W (Proc.devRef .tc main_v34)) (W (Proc.devRef .tc main_arg7)) (W (Proc.devRef .tc main_arg8)) := by
  simp only [sF]
  after_results_simp <;> rfl

end Cert.ReferenceIdeal.RefRun

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference program's run, read back.

  Every weakly fair execution of the reference terminates; its result buffer ends at `result` of the nine
  arguments' launch contents, and the arguments end unchanged.  `result` is the program's own composition: the rows
  laid flat go through the three dense layers; the pairwise inner products of a row's sixteen feature vectors are
  gathered at the index table the integer operations compute from constants; the two blocks are laid side by side
  and go through the last affine map.
-/
import proofs.«157121_j79989470920946_2_alg».proof.Proof.RefMainEq
import proofs.«157121_j79989470920946_2_alg».proof.Proof.RefRead
import proofs.«157121_j79989470920946_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The second-order block as the reference computes it: the inner products of every two feature vectors of a row,
    gathered at the index table. -/
def secondOrder (x : FVec Ideal S4096x16x256 .f32) : FVec Ideal S4096x120 .f32 :=
  Host.gather gather_S4096x16x16_S120x2_S4096x120_0_12_n_n_12_1_409611
    (Host.dotGeneral (F := Ideal) dot_S4096x16x256_S4096x16x256_S4096x16x16_2_2_1_1_0_0 none x x) RefIndex.idxArray

/-- What the reference leaves in its result buffer, as a function of its nine arguments. -/
def result (x : FVec Ideal S4096x16x256 .f32) (W1 : FVec Ideal S4096x1024 .f32) (b1 : FVec Ideal S1024 .f32)
    (W2 : FVec Ideal S1024x512 .f32) (b2 : FVec Ideal S512 .f32) (W3 : FVec Ideal S512x64 .f32) (b3 : FVec Ideal S64 .f32)
    (Wc : FVec Ideal S184x5 .f32) (bc : FVec Ideal S5 .f32) : FVec Ideal S4096x5 .f32 :=
  RefLayers.tail
    (RefLayers.layer3 (RefLayers.layer2 (RefLayers.layer1 (shapeCast S4096x4096 x shapeCasts_S4096x16x256_S4096x4096) W1 b1) W2 b2) W3 b3)
    (Host.gather gather_S4096x16x16_S120x2_S4096x120_0_12_n_n_12_1_409611
      (Host.dotGeneral (F := Ideal) dot_S4096x16x256_S4096x16x256_S4096x16x16_2_2_1_1_0_0 none x x) RefIndex.idxArray)
    Wc bc

theorem result_eq (x : FVec Ideal S4096x16x256 .f32) (W1 : FVec Ideal S4096x1024 .f32) (b1 : FVec Ideal S1024 .f32)
    (W2 : FVec Ideal S1024x512 .f32) (b2 : FVec Ideal S512 .f32) (W3 : FVec Ideal S512x64 .f32) (b3 : FVec Ideal S64 .f32)
    (Wc : FVec Ideal S184x5 .f32) (bc : FVec Ideal S5 .f32) :
    result x W1 b1 W2 b2 W3 b3 Wc bc
      = RefLayers.tail
          (RefLayers.layer3 (RefLayers.layer2 (RefLayers.layer1 (shapeCast S4096x4096 x shapeCasts_S4096x16x256_S4096x4096) W1 b1) W2 b2) W3 b3)
          (secondOrder x) Wc bc := rfl

/-- A buffer no stretch writes keeps its launch contents to the end. -/
theorem ops_keep (V : Valuation τ sig (Elt Ideal)) (r : Ref sig .tc) (hA : r ∉ sA_W) (hB : r ∉ sB_W) (hC : r ∉ sC_W)
    (hD : r ∉ sD_W) (hE : r ∉ sE_W) (hF : r ∉ sF_W) :
    after (ops (F := Ideal)) V (Proc.devRef .tc r) = V (Proc.devRef .tc r) := by
  simp only [ops, Cert.Lib.AfterAppend.after_append]
  rw [sF_keep _ r hF, sE_keep _ r hE, sD_keep _ r hD, sC_keep _ r hC, sB_keep _ r hB, sA_keep _ r hA]

/-- The result buffer after the whole line: the stretches' readings composed. -/
theorem read_out (V : Valuation τ sig (Elt Ideal)) :
    after (ops (F := Ideal)) V (Proc.devRef .tc main_v54)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  simp only [ops, Cert.Lib.AfterAppend.after_append]
  rw [sF_v54]
  rw [sE_v44, sE_keep _ main_v34 (by decide), sE_keep _ main_arg5 (by decide), sE_keep _ main_arg6 (by decide), sE_keep _ main_arg7 (by decide), sE_keep _ main_arg8 (by decide)]
  rw [sD_v34, sD_keep _ main_arg0 (by decide), sD_keep _ main_arg1 (by decide), sD_keep _ main_arg2 (by decide), sD_keep _ main_arg3 (by decide), sD_keep _ main_arg4 (by decide), sD_keep _ main_arg5 (by decide), sD_keep _ main_arg6 (by decide), sD_keep _ main_arg7 (by decide), sD_keep _ main_arg8 (by decide)]
  rw [sC_v20, sC_keep _ main_v0 (by decide), sC_keep _ main_v18 (by decide), sC_keep _ main_arg0 (by decide), sC_keep _ main_arg1 (by decide), sC_keep _ main_arg2 (by decide), sC_keep _ main_arg3 (by decide), sC_keep _ main_arg4 (by decide), sC_keep _ main_arg5 (by decide), sC_keep _ main_arg6 (by decide), sC_keep _ main_arg7 (by decide), sC_keep _ main_arg8 (by decide)]
  rw [sB_v18, sB_keep _ main_v0 (by decide), sB_keep _ main_v16 (by decide), sB_keep _ main_arg0 (by decide), sB_keep _ main_arg1 (by decide), sB_keep _ main_arg2 (by decide), sB_keep _ main_arg3 (by decide), sB_keep _ main_arg4 (by decide), sB_keep _ main_arg5 (by decide), sB_keep _ main_arg6 (by decide), sB_keep _ main_arg7 (by decide), sB_keep _ main_arg8 (by decide)]
  rw [sA_v0, sA_v16, sA_keep _ main_arg0 (by decide), sA_keep _ main_arg1 (by decide), sA_keep _ main_arg2 (by decide), sA_keep _ main_arg3 (by decide), sA_keep _ main_arg4 (by decide), sA_keep _ main_arg5 (by decide), sA_keep _ main_arg6 (by decide), sA_keep _ main_arg7 (by decide), sA_keep _ main_arg8 (by decide)]
  rw [← coordsV_eq, layer2_pre2]
  rfl

/-- On every device, from any memory with zero counters: every weakly fair execution of the reference terminates with
    the result buffer at `result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v54).trans (read_out (launchContents m c)),
      (h c main_arg0).trans (ops_keep (launchContents m c) main_arg0 (by decide) (by decide) (by decide) (by decide) (by decide) (by decide)),
      (h c main_arg1).trans (ops_keep (launchContents m c) main_arg1 (by decide) (by decide) (by decide) (by decide) (by decide) (by decide)),
      (h c main_arg2).trans (ops_keep (launchContents m c) main_arg2 (by decide) (by decide) (by decide) (by decide) (by decide) (by decide)),
      (h c main_arg3).trans (ops_keep (launchContents m c) main_arg3 (by decide) (by decide) (by decide) (by decide) (by decide) (by decide)),
      (h c main_arg4).trans (ops_keep (launchContents m c) main_arg4 (by decide) (by decide) (by decide) (by decide) (by decide) (by decide)),
      (h c main_arg5).trans (ops_keep (launchContents m c) main_arg5 (by decide) (by decide) (by decide) (by decide) (by decide) (by decide)),
      (h c main_arg6).trans (ops_keep (launchContents m c) main_arg6 (by decide) (by decide) (by decide) (by decide) (by decide) (by decide)),
      (h c main_arg7).trans (ops_keep (launchContents m c) main_arg7 (by decide) (by decide) (by decide) (by decide) (by decide) (by decide)),
      (h c main_arg8).trans (ops_keep (launchContents m c) main_arg8 (by decide) (by decide) (by decide) (by decide) (by decide) (by decide))⟩)
    (run_after m ρ)

end Cert.ReferenceIdeal.RefRun

end
-- ==== Proof.LibBatchRowDot.lean ====
/-
  A batched product of rows read at an index.

  The dimension numbers of a [B, n, c] × [B, m, c] → [B, n, m] product take axis 0 of both operands as a batch axis
  and contract axis 2 of both.  At result index (r, i, j) and contraction position k the left operand is read at
  (r, i, k) and the right operand at (r, j, k), so the sum over the contraction shape's one-axis index set is the sum
  over k : Fin c of lhs (r, i, k) * rhs (r, j, k) — in any commutative additive monoid with a product, the extended
  reals included: batch r's matrix of inner products of the rows of the two operands.  Over variable extents; a
  printed record with these six lists is this one by reflexivity.
-/
import Idealize.ShloMosaic.Lib.ValueIdx
import Idealize.ShloMosaic.PureOps.Ideal.Laws

noncomputable section

namespace Cert.Lib.BatchRowDot

open Idealize.ShloMosaic Idealize.ShloMosaic.ValueIdx
open scoped BigOperators

variable {B n m c : Nat}

/-- The dimension numbers of the batched product [B, n, c] × [B, m, c] → [B, n, m]. -/
abbrev dims (wf : DotDims.WF ⟨3, ![B, n, c]⟩ ⟨3, ![B, m, c]⟩ ⟨3, ![B, n, m]⟩ [2] [2] [1] [1] [0] [0]) :
    DotDims ⟨3, ![B, n, c]⟩ ⟨3, ![B, m, c]⟩ ⟨3, ![B, n, m]⟩ where
  lhsContracting := [2]
  rhsContracting := [2]
  lhsNonContracting := [1]
  rhsNonContracting := [1]
  lhsBatch := [0]
  rhsBatch := [0]
  wf := wf

variable (wf : DotDims.WF ⟨3, ![B, n, c]⟩ ⟨3, ![B, m, c]⟩ ⟨3, ![B, n, m]⟩ [2] [2] [1] [1] [0] [0])

/-- The left operand's batch coordinate is the result's. -/
theorem lhs_batch (i : (⟨3, ![B, n, m]⟩ : Shape).Idx) (k : (dims wf).contr.Idx) :
    ((dims wf).lhsIdx i k 0).val = (i 0).val := by
  unfold DotDims.lhsIdx
  rw [dif_pos (show (0 : Fin 3) ∈ (dims wf).lhsBatch from List.mem_singleton.mpr rfl)]
  rfl

/-- The left operand's row is the result's row. -/
theorem lhs_row (i : (⟨3, ![B, n, m]⟩ : Shape).Idx) (k : (dims wf).contr.Idx) :
    ((dims wf).lhsIdx i k 1).val = (i 1).val := by
  unfold DotDims.lhsIdx
  rw [dif_neg (show ¬(1 : Fin 3) ∈ (dims wf).lhsBatch from fun h => absurd (show (1 : Fin 3) = 0 from List.mem_singleton.mp h) (by decide)),
    dif_pos (show (1 : Fin 3) ∈ (dims wf).lhsNonContracting from List.mem_singleton.mpr rfl)]
  rfl

/-- The left operand's last coordinate is the contraction position. -/
theorem lhs_last (i : (⟨3, ![B, n, m]⟩ : Shape).Idx) (k : (dims wf).contr.Idx) :
    ((dims wf).lhsIdx i k 2).val = (k ⟨0, Nat.one_pos⟩).val :=
  (dims wf).lhsIdx_val_of_single rfl i k

/-- The right operand's batch coordinate is the result's. -/
theorem rhs_batch (i : (⟨3, ![B, n, m]⟩ : Shape).Idx) (k : (dims wf).contr.Idx) :
    ((dims wf).rhsIdx i k 0).val = (i 0).val := by
  unfold DotDims.rhsIdx
  rw [dif_pos (show (0 : Fin 3) ∈ (dims wf).rhsBatch from List.mem_singleton.mpr rfl)]
  rfl

/-- The right operand's row is the result's column. -/
theorem rhs_row (i : (⟨3, ![B, n, m]⟩ : Shape).Idx) (k : (dims wf).contr.Idx) :
    ((dims wf).rhsIdx i k 1).val = (i 2).val := by
  unfold DotDims.rhsIdx
  rw [dif_neg (show ¬(1 : Fin 3) ∈ (dims wf).rhsBatch from fun h => absurd (show (1 : Fin 3) = 0 from List.mem_singleton.mp h) (by decide)),
    dif_pos (show (1 : Fin 3) ∈ (dims wf).rhsNonContracting from List.mem_singleton.mpr rfl)]
  rfl

/-- The right operand's last coordinate is the contraction position. -/
theorem rhs_last (i : (⟨3, ![B, n, m]⟩ : Shape).Idx) (k : (dims wf).contr.Idx) :
    ((dims wf).rhsIdx i k 2).val = (k ⟨0, Nat.one_pos⟩).val :=
  (dims wf).rhsIdx_val_of_single rfl i k

/-- The product's sum at (r, i, j): over k, the left operand at (r, i, k) times the right operand at (r, j, k). -/
theorem sum_apply {M : Type*} [AddCommMonoid M] [Mul M] (lhs : (⟨3, ![B, n, c]⟩ : Shape).Idx → M)
    (rhs : (⟨3, ![B, m, c]⟩ : Shape).Idx → M) (r : Fin B) (i : Fin n) (j : Fin m) :
    ∑ k : (dims wf).contr.Idx, lhs ((dims wf).lhsIdx (ix3 r i j) k) * rhs ((dims wf).rhsIdx (ix3 r i j) k)
      = ∑ k : Fin c, lhs (ix3 r i k) * rhs (ix3 r j k) := by
  rw [← Equiv.sum_comp (contrEquiv1 (dims wf) c rfl rfl).symm]
  refine Finset.sum_congr rfl fun k _ => ?_
  have hk := contrEquiv1_symm_val (dims wf) c rfl rfl k
  have el : (dims wf).lhsIdx (ix3 r i j) ((contrEquiv1 (dims wf) c rfl rfl).symm k) = ix3 r i k :=
    funext fun ax => Fin.ext (by
      match ax with
      | ⟨0, _⟩ => exact lhs_batch wf _ _
      | ⟨1, _⟩ => exact lhs_row wf _ _
      | ⟨2, _⟩ => exact (lhs_last wf _ _).trans hk)
  have er : (dims wf).rhsIdx (ix3 r i j) ((contrEquiv1 (dims wf) c rfl rfl).symm k) = ix3 r j k :=
    funext fun ax => Fin.ext (by
      match ax with
      | ⟨0, _⟩ => exact rhs_batch wf _ _
      | ⟨1, _⟩ => exact rhs_row wf _ _
      | ⟨2, _⟩ => exact (rhs_last wf _ _).trans hk)
  rw [el, er]

/-- The host's batched product, at the exact values, read at (r, i, j). -/
theorem dotGeneral_apply {φ₁ φ₂ : FTy} (prec : Option ContractPrecision) (lhs : FVec Ideal ⟨3, ![B, n, c]⟩ φ₁)
    (rhs : FVec Ideal ⟨3, ![B, m, c]⟩ φ₂) (r : Fin B) (i : Fin n) (j : Fin m) :
    Host.dotGeneral (dims wf) prec lhs rhs (ix3 r i j) = ∑ k : Fin c, lhs (ix3 r i k) * rhs (ix3 r j k) :=
  (Ideal.dotGeneral_apply (dims wf) prec _ lhs rhs (ix3 r i j)).trans (sum_apply wf lhs rhs r i j)

end Cert.Lib.BatchRowDot

end
-- ==== Proof.LibPairGather.lean ====
/-
  Single entries gathered through a table of (row, column) index pairs, read at an index.

  An `R × 2` table of integer words names, for each of `R` positions, a row and a column of the trailing two axes of
  a `B × N × M` array.  Gathering through it with the leading axis kept whole reads, at `(r, k)`, the operand at
  `(r, row k, column k)`: each word is read as a signed integer and clamped into the axis's range.  For any element
  type and any extents; the printed record with these lists is this one by reflexivity.
-/
import Idealize.ShloMosaic.PureOps.Ideal
import Idealize.ShloMosaic.Lib.ValueIdx

noncomputable section

namespace Cert.Lib.PairGather

open Idealize.ShloMosaic Idealize.ShloMosaic.ValueIdx

variable {B N M R w : Nat}

/-- A word read as a signed integer and clamped into `[0, n − 1]`. -/
def pick (n : Nat) (hn : 0 < n) (v : BitVec w) : Fin n := ⟨min v.toInt.toNat (n - 1), by omega⟩

/-- A word that holds a number below `n` (and below half the word's range) picks that number. -/
theorem pick_ofNat (n : Nat) (hn : 0 < n) (a : Nat) (ha : a < n) (hw : 2 * a < 2 ^ w) :
    pick n hn (BitVec.ofNat w a) = ⟨a, ha⟩ := by
  refine Fin.ext ?_
  show min (BitVec.ofNat w a).toInt.toNat (n - 1) = a
  have h1 : (BitVec.ofNat w a).toNat = a := by
    rw [BitVec.toNat_ofNat]; exact Nat.mod_eq_of_lt (by omega)
  have h2 : (BitVec.ofNat w a).toInt = (a : Int) := by
    rw [BitVec.toInt_eq_toNat_of_lt (by rw [h1]; exact hw), h1]
  rw [h2, Int.toNat_natCast]
  omega

/-- The dimension numbers of the gather `[B, N, M]` through an `R × 2` table, result `[B, R]`. -/
abbrev dims (B N M R : Nat)
    (wf : GatherDims.WF ⟨3, ![B, N, M]⟩ ⟨2, ![R, 2]⟩ ⟨2, ![B, R]⟩ [0] [1, 2] [] [1, 2] [] 1 ![B, 1, 1]) :
    GatherDims ⟨3, ![B, N, M]⟩ ⟨2, ![R, 2]⟩ ⟨2, ![B, R]⟩ where
  offsetDims := [0]
  collapsedSliceDims := [1, 2]
  operandBatchingDims := []
  startIndicesBatchingDims := []
  startIndexMap := [1, 2]
  indexVectorDim := 1
  sliceSizes := ![B, 1, 1]
  wf := wf

/-- The gather at `(r, k)`: the operand at `(r, row k, column k)`. -/
theorem apply {α : Type} (hN : 0 < N) (hM : 0 < M)
    (wf : GatherDims.WF ⟨3, ![B, N, M]⟩ ⟨2, ![R, 2]⟩ ⟨2, ![B, R]⟩ [0] [1, 2] [] [1, 2] [] 1 ![B, 1, 1])
    (x : (⟨3, ![B, N, M]⟩ : Shape).Idx → α) (idx : IVec ⟨2, ![R, 2]⟩ w) (r : Fin B) (k : Fin R) :
    Host.gather (dims B N M R wf) x idx (ix2 r k)
      = x (ix3 r (pick N hN (idx (ix2 k (0 : Fin 2)))) (pick M hM (idx (ix2 k (1 : Fin 2))))) := by
  unfold Host.gather
  congr 1
  funext a
  refine Fin.ext ?_
  match a with
  | ⟨0, _⟩ =>
    show (dims B N M R wf).start (ix2 r k) idx 0 + (dims B N M R wf).batchCoord (ix2 r k) 0
      + (dims B N M R wf).offCoord (ix2 r k) 0 = r.val
    rw [GatherDims.batchCoord_eq_zero _ _ _ List.not_mem_nil]
    have hs : (dims B N M R wf).start (ix2 r k) idx 0 = 0 := by
      unfold GatherDims.start
      rw [dif_neg (show ¬ (0 : Fin 3) ∈ (dims B N M R wf).startIndexMap from (by decide : ¬ (0 : Fin 3) ∈ ([1, 2] : List (Fin 3))))]
    rw [hs]
    simp only [Nat.add_zero, Nat.zero_add]
    rfl
  | ⟨1, _⟩ =>
    show (dims B N M R wf).start (ix2 r k) idx 1 + (dims B N M R wf).batchCoord (ix2 r k) 1
      + (dims B N M R wf).offCoord (ix2 r k) 1 = _
    rw [GatherDims.batchCoord_eq_zero _ _ _ List.not_mem_nil,
      GatherDims.offCoord_eq_zero _ _ _ (fun h => ((GatherDims.mem_sKept _ _).mp h).1 (by decide : (1 : Fin 3) ∈ ([1, 2] : List (Fin 3))))]
    simp only [Nat.add_zero]
    unfold GatherDims.start
    rw [dif_pos (show (1 : Fin 3) ∈ (dims B N M R wf).startIndexMap from (by decide : (1 : Fin 3) ∈ ([1, 2] : List (Fin 3))))]
    have hsi : (dims B N M R wf).siIdx (ix2 r k) ⟨List.idxOf (1 : Fin 3) (dims B N M R wf).startIndexMap,
        List.idxOf_lt_length_iff.2 (by decide : (1 : Fin 3) ∈ ([1, 2] : List (Fin 3)))⟩ = ix2 k (0 : Fin 2) := by
      funext b; refine Fin.ext ?_
      match b with
      | ⟨0, _⟩ => rfl
      | ⟨1, _⟩ => rfl
    rw [hsi]
    rfl
  | ⟨2, _⟩ =>
    show (dims B N M R wf).start (ix2 r k) idx 2 + (dims B N M R wf).batchCoord (ix2 r k) 2
      + (dims B N M R wf).offCoord (ix2 r k) 2 = _
    rw [GatherDims.batchCoord_eq_zero _ _ _ List.not_mem_nil,
      GatherDims.offCoord_eq_zero _ _ _ (fun h => ((GatherDims.mem_sKept _ _).mp h).1 (by decide : (2 : Fin 3) ∈ ([1, 2] : List (Fin 3))))]
    simp only [Nat.add_zero]
    unfold GatherDims.start
    rw [dif_pos (show (2 : Fin 3) ∈ (dims B N M R wf).startIndexMap from (by decide : (2 : Fin 3) ∈ ([1, 2] : List (Fin 3))))]
    have hsi : (dims B N M R wf).siIdx (ix2 r k) ⟨List.idxOf (2 : Fin 3) (dims B N M R wf).startIndexMap,
        List.idxOf_lt_length_iff.2 (by decide : (2 : Fin 3) ∈ ([1, 2] : List (Fin 3)))⟩ = ix2 k (1 : Fin 2) := by
      funext b; refine Fin.ext ?_
      match b with
      | ⟨0, _⟩ => rfl
      | ⟨1, _⟩ => rfl
    rw [hsi]
    rfl

end Cert.Lib.PairGather

end
-- ==== Proof.RefGather.lean ====
/-
  The reference's second-order features.

  The reference forms, for every batch row, the 16 × 16 matrix of inner products of the row's feature vectors (a batched
  product contracting the last axis), and picks from it, for k = 0 … 119, the entry at the k-th (row, column) pair of
  its index table.  Once the table is known to hold the pairs (i, j), i < j, in row-major order, the picked entry is
  the inner product of feature vectors i and j: the specification's second-order features.
-/
import proofs.«157121_j79989470920946_2_alg».proof.Proof.Spec
import proofs.«157121_j79989470920946_2_alg».proof.Proof.Gen.ReferenceIdeal
import proofs.«157121_j79989470920946_2_alg».proof.Proof.RefIndexDef
import proofs.«157121_j79989470920946_2_alg».proof.Proof.LibBatchRowDot
import proofs.«157121_j79989470920946_2_alg».proof.Proof.LibPairGather

noncomputable section

namespace Cert.ReferenceIdeal.RefGather

open Idealize.ShloMosaic Idealize.ShloMosaic.ValueIdx
open Cert.ReferenceIdeal Cert.ReferenceIdeal.Facts₀ Cert.ReferenceIdeal.RefIndex Cert.Spec Cert.Lib

/-- Entry (r, i, j) of the matrices of inner products: feature vector i of row r against feature vector j. -/
theorem gram_apply (x : FVec Ideal S4096x16x256 .f32) (r : Fin 4096) (i j : Fin 16) :
    Host.dotGeneral (F := Ideal) dot_S4096x16x256_S4096x16x256_S4096x16x16_2_2_1_1_0_0 none x x (ix3 r i j) = dotAt x r i j :=
  BatchRowDot.dotGeneral_apply dot_S4096x16x256_S4096x16x256_S4096x16x16_2_2_1_1_0_0_wf none x x r i j

/-- The gathered entries are the specification's second-order features, given what the index table holds. -/
theorem second_order_of
    (hidx : ∀ k : Fin 120, idxArray (ix2 k (0 : Fin 2)) = BitVec.ofNat 32 (pairI k).val
      ∧ idxArray (ix2 k (1 : Fin 2)) = BitVec.ofNat 32 (pairJ k).val)
    (x : FVec Ideal S4096x16x256 .f32) :
    Host.gather gather_S4096x16x16_S120x2_S4096x120_0_12_n_n_12_1_409611
        (Host.dotGeneral (F := Ideal) dot_S4096x16x256_S4096x16x256_S4096x16x16_2_2_1_1_0_0 none x x) idxArray
      = pairDots x := by
  funext y
  obtain ⟨r, k, rfl⟩ : ∃ (r : Fin 4096) (k : Fin 120), y = ix2 r k := ⟨y 0, y 1, eq_ix2 y⟩
  obtain ⟨h0, h1⟩ := hidx k
  have hI : (pairI k).val < 16 := (pairI k).isLt
  have hJ : (pairJ k).val < 16 := (pairJ k).isLt
  refine (PairGather.apply (B := 4096) (N := 16) (M := 16) (R := 120) (by decide) (by decide)
    gather_S4096x16x16_S120x2_S4096x120_0_12_n_n_12_1_409611_wf _ idxArray r k).trans ?_
  rw [h0, h1, PairGather.pick_ofNat 16 (by decide) (pairI k).val hI (by omega),
    PairGather.pick_ofNat 16 (by decide) (pairJ k).val hJ (by omega)]
  exact gram_apply x r (pairI k) (pairJ k)

end Cert.ReferenceIdeal.RefGather

end
-- ==== Proof.RefIndex.lean ====
/-
  The reference program's table of gather indices, row by row.

  The reference builds its [120, 2] array of indices from constants alone: the strictly upper-triangular part of the
  16 × 16 all-ones matrix, compared with zero, gives a mask of bits; its prefix sums in flat order number the non-zero
  entries; a scatter-add of ones through those numbers counts, for each k < 120, the flat positions whose prefix sum
  is k (a position whose prefix sum is 120 names no row and is dropped); the prefix sums of the counts are the flat
  positions 16·i + j of the non-zero entries in order; a floored division and a remainder by 16 split each into its
  row and its column.  Here the array is read at (k, 0) and (k, 1): the two indices of pair number k of the list
  (0,1), (0,2), …, (14,15).

  The mask is the one place where real numbers occur: there the comparison of a selection between the numbers zero
  and one with zero is shown to be the complement of the selector, an integer comparison.  A window sum over one
  axis with padding "window − 1" in front is unfolded to a fold over the window's positions, a scatter to a fold
  over the updates that land on an index.  After that each stage is a closed computation on natural numbers and
  32-bit words, checked against a literal table.
-/
import proofs.«157121_j79989470920946_2_alg».proof.Proof.RefIndexDef
import proofs.«157121_j79989470920946_2_alg».proof.Proof.Spec
import Idealize.ShloMosaic.Lib.ValueIdx
import Idealize.ShloMosaic.Lib.Pipeline.Value
import Idealize.ShloMosaic.PureOps.Ideal.Laws

noncomputable section

namespace Cert.ReferenceIdeal.RefIndex

open Idealize.ShloMosaic Idealize.ShloMosaic.ValueIdx
open Cert.ReferenceIdeal
open scoped BigOperators

variable [Facts]
open Facts₀ Facts

/-! ## The mask -/

theorem one_f32 : Ideal.ofBits .f32 0x3F800000#32 = 1 := by
  simp [Ideal.ofBits, Ideal.ieee, -EReal.coe_mul]; norm_num

/-- "Not equal to zero", of a selection between zero and one, is the complement of the selector. -/
theorem une_select (c : BitVec 1) :
    Ideal.cmp .une (Scalar.select c (Ideal.ofBits .f32 0x00000000#32) (Ideal.ofBits .f32 0x3F800000#32)) (Ideal.ofBits .f32 0x00000000#32)
      = if c = 1#1 then 0#1 else 1#1 := by
  rw [one_f32, Ideal.ofBits_zero_f32]
  unfold Scalar.select Ideal.cmp
  by_cases h : c = 1#1
  · simp [h]
  · simp [h]

/-- The mask at (i, j): the complement of the integer comparison "i + 0 ≥ j". -/
theorem mask_apply (i j : Fin 16) :
    maskV (ix2 i j) = if IntOp.cmpi .sge (IntOp.addi (BitVec.ofNat 32 i.val) 0#32) (BitVec.ofNat 32 j.val) = 1#1 then 0#1 else 1#1 :=
  une_select _

/-! ## A padded window sum over one axis is a fold over the window's positions -/

/-- A fold over the positions below `a` is the fold over the positions below an equal bound. -/
theorem foldl_finRange_cast {α : Type} {a b : Nat} (h : a = b) (f : α → Fin a → α) (init : α) :
    (List.finRange a).foldl f init = (List.finRange b).foldl (fun r m => f r (m.cast h.symm)) init := by
  subst h; rfl

/-- The one coordinate of the index at row-major position `m` of a one-axis shape is `m`. -/
theorem rowMajor_symm_one_val {n : Nat} (m : Fin (⟨1, ![n]⟩ : Shape).numel) :
    (((⟨1, ![n]⟩ : Shape).rowMajor.symm m) 0).val = m.val := by
  have := Shape.rowMajor_val_one ((⟨1, ![n]⟩ : Shape).rowMajor.symm m)
  rw [Equiv.apply_symm_apply] at this
  exact this.symm

/-- The sum, from `v`, over the `n` positions of a window ending at `j`: the entry of `x` where the position
    is inside, `v` where it is padding. -/
def winSum (n : Nat) (x : Fin n → BitVec 32) (v : BitVec 32) (j : Fin n) : BitVec 32 :=
  (List.finRange n).foldl (fun r m => IntOp.addi r
    (if h : n - 1 ≤ j.val + m.val ∧ j.val + m.val - (n - 1) < n then x ⟨j.val + m.val - (n - 1), h.2⟩ else v)) v

theorem reduceWindow_prefix (n lo : Nat) (hlo : lo = n - 1) (x : (⟨1, ![n]⟩ : Shape).Idx → BitVec 32) (init : (⟨0, ![]⟩ : Shape).Idx → BitVec 32)
    (h : (⟨1, ![n]⟩ : Shape).ReduceWindows ![n] ![1] ![lo] ![0] ⟨1, ![n]⟩) (hu : 0 < (⟨0, ![]⟩ : Shape).numel) (j : Fin n) :
    Host.reduceWindow IntOp.addi ![n] ![1] ![lo] ![0] x init h hu (ix1 j) = winSum n (fun q => x (ix1 q)) (init ix0) j := by
  subst hlo
  have hn : (⟨1, ![n]⟩ : Shape).numel = n := by simp [Shape.numel]
  unfold Host.reduceWindow winSum
  rw [show Shape.Idx.first hu = ix0 from eq_ix0 _]
  refine (foldl_finRange_cast hn _ _).trans ?_
  congr 1
  funext r m
  dsimp only
  congr 1
  have hp : ∀ a : Fin 1, ((ix1 j) (a.cast h.1.symm)).val * (![1] : Fin 1 → Nat) a
      + ((⟨1, ![n]⟩ : Shape).rowMajor.symm (m.cast hn.symm) a).val = j.val + m.val := by
    intro a
    match a with
    | ⟨0, _⟩ =>
      have := rowMajor_symm_one_val (n := n) (m.cast hn.symm)
      show j.val * 1 + ((⟨1, ![n]⟩ : Shape).rowMajor.symm (m.cast hn.symm) 0).val = _
      rw [this]; simp
  by_cases hc : n - 1 ≤ j.val + m.val ∧ j.val + m.val - (n - 1) < n
  · rw [dif_pos hc, dif_pos]
    · refine congrArg x (funext fun a => Fin.ext ?_)
      match a with
      | ⟨0, _⟩ =>
        show ((ix1 j) ((0 : Fin 1).cast h.1.symm)).val * (![1] : Fin 1 → Nat) 0
          + ((⟨1, ![n]⟩ : Shape).rowMajor.symm (m.cast hn.symm) 0).val - (![n - 1] : Fin 1 → Nat) 0 = j.val + m.val - (n - 1)
        rw [hp 0]; rfl
    · intro a
      match a with
      | ⟨0, hlt⟩ =>
        have e := hp ⟨0, hlt⟩
        show n - 1 ≤ _ ∧ _ - (n - 1) < n
        rw [e]; exact hc
  · rw [dif_neg hc, dif_neg]
    intro hall
    apply hc
    have := hall 0
    rw [hp 0] at this
    exact this

/-- The same sum over natural numbers. -/
def winSumN (n : Nat) (x : Fin n → Nat) (v : Nat) (j : Fin n) : Nat :=
  (List.finRange n).foldl (fun r m => r +
    (if h : n - 1 ≤ j.val + m.val ∧ j.val + m.val - (n - 1) < n then x ⟨j.val + m.val - (n - 1), h.2⟩ else v)) v

/-- The window sum of the 32-bit words of natural numbers is the word of their window sum. -/
theorem winSum_ofNat (n : Nat) (x : Fin n → Nat) (v : Nat) (j : Fin n) :
    winSum n (fun q => BitVec.ofNat 32 (x q)) (BitVec.ofNat 32 v) j = BitVec.ofNat 32 (winSumN n x v j) := by
  unfold winSum winSumN
  generalize List.finRange n = l
  generalize hv : v = a
  rw [← hv]
  have : ∀ (l : List (Fin n)) (a : Nat),
      l.foldl (fun r m => IntOp.addi r
        (if h : n - 1 ≤ j.val + m.val ∧ j.val + m.val - (n - 1) < n then BitVec.ofNat 32 (x ⟨j.val + m.val - (n - 1), h.2⟩) else BitVec.ofNat 32 v))
        (BitVec.ofNat 32 a)
      = BitVec.ofNat 32 (l.foldl (fun r m => r +
        (if h : n - 1 ≤ j.val + m.val ∧ j.val + m.val - (n - 1) < n then x ⟨j.val + m.val - (n - 1), h.2⟩ else v)) a) := by
    intro l
    induction l with
    | nil => intro a; rfl
    | cons m l ih =>
      intro a
      simp only [List.foldl_cons]
      rw [← ih]
      congr 1
      unfold IntOp.addi
      split
      · rw [BitVec.ofNat_add]
      · rw [BitVec.ofNat_add]
  exact this l v

/-- The mask at flat position `p`, widened to 32 bits. -/
def mb (p : Fin 256) : BitVec 32 :=
  (if IntOp.cmpi .sge (IntOp.addi (BitVec.ofNat 32 (p.val / 16)) 0#32) (BitVec.ofNat 32 (p.val % 16)) = 1#1 then 0#1 else 1#1).setWidth 32

/-! ## The counting scatter-add -/

/-- The row a 32-bit word names for an accumulation into `N` rows: the word read signed when it lies in [0, N),
    no row otherwise. -/
def rowOfWord (N : Nat) (c : BitVec 32) : Option (Fin N) :=
  if h : 0 ≤ c.toInt ∧ c.toInt < (N : Int) then some ⟨c.toInt.toNat, by omega⟩ else none

theorem mem_kept' {s : Shape} (axes : List (Fin s.rank)) (a : Fin s.rank) : a ∈ s.kept axes ↔ a ∉ axes := by
  simp [Shape.kept, List.mem_filter, List.mem_finRange]

/-- A scatter read at one index: the fold, over the updates in order, of the updates that land on that index. -/
theorem scatter_apply {s si u : Shape} {w : Nat} {α : Type} (d : ScatterDims s si u) (f : α → α → α) (x : s.Idx → α)
    (idx : IVec si w) (upd : u.Idx → α) (i' : s.Idx) :
    Host.scatter d f x idx upd i' = (List.finRange u.numel).foldl (fun acc n =>
      (d.resultIdx? (u.rowMajor.symm n) idx).elim acc fun i => if i' = i then f acc (upd (u.rowMajor.symm n)) else acc) (x i') := by
  unfold Host.scatter
  generalize List.finRange u.numel = l
  induction l generalizing x with
  | nil => rfl
  | cons n l ih =>
    simp only [List.foldl_cons]
    rw [ih]
    congr 1
    cases hri : d.resultIdx? (u.rowMajor.symm n) idx with
    | none => rfl
    | some i =>
      show (if i' = i then f (x i) _ else x i') = (if i' = i then f (x i') _ else x i')
      by_cases hi : i' = i
      · rw [if_pos hi, if_pos hi, hi]
      · rw [if_neg hi, if_neg hi]

abbrev sd := scatter_S120_S256x1_S256_n_0_0_1

theorem sd_start (idx : IVec S256x1 32) (e : Fin 256) : sd.start (ix1 e) idx 0 = (idx (ix2 e (0 : Fin 1))).toInt := by
  unfold ScatterDims.start
  rw [dif_pos (show (0 : Fin 1) ∈ sd.scatterDimsToOperandDims from List.mem_singleton.mpr rfl)]
  have hsi : sd.siIdx (ix1 e) ⟨List.idxOf (0 : Fin 1) sd.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem sd_window (e : Fin 256) : sd.window (ix1 e) 0 = 0 := by
  unfold ScatterDims.window
  rw [dif_neg (show ¬ (0 : Fin 1) ∈ sd.sKept from fun h => (mem_kept' _ _).mp h (List.mem_singleton.mpr rfl))]

/-- Where update `e` lands: on the row its word names, nowhere when the word names none. -/
theorem sd_resultIdx (idx : IVec S256x1 32) (e : Fin 256) :
    sd.resultIdx? (ix1 e) idx = (rowOfWord 120 (idx (ix2 e (0 : Fin 1)))).map ix1 := by
  unfold ScatterDims.resultIdx? rowOfWord
  by_cases h : 0 ≤ (idx (ix2 e (0 : Fin 1))).toInt ∧ (idx (ix2 e (0 : Fin 1))).toInt < ((120 : Nat) : Int)
  · have hall : ∀ a, 0 ≤ sd.start (ix1 e) idx a + sd.window (ix1 e) a
        ∧ sd.start (ix1 e) idx a + sd.window (ix1 e) a < (S120.size a : Int) := by
      intro a
      match a with
      | ⟨0, _⟩ =>
        rw [show (⟨0, _⟩ : Fin 1) = 0 from rfl, sd_start, sd_window]
        show 0 ≤ _ + ((0 : Nat) : Int) ∧ _ + ((0 : Nat) : Int) < ((120 : Nat) : Int)
        omega
    rw [dif_pos hall, dif_pos h, Option.map_some]
    congr 1
    funext a
    refine Fin.ext ?_
    match a with
    | ⟨0, _⟩ =>
      show (sd.start (ix1 e) idx 0 + sd.window (ix1 e) 0).toNat = _
      rw [sd_start, sd_window]; simp
  · rw [dif_neg h, Option.map_none, dif_neg]
    intro hall
    apply h
    have h0 := hall 0
    rw [sd_start, sd_window] at h0
    have h0' : 0 ≤ (idx (ix2 e (0 : Fin 1))).toInt + ((0 : Nat) : Int)
      ∧ (idx (ix2 e (0 : Fin 1))).toInt + ((0 : Nat) : Int) < ((120 : Nat) : Int) := h0
    omega

/-- The index at row-major position `m` of a one-axis shape is `m`. -/
theorem rowMajor_symm_one {n : Nat} (m : Fin (⟨1, ![n]⟩ : Shape).numel) (hm : m.val < n) :
    (⟨1, ![n]⟩ : Shape).rowMajor.symm m = ix1 ⟨m.val, hm⟩ := by
  rw [eq_ix1 ((⟨1, ![n]⟩ : Shape).rowMajor.symm m)]
  exact congrArg ix1 (Fin.ext (rowMajor_symm_one_val m))

/-- A vector laid out as a column reads, at (e, ·), the vector at e. -/
theorem column_apply {α : Type} {R : Nat} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-- The scatter index made of a prefix count `c`: the count clipped below at zero, plus 120 if that is negative. -/
def idx12 (c : BitVec 32) : BitVec 32 :=
  Scalar.select (IntOp.cmpi .slt (IntOp.maxsi 0#32 c) 0#32) (IntOp.addi (IntOp.maxsi 0#32 c) 120#32) (IntOp.maxsi 0#32 c)

/-- How many of the 256 positions name row `k`: one added per position whose index names `k`. -/
def countS (c : Fin 256 → BitVec 32) (k : Fin 120) : BitVec 32 :=
  (List.finRange 256).foldl (fun acc n =>
    (rowOfWord 120 (idx12 (c n))).elim acc fun i => if k = i then IntOp.addi acc 1#32 else acc) 0#32

/-- %16 at k: the window sum of the counts. -/
theorem flatV_apply (v4 : (⟨S16x16, .i1⟩ : BufTy).Contents (Elt Ideal)) (k : Fin 120) :
    flatV v4 (ix1 k) = winSum 120 (countS fun n => cumsumV v4 (ix1 n)) 0#32 k := by
  unfold flatV cumsum2V
  dsimp only
  refine (reduceWindow_prefix 120 119 rfl _ _ _ _ k).trans ?_
  show winSum 120 (fun q => Host.scatter _ IntOp.addi _ _ _ (ix1 q)) 0#32 k = _
  refine congrArg (fun f => winSum 120 f 0#32 k) (funext fun k' => ?_)
  refine (scatter_apply _ _ _ _ _ _).trans ?_
  have hn : S256.numel = 256 := by simp [Shape.numel]
  refine (foldl_finRange_cast hn _ _).trans ?_
  unfold countS
  show List.foldl _ 0#32 (List.finRange 256) = _
  refine congrArg (fun F => List.foldl F 0#32 (List.finRange 256)) (funext fun acc => funext fun n => ?_)
  have hsym : S256.rowMajor.symm (n.cast hn.symm) = ix1 n := rowMajor_symm_one (n.cast hn.symm) n.isLt
  rw [hsym, sd_resultIdx, column_apply]
  show (Option.map ix1 (rowOfWord 120 (idx12 (cumsumV v4 (ix1 n))))).elim acc _ = _
  cases rowOfWord 120 (idx12 (cumsumV v4 (ix1 n))) with
  | none => rfl
  | some i =>
    show (if ix1 k' = ix1 i then IntOp.addi acc 1#32 else acc) = if k' = i then IntOp.addi acc 1#32 else acc
    by_cases hk : k' = i
    · rw [if_pos hk, if_pos (congrArg ix1 hk)]
    · rw [if_neg hk, if_neg]
      intro h
      exact hk (congrFun h 0)

/-- %5 at p: the window sum of the mask, flattened and widened. -/
theorem cums_apply (p : Fin 256) : cumsumV maskV (ix1 p) = winSum 256 mb 0#32 p := by
  unfold cumsumV cumsum0V
  dsimp only
  refine (reduceWindow_prefix 256 255 rfl _ _ _ _ p).trans ?_
  show winSum 256 (fun q => (shapeCast S256 maskV shapeCasts_S16x16_S256 (ix1 q)).setWidth 32) 0#32 p = _
  refine congrArg (fun f => winSum 256 f 0#32 p) (funext fun q => ?_)
  show (shapeCast S256 maskV shapeCasts_S16x16_S256 (ix1 q)).setWidth 32 = _
  have hq1 : q.val / 16 < 16 := by have := q.isLt; omega
  have hq2 : q.val % 16 < 16 := Nat.mod_lt _ (by decide)
  rw [shapeCast_apply maskV shapeCasts_S16x16_S256 (ix1 q) (ix2 ⟨q.val / 16, hq1⟩ ⟨q.val % 16, hq2⟩)
    (by rw [Shape.rowMajor_val_two, Shape.rowMajor_val_one]; show q.val / 16 * 16 + q.val % 16 = q.val; omega)]
  rw [mask_apply]
  rfl

/-! ## Row and column of a flat position -/

/-- The sign of a word: 0, −1 or 1. -/
def sgnS (x : BitVec 32) : BitVec 32 := if x = 0 then 0 else if x.msb then -1 else 1

/-- `floor_divide` on one entry. -/
def fdS (x y : BitVec 32) : BitVec 32 :=
  Scalar.select
    (IntOp.andi (IntOp.cmpi .ne (sgnS x) (sgnS y)) (IntOp.cmpi .ne (IntOp.remsi .host x y) 0#32))
    (IntOp.subi (IntOp.divsi .host x y) 1#32) (IntOp.divsi .host x y)

/-- `remainder` on one entry. -/
def rmS (x y : BitVec 32) : BitVec 32 :=
  Scalar.select
    (IntOp.andi
      (IntOp.cmpi .ne (IntOp.cmpi .slt (IntOp.remsi .host x (Scalar.select (IntOp.cmpi .eq y 0#32) 1#32 y)) 0#32)
        (IntOp.cmpi .slt (Scalar.select (IntOp.cmpi .eq y 0#32) 1#32 y) 0#32))
      (IntOp.cmpi .ne (IntOp.remsi .host x (Scalar.select (IntOp.cmpi .eq y 0#32) 1#32 y)) 0#32))
    (IntOp.addi (IntOp.remsi .host x (Scalar.select (IntOp.cmpi .eq y 0#32) 1#32 y)) (Scalar.select (IntOp.cmpi .eq y 0#32) 1#32 y))
    (IntOp.remsi .host x (Scalar.select (IntOp.cmpi .eq y 0#32) 1#32 y))

/-- A word plus 16 if it is negative. -/
def wrapS (r : BitVec 32) : BitVec 32 := Scalar.select (IntOp.cmpi .slt r 0#32) (IntOp.addi r 16#32) r

/-- The row of a flat position, as the reference computes it. -/
def rowS (x : BitVec 32) : BitVec 32 := wrapS (rmS (fdS x 16#32) 16#32)
/-- The column of a flat position, as the reference computes it. -/
def colS (x : BitVec 32) : BitVec 32 := wrapS (rmS (fdS x 1#32) 16#32)

theorem floorDivideV_apply (a : (⟨S120, .i32⟩ : BufTy).Contents (Elt Ideal)) (c : BitVec 32) (i : S120.Idx) :
    floorDivideV a (constantI S_ 32 c) i = fdS (a i) c := rfl

theorem remainderV_apply (a : (⟨S120, .i32⟩ : BufTy).Contents (Elt Ideal)) (c : BitVec 32) (i : S120.Idx) :
    remainderV a (constantI S_ 32 c) i = rmS (a i) c := rfl

/-- %33 at (k, 0) and (k, 1): the row and the column of %16 at k. -/
theorem coordsV_apply (v16 : (⟨S120, .i32⟩ : BufTy).Contents (Elt Ideal)) (k : Fin 120) :
    coordsV v16 (ix2 k (0 : Fin 2)) = rowS (v16 (ix1 k)) ∧ coordsV v16 (ix2 k (1 : Fin 2)) = colS (v16 (ix1 k)) := by
  constructor
  · refine (concatenate_pair_apply_left (t := S120x2) (s₁ := S120x1) (s₂ := S120x1) (1 : Fin 2) _ _ concatenates_S120x1_S120x1_S120x2_d1 (ix2 k (0 : Fin 2)) rfl
      (ix2 k (0 : Fin 1)) (fun b => ?_)).trans ?_
    · match b with
      | ⟨0, _⟩ => rfl
      | ⟨1, _⟩ => rfl
    · refine (column_apply _ bcast_S120_S120x1_0 k 0).trans ?_
      rfl
  · refine (concatenate_pair_apply_right (t := S120x2) (s₁ := S120x1) (s₂ := S120x1) (1 : Fin 2) _ _ concatenates_S120x1_S120x1_S120x2_d1 (ix2 k (1 : Fin 2)) rfl rfl
      (ix2 k (0 : Fin 1)) (fun b hb => ?_) rfl).trans ?_
    · match b with
      | ⟨0, _⟩ => rfl
      | ⟨1, _⟩ => exact absurd rfl hb
    · refine (column_apply _ bcast_S120_S120x1_0 k 0).trans ?_
      rfl

/-! ## The stage tables

Each stage of the computation is checked against a literal table by evaluation on closed terms: natural
numbers and 32-bit words only. -/

/-- The mask at flat position `p` as a number. -/
def mbF (p : Fin 256) : Nat := if p.val / 16 < p.val % 16 then 1 else 0

/-- Prefix counts of the mask in flat order: entry `p` is the number of positions `q ≤ p` of the 16 × 16 grid,
    read row by row, whose row is below its column. -/
def cList : List Nat := [0, 1, 2, 3, 4, 5, 6, 7, 8, 9, 10, 11, 12, 13, 14, 15, 15, 15, 16, 17, 18, 19, 20, 21, 22, 23, 24, 25, 26, 27, 28, 29, 29, 29, 29, 30, 31, 32, 33, 34, 35, 36, 37, 38, 39, 40, 41, 42, 42, 42, 42, 42, 43, 44, 45, 46, 47, 48, 49, 50, 51, 52, 53, 54, 54, 54, 54, 54, 54, 55, 56, 57, 58, 59, 60, 61, 62, 63, 64, 65, 65, 65, 65, 65, 65, 65, 66, 67, 68, 69, 70, 71, 72, 73, 74, 75, 75, 75, 75, 75, 75, 75, 75, 76, 77, 78, 79, 80, 81, 82, 83, 84, 84, 84, 84, 84, 84, 84, 84, 84, 85, 86, 87, 88, 89, 90, 91, 92, 92, 92, 92, 92, 92, 92, 92, 92, 92, 93, 94, 95, 96, 97, 98, 99, 99, 99, 99, 99, 99, 99, 99, 99, 99, 99, 100, 101, 102, 103, 104, 105, 105, 105, 105, 105, 105, 105, 105, 105, 105, 105, 105, 106, 107, 108, 109, 110, 110, 110, 110, 110, 110, 110, 110, 110, 110, 110, 110, 110, 111, 112, 113, 114, 114, 114, 114, 114, 114, 114, 114, 114, 114, 114, 114, 114, 114, 115, 116, 117, 117, 117, 117, 117, 117, 117, 117, 117, 117, 117, 117, 117, 117, 117, 118, 119, 119, 119, 119, 119, 119, 119, 119, 119, 119, 119, 119, 119, 119, 119, 119, 120, 120, 120, 120, 120, 120, 120, 120, 120, 120, 120, 120, 120, 120, 120, 120, 120]

/-- How many flat positions have prefix count `k`, for k < 120. -/
def countList : List Nat := [1, 1, 1, 1, 1, 1, 1, 1, 1, 1, 1, 1, 1, 1, 1, 3, 1, 1, 1, 1, 1, 1, 1, 1, 1, 1, 1, 1, 1, 4, 1, 1, 1, 1, 1, 1, 1, 1, 1, 1, 1, 1, 5, 1, 1, 1, 1, 1, 1, 1, 1, 1, 1, 1, 6, 1, 1, 1, 1, 1, 1, 1, 1, 1, 1, 7, 1, 1, 1, 1, 1, 1, 1, 1, 1, 8, 1, 1, 1, 1, 1, 1, 1, 1, 9, 1, 1, 1, 1, 1, 1, 1, 10, 1, 1, 1, 1, 1, 1, 11, 1, 1, 1, 1, 1, 12, 1, 1, 1, 1, 13, 1, 1, 1, 14, 1, 1, 15, 1, 16]

/-- The flat position 16·i + j of pair number `k`. -/
def flatList : List Nat := [1, 2, 3, 4, 5, 6, 7, 8, 9, 10, 11, 12, 13, 14, 15, 18, 19, 20, 21, 22, 23, 24, 25, 26, 27, 28, 29, 30, 31, 35, 36, 37, 38, 39, 40, 41, 42, 43, 44, 45, 46, 47, 52, 53, 54, 55, 56, 57, 58, 59, 60, 61, 62, 63, 69, 70, 71, 72, 73, 74, 75, 76, 77, 78, 79, 86, 87, 88, 89, 90, 91, 92, 93, 94, 95, 103, 104, 105, 106, 107, 108, 109, 110, 111, 120, 121, 122, 123, 124, 125, 126, 127, 137, 138, 139, 140, 141, 142, 143, 154, 155, 156, 157, 158, 159, 171, 172, 173, 174, 175, 188, 189, 190, 191, 205, 206, 207, 222, 223, 239]

theorem mb_nat : ∀ q : Fin 256, mb q = BitVec.ofNat 32 (mbF q) := by decide +kernel

theorem cums_tab : ∀ p : Fin 256, winSumN 256 mbF 0 p = cList.getD p.val 0 := by decide +kernel

/-- %5 at p is the table's entry. -/
theorem cums_eq (p : Fin 256) : cumsumV maskV (ix1 p) = BitVec.ofNat 32 (cList.getD p.val 0) := by
  rw [cums_apply, show mb = fun q => BitVec.ofNat 32 (mbF q) from funext mb_nat, winSum_ofNat, cums_tab]

/-- The row a prefix count names, on natural numbers. -/
def rowN (c : Nat) : Option (Fin 120) := if h : c < 120 then some ⟨c, h⟩ else none

theorem rows_tab : cList.map (fun c => rowOfWord 120 (idx12 (BitVec.ofNat 32 c))) = cList.map rowN := by decide +kernel

theorem cList_getD : (List.finRange 256).map (fun n : Fin 256 => cList.getD n.val 0) = cList := by decide +kernel

/-- The count of row `k` as a fold over the table of rows. -/
theorem count_fold (k : Fin 120) :
    countS (fun n => BitVec.ofNat 32 (cList.getD n.val 0)) k
      = (cList.map rowN).foldl (fun acc r => r.elim acc fun i => if k = i then IntOp.addi acc 1#32 else acc) 0#32 := by
  unfold countS
  rw [← rows_tab, List.foldl_map]
  conv => rhs; rw [← cList_getD]
  rw [List.foldl_map]

theorem count_tab : ∀ k : Fin 120,
    (cList.map rowN).foldl (fun acc r => r.elim acc fun i => if k = i then IntOp.addi acc 1#32 else acc) 0#32
      = BitVec.ofNat 32 (countList.getD k.val 0) := by decide +kernel

theorem flat_tab : ∀ k : Fin 120, winSumN 120 (fun k' => countList.getD k'.val 0) 0 k = flatList.getD k.val 0 := by
  decide +kernel

theorem coord_tab : ∀ k : Fin 120,
    rowS (BitVec.ofNat 32 (flatList.getD k.val 0)) = BitVec.ofNat 32 (Cert.Spec.pairI k).val
      ∧ colS (BitVec.ofNat 32 (flatList.getD k.val 0)) = BitVec.ofNat 32 (Cert.Spec.pairJ k).val := by decide +kernel

/-- %16 at k is the table's entry. -/
theorem flat_eq (k : Fin 120) : flatV maskV (ix1 k) = BitVec.ofNat 32 (flatList.getD k.val 0) := by
  rw [flatV_apply, show (fun n : Fin 256 => cumsumV maskV (ix1 n)) = fun n => BitVec.ofNat 32 (cList.getD n.val 0) from funext cums_eq,
    show countS (fun n : Fin 256 => BitVec.ofNat 32 (cList.getD n.val 0)) = fun k' => BitVec.ofNat 32 (countList.getD k'.val 0) from
      funext fun k' => (count_fold k').trans (count_tab k'),
    winSum_ofNat, flat_tab]

/-- THE TABLE OF GATHER INDICES: row `k` holds the two indices of pair number `k`. -/
theorem idxArray_apply (k : Fin 120) :
    idxArray (ix2 k (0 : Fin 2)) = BitVec.ofNat 32 (Cert.Spec.pairI k).val
      ∧ idxArray (ix2 k (1 : Fin 2)) = BitVec.ofNat 32 (Cert.Spec.pairJ k).val := by
  have h := coordsV_apply (flatV maskV) k
  rw [flat_eq k] at h
  exact ⟨h.1.trans (coord_tab k).1, h.2.trans (coord_tab k).2⟩

end Cert.ReferenceIdeal.RefIndex

end
-- ==== Proof.lean ====
/-
  A two-branch feature-interaction model, kernel against reference, on the extended reals.

  Both programs take a batch of 4096 rows, each of 16 feature vectors of 256 entries, three weight matrices with
  biases, and a last weight matrix with bias.  The higher-order branch lays a row's 4096 entries side by side and
  applies three affine layers, the first two followed by the maximum with zero.  The second-order branch takes, for
  each of the 120 pairs (i, j), i < j, in row-major order, the inner product of feature vectors i and j of the row.
  The two blocks are joined side by side, multiplied by the last weights, and the last bias is added.

  The kernel program computes the three layers in three pipelined regions, block of rows by block of rows, and the
  inner products in a fourth, one column of the output block per pair; the join, the last product and the bias are
  host operations.  The reference computes the layers as whole host products; for the second-order branch it forms
  every row's 16 × 16 matrix of inner products and gathers the 120 entries through a table of index pairs that it
  computes from constants — the positions of the ones of the strictly upper-triangular mask, by prefix sums and a
  counting scatter.  That table holds exactly the pairs (i, j), i < j, in row-major order.

  At the exact values every entry on either side is a finite sum of products, a maximum with zero, or a sum of two
  such: the two programs compute the same function of their arguments index by index, and no law of the extended reals
  beyond the definitions is used — in particular the finiteness of the inputs is never needed.  The ideal pass rewrote
  nothing, so the kernel's idealization is its own text read at the exact values.
-/
import proofs.«157121_j79989470920946_2_alg».proof.Defs
import proofs.«157121_j79989470920946_2_alg».proof.Proof.Gen.Kernel
import proofs.«157121_j79989470920946_2_alg».proof.Proof.Gen.Kernel.Skeleton
import proofs.«157121_j79989470920946_2_alg».proof.Proof.Gen.Kernel.Launch
import proofs.«157121_j79989470920946_2_alg».proof.Proof.Gen.Kernel.Points
import proofs.«157121_j79989470920946_2_alg».proof.Proof.Gen.Kernel.Frame
import proofs.«157121_j79989470920946_2_alg».proof.Proof.Gen.KernelIdeal
import proofs.«157121_j79989470920946_2_alg».proof.Proof.Gen.KernelIdeal.Skeleton
import proofs.«157121_j79989470920946_2_alg».proof.Proof.Gen.KernelIdeal.Launch
import proofs.«157121_j79989470920946_2_alg».proof.Proof.Gen.KernelIdeal.Points
import proofs.«157121_j79989470920946_2_alg».proof.Proof.Gen.KernelIdeal.Frame
import proofs.«157121_j79989470920946_2_alg».proof.Proof.Gen.ReferenceIdeal
import proofs.«157121_j79989470920946_2_alg».proof.Proof.Gen.Pre_finite_inputs
import proofs.«157121_j79989470920946_2_alg».proof.Proof.KernelValue
import proofs.«157121_j79989470920946_2_alg».proof.Proof.RefRun
import proofs.«157121_j79989470920946_2_alg».proof.Proof.RefLayers
import proofs.«157121_j79989470920946_2_alg».proof.Proof.RefGather
import proofs.«157121_j79989470920946_2_alg».proof.Proof.RefIndex
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

/-- The reference's result is its host tail of the specification's higher-order features of the flattened input and
    the specification's second-order features. -/
theorem reference_result (x : FVec Ideal Cert.ReferenceIdeal.S4096x16x256 .f32)
    (W1 : FVec Ideal Cert.ReferenceIdeal.S4096x1024 .f32) (b1 : FVec Ideal Cert.ReferenceIdeal.S1024 .f32)
    (W2 : FVec Ideal Cert.ReferenceIdeal.S1024x512 .f32) (b2 : FVec Ideal Cert.ReferenceIdeal.S512 .f32)
    (W3 : FVec Ideal Cert.ReferenceIdeal.S512x64 .f32) (b3 : FVec Ideal Cert.ReferenceIdeal.S64 .f32)
    (Wc : FVec Ideal Cert.ReferenceIdeal.S184x5 .f32) (bc : FVec Ideal Cert.ReferenceIdeal.S5 .f32) :
    Cert.ReferenceIdeal.RefRun.result x W1 b1 W2 b2 W3 b3 Wc bc
      = Cert.ReferenceIdeal.RefLayers.tail
          (Cert.Spec.hidden (shapeCast Cert.ReferenceIdeal.S4096x4096 x Cert.ReferenceIdeal.Facts₀.shapeCasts_S4096x16x256_S4096x4096) W1 b1 W2 b2 W3 b3)
          (Cert.Spec.pairDots x) Wc bc := by
  unfold Cert.ReferenceIdeal.RefRun.result
  rw [Cert.ReferenceIdeal.RefLayers.hidden_eq,
    Cert.ReferenceIdeal.RefGather.second_order_of Cert.ReferenceIdeal.RefIndex.idxArray_apply]

/-- From memories agreeing on the arguments both idealized programs end with the same result: the host tail — the
    same five operations in both — of the same higher-order and second-order features. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7, a8⟩ := hagree c
  rw [a0, a1, a2, a3, a4, a5, a6, a7, a8, reference_result]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
